-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128x40 .f32) (main_arg14 : FVec F S40 .f32) (main_arg15 : FVec F S128x40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x40 .f32 := Host.absf main_arg13
  let main_cst_20 : FVec F S_ .f32 := constant S_ .f32 0x7F800000#32
  let main_v55 : FVec F S128x40 .f32 := broadcastInDim S128x40 ![] bcast_S_S128x40 main_cst_20
  let main_v56 : IVec S128x40 1 := cmpf .olt main_v54 main_v55
  let main_c_21 : IVec S_ 1 := constantI S_ 1 1#1
  let main_v57 : IVec S_ 1 := (fun x v => Host.reduce IntOp.andi x v reducesTo_S128x40_S_d0_1 h_S_) main_v56 main_c_21
  let main_v58 : IVec S_ 1 := andi main_v53 main_v57
  let main_v59 : FVec F S40 .f32 := Host.absf main_arg14
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  let main_v64 : FVec F S128x40 .f32 := Host.absf main_arg15
  let main_cst_24 : FVec F S_ .f32 := constant S_ .f32 0x7F800000#32
  let main_v65 : FVec F S128x40 .f32 := broadcastInDim S128x40 ![] bcast_S_S128x40 main_cst_24
  let main_v66 : IVec S128x40 1 := cmpf .olt main_v64 main_v65
  let main_c_25 : IVec S_ 1 := constantI S_ 1 1#1
  let main_v67 : IVec S_ 1 := (fun x v => Host.reduce IntOp.andi x v reducesTo_S128x40_S_d0_1 h_S_) main_v66 main_c_25
  fn_part4 (F := F) main_v63 main_v67

def fn_part2 {F : FTy → Type} [FloatOps F] (main_arg9 : FVec F S128 .f32) (main_arg10 : FVec F S128x128 .f32) (main_arg11 : FVec F S128 .f32) (main_arg12 : FVec F S128 .f32) (main_arg13 : FVec F S128x40 .f32) (main_arg14 : FVec F S40 .f32) (main_arg15 : FVec F S128x40 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128x40 .f32) (main_arg14 : FVec F S40 .f32) (main_arg15 : FVec F S128x40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128x40 .f32) (main_arg14 : FVec F S40 .f32) (main_arg15 : FVec F S128x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S2000x128 : Shape := ⟨2, ![2000, 128]⟩
abbrev S1x40 : Shape := ⟨2, ![1, 40]⟩
abbrev S100000x40 : Shape := ⟨2, ![100000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 148
  | .vmem => 43
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128x40, .f32⟩
  | 14 => ⟨S40, .f32⟩
  | 15 => ⟨S128x40, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S100000x1, .f32⟩
  | 42 => ⟨S100000x128, .f32⟩
  | 43 => ⟨S100000x128, .f32⟩
  | 44 => ⟨S1x128, .f32⟩
  | 45 => ⟨S100000x128, .f32⟩
  | 46 => ⟨S_, .f32⟩
  | 47 => ⟨S128, .f32⟩
  | 48 => ⟨S1x128, .f32⟩
  | 49 => ⟨S_, .f32⟩
  | 50 => ⟨S1x128, .f32⟩
  | 51 => ⟨S1x128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S100000x128, .f32⟩
  | 60 => ⟨S100000x128, .f32⟩
  | 61 => ⟨S100000x128, .f32⟩
  | 62 => ⟨S_, .f32⟩
  | 63 => ⟨S_, .f32⟩
  | 64 => ⟨S_, .f32⟩
  | 65 => ⟨S_, .f32⟩
  | 66 => ⟨S128, .f32⟩
  | 67 => ⟨S1x128, .f32⟩
  | 68 => ⟨S1x128, .f32⟩
  | 69 => ⟨S1x128, .f32⟩
  | 70 => ⟨S_, .f32⟩
  | 71 => ⟨S_, .i1⟩
  | 72 => ⟨S_, .f32⟩
  | 73 => ⟨S_, .f32⟩
  | 74 => ⟨S1x128, .f32⟩
  | 75 => ⟨S1x128, .f32⟩
  | 76 => ⟨S1x128, .f32⟩
  | 77 => ⟨S1x128, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S100000x1, .f32⟩
  | 93 => ⟨S100000x128, .f32⟩
  | 94 => ⟨S100000x128, .f32⟩
  | 95 => ⟨S1x128, .f32⟩
  | 96 => ⟨S100000x128, .f32⟩
  | 97 => ⟨S_, .f32⟩
  | 98 => ⟨S128, .f32⟩
  | 99 => ⟨S1x128, .f32⟩
  | 100 => ⟨S_, .f32⟩
  | 101 => ⟨S1x128, .f32⟩
  | 102 => ⟨S1x128, .f32⟩
  | 103 => ⟨S_, .i32⟩
  | 104 => ⟨S_, .f32⟩
  | 105 => ⟨S128, .f32⟩
  | 106 => ⟨S1x128, .f32⟩
  | 107 => ⟨S_, .f32⟩
  | 108 => ⟨S1x128, .f32⟩
  | 109 => ⟨S1x128, .f32⟩
  | 110 => ⟨S100000x128, .f32⟩
  | 111 => ⟨S100000x128, .f32⟩
  | 112 => ⟨S100000x128, .f32⟩
  | 113 => ⟨S_, .f32⟩
  | 114 => ⟨S_, .f32⟩
  | 115 => ⟨S_, .f32⟩
  | 116 => ⟨S_, .f32⟩
  | 117 => ⟨S128, .f32⟩
  | 118 => ⟨S1x128, .f32⟩
  | 119 => ⟨S1x128, .f32⟩
  | 120 => ⟨S1x128, .f32⟩
  | 121 => ⟨S_, .f32⟩
  | 122 => ⟨S_, .i1⟩
  | 123 => ⟨S_, .f32⟩
  | 124 => ⟨S_, .f32⟩
  | 125 => ⟨S1x128, .f32⟩
  | 126 => ⟨S1x128, .f32⟩
  | 127 => ⟨S1x128, .f32⟩
  | _ => ⟨S100000x128, .f32⟩

abbrev hbmTy0_1 (i : Nat) : BufTy := match i % 128 with
  | 0 => ⟨S1x128, .f32⟩
  | 1 => ⟨S100000x128, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x128, .f32⟩
  | 11 => ⟨S_, .f32⟩
  | 12 => ⟨S100000x128, .f32⟩
  | 13 => ⟨S1600000x1, .i32⟩
  | 14 => ⟨S100000x128, .f32⟩
  | 15 => ⟨S100000x1, .f32⟩
  | 16 => ⟨S100000x128, .f32⟩
  | 17 => ⟨S100000x128, .f32⟩
  | 18 => ⟨S1x40, .f32⟩
  | 19 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x40, .f32⟩
  | .local _ .vmem, ⟨39, _⟩ => ⟨S1x40, .f32⟩
  | .local _ .vmem, ⟨40, _⟩ => ⟨S128x40, .f32⟩
  | .local _ .vmem, ⟨41, _⟩ => ⟨S2000x40, .f32⟩
  | .local _ .vmem, ⟨42, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_v26 : Ref sig .tc := ⟨.hbm, 51, rfl⟩
abbrev main_c_7 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_cst_1 : Ref sig .tc := ⟨.hbm, 63, rfl⟩
abbrev main_call0_v8 : Ref sig .tc := ⟨.hbm, 64, rfl⟩
abbrev main_call0_cst_2 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_v12 : Ref sig .tc := ⟨.hbm, 69, rfl⟩
abbrev main_call0_cst_3 : Ref sig .tc := ⟨.hbm, 70, rfl⟩
abbrev main_call0_v13 : Ref sig .tc := ⟨.hbm, 71, rfl⟩
abbrev main_call0_cst_4 : Ref sig .tc := ⟨.hbm, 72, rfl⟩
abbrev main_call0_call0_v0 : Ref sig .tc := ⟨.hbm, 73, rfl⟩
abbrev main_call0_call0_v1 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_c_8 : Ref sig .tc := ⟨.hbm, 79, rfl⟩
abbrev main_v31 : Ref sig .tc := ⟨.hbm, 80, rfl⟩
abbrev main_v32 : Ref sig .tc := ⟨.hbm, 81, rfl⟩
abbrev main_c_9 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_cst_10 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_cst_11 : Ref sig .tc := ⟨.hbm, 97, rfl⟩
abbrev main_v46 : Ref sig .tc := ⟨.hbm, 98, rfl⟩
abbrev main_v47 : Ref sig .tc := ⟨.hbm, 99, rfl⟩
abbrev main_cst_12 : Ref sig .tc := ⟨.hbm, 100, rfl⟩
abbrev main_v48 : Ref sig .tc := ⟨.hbm, 101, rfl⟩
abbrev main_v49 : Ref sig .tc := ⟨.hbm, 102, rfl⟩
abbrev main_c_13 : Ref sig .tc := ⟨.hbm, 103, rfl⟩
abbrev main_call1_cst : Ref sig .tc := ⟨.hbm, 104, rfl⟩
abbrev main_call1_v0 : Ref sig .tc := ⟨.hbm, 105, rfl⟩
abbrev main_call1_v1 : Ref sig .tc := ⟨.hbm, 106, rfl⟩
abbrev main_call1_cst_0 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_call1_v5 : Ref sig .tc := ⟨.hbm, 111, rfl⟩
abbrev main_call1_v6 : Ref sig .tc := ⟨.hbm, 112, rfl⟩
abbrev main_call1_v7 : Ref sig .tc := ⟨.hbm, 113, rfl⟩
abbrev main_call1_cst_1 : Ref sig .tc := ⟨.hbm, 114, rfl⟩
abbrev main_call1_v8 : Ref sig .tc := ⟨.hbm, 115, rfl⟩
abbrev main_call1_cst_2 : Ref sig .tc := ⟨.hbm, 116, rfl⟩
abbrev main_call1_v9 : Ref sig .tc := ⟨.hbm, 117, rfl⟩
abbrev main_call1_v10 : Ref sig .tc := ⟨.hbm, 118, rfl⟩
abbrev main_call1_v11 : Ref sig .tc := ⟨.hbm, 119, rfl⟩
abbrev main_call1_v12 : Ref sig .tc := ⟨.hbm, 120, rfl⟩
abbrev main_call1_cst_3 : Ref sig .tc := ⟨.hbm, 121, rfl⟩
abbrev main_call1_v13 : Ref sig .tc := ⟨.hbm, 122, rfl⟩
abbrev main_call1_cst_4 : Ref sig .tc := ⟨.hbm, 123, rfl⟩
abbrev main_call1_call0_v0 : Ref sig .tc := ⟨.hbm, 124, rfl⟩
abbrev main_call1_call0_v1 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_c_14 : Ref sig .tc := ⟨.hbm, 130, rfl⟩
abbrev main_v54 : Ref sig .tc := ⟨.hbm, 131, rfl⟩
abbrev main_v55 : Ref sig .tc := ⟨.hbm, 132, rfl⟩
abbrev main_c_15 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_cst_16 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x40 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x40 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x40.size a ≤ S128x40.size a
  hwx4_2 : ∀ i : grid4.Coords, EltTy.bits .f32 = 32 ∨ (Rect.block (s := S128x40) S128x40.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x40.size a ≤ S1x40.size a
  hwx4_3 : ∀ i : grid4.Coords, EltTy.bits .f32 = 32 ∨ (Rect.block (s := S1x40) S1x40.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x40.size a ≤ S128x40.size a
  hwx4_4 : ∀ i : grid4.Coords, EltTy.bits .f32 = 32 ∨ (Rect.block (s := S128x40) S128x40.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x40.size a ≤ S100000x40.size a
  hwx4_5 : ∀ i : grid4.Coords, EltTy.bits .f32 = 32 ∨ (Rect.block (s := S100000x40) S2000x40.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v20) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v45) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v66) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S128x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S1x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg15) S128x40.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v68) S2000x40.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 199
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128x40, .f32⟩
  | 14 => ⟨S40, .f32⟩
  | 15 => ⟨S128x40, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S100000x1, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S100000x128, .f32⟩
  | 49 => ⟨S100000x128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S_, .f32⟩
  | 82 => ⟨S128, .f32⟩
  | 83 => ⟨S128, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x128, .f32⟩
  | 104 => ⟨S_, .f32⟩
  | 105 => ⟨S100000x128, .f32⟩
  | 106 => ⟨S1600000x1, .i32⟩
  | 107 => ⟨S100000x128, .f32⟩
  | 108 => ⟨S100000x1, .f32⟩
  | 109 => ⟨S100000x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S100000x128, .f32⟩
  | 116 => ⟨S100000x128, .f32⟩
  | 117 => ⟨S_, .f32⟩
  | 118 => ⟨S128, .f32⟩
  | 119 => ⟨S_, .f32⟩
  | 120 => ⟨S128, .f32⟩
  | 121 => ⟨S128, .f32⟩
  | 122 => ⟨S_, .i32⟩
  | 123 => ⟨S_, .f32⟩
  | 124 => ⟨S128, .f32⟩
  | 125 => ⟨S1x128, .f32⟩
  | 126 => ⟨S_, .f32⟩
  | 127 => ⟨S1x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S100000x128, .f32⟩
  | 4 => ⟨S_, .f32⟩
  | 5 => ⟨S_, .f32⟩
  | 6 => ⟨S_, .f32⟩
  | 7 => ⟨S_, .f32⟩
  | 8 => ⟨S128, .f32⟩
  | 9 => ⟨S128, .f32⟩
  | 10 => ⟨S128, .f32⟩
  | 11 => ⟨S_, .f32⟩
  | 12 => ⟨S_, .i1⟩
  | 13 => ⟨S_, .f32⟩
  | 14 => ⟨S_, .f32⟩
  | 15 => ⟨S128, .f32⟩
  | 16 => ⟨S128, .f32⟩
  | 17 => ⟨S1x128, .f32⟩
  | 18 => ⟨S100000x128, .f32⟩
  | 19 => ⟨S100000x128, .f32⟩
  | 20 => ⟨S_, .f32⟩
  | 21 => ⟨S128, .f32⟩
  | 22 => ⟨S128, .f32⟩
  | 23 => ⟨S128, .f32⟩
  | 24 => ⟨S128, .f32⟩
  | 25 => ⟨S1x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S100000x1, .f32⟩
  | 48 => ⟨S100000x128, .f32⟩
  | 49 => ⟨S100000x128, .f32⟩
  | 50 => ⟨S100000x40, .f32⟩
  | 51 => ⟨S1x40, .f32⟩
  | 52 => ⟨S100000x40, .f32⟩
  | 53 => ⟨S100000x40, .f32⟩
  | 54 => ⟨S100000x40, .f32⟩
  | 55 => ⟨S100000x40, .f32⟩
  | 56 => ⟨S_, .f32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x40, .f32⟩
  | 63 => ⟨S100000x40, .f32⟩
  | 64 => ⟨S100000x40, .f32⟩
  | 65 => ⟨S_, .f32⟩
  | 66 => ⟨S100000, .f32⟩
  | 67 => ⟨S100000x1, .f32⟩
  | 68 => ⟨S100000x1, .f32⟩
  | 69 => ⟨S100000x40, .f32⟩
  | 70 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_cst_3 : Ref sig .tc := ⟨.hbm, 72, rfl⟩
abbrev main_call0_v12 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_cst_8 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_call1_cst : Ref sig .tc := ⟨.hbm, 92, rfl⟩
abbrev main_call1_v0 : Ref sig .tc := ⟨.hbm, 93, rfl⟩
abbrev main_v44 : Ref sig .tc := ⟨.hbm, 94, rfl⟩
abbrev main_c_9 : Ref sig .tc := ⟨.hbm, 95, rfl⟩
abbrev main_v45 : Ref sig .tc := ⟨.hbm, 96, rfl⟩
abbrev main_v46 : Ref sig .tc := ⟨.hbm, 97, rfl⟩
abbrev main_c_10 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_cst_11 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_12 : Ref sig .tc := ⟨.hbm, 117, rfl⟩
abbrev main_v64 : Ref sig .tc := ⟨.hbm, 118, rfl⟩
abbrev main_cst_13 : Ref sig .tc := ⟨.hbm, 119, rfl⟩
abbrev main_v65 : Ref sig .tc := ⟨.hbm, 120, rfl⟩
abbrev main_v66 : Ref sig .tc := ⟨.hbm, 121, rfl⟩
abbrev main_c_14 : Ref sig .tc := ⟨.hbm, 122, rfl⟩
abbrev main_call2_cst : Ref sig .tc := ⟨.hbm, 123, rfl⟩
abbrev main_call2_v0 : Ref sig .tc := ⟨.hbm, 124, rfl⟩
abbrev main_call2_v1 : Ref sig .tc := ⟨.hbm, 125, rfl⟩
abbrev main_call2_cst_0 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_v6 : Ref sig .tc := ⟨.hbm, 131, rfl⟩
abbrev main_call2_v7 : Ref sig .tc := ⟨.hbm, 132, rfl⟩
abbrev main_call2_cst_1 : Ref sig .tc := ⟨.hbm, 133, rfl⟩
abbrev main_call2_v8 : Ref sig .tc := ⟨.hbm, 134, rfl⟩
abbrev main_call2_cst_2 : Ref sig .tc := ⟨.hbm, 135, rfl⟩
abbrev main_call2_v9 : Ref sig .tc := ⟨.hbm, 136, rfl⟩
abbrev main_call2_v10 : Ref sig .tc := ⟨.hbm, 137, rfl⟩
abbrev main_call2_v11 : Ref sig .tc := ⟨.hbm, 138, rfl⟩
abbrev main_call2_cst_3 : Ref sig .tc := ⟨.hbm, 139, rfl⟩
abbrev main_call2_v12 : Ref sig .tc := ⟨.hbm, 140, rfl⟩
abbrev main_call2_cst_4 : Ref sig .tc := ⟨.hbm, 141, rfl⟩
abbrev main_call2_call0_v0 : Ref sig .tc := ⟨.hbm, 142, rfl⟩
abbrev main_call2_call0_v1 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_cst_15 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_call3_cst : Ref sig .tc := ⟨.hbm, 159, rfl⟩
abbrev main_call3_v0 : Ref sig .tc := ⟨.hbm, 160, rfl⟩
abbrev main_v81 : Ref sig .tc := ⟨.hbm, 161, rfl⟩
abbrev main_c_16 : Ref sig .tc := ⟨.hbm, 162, rfl⟩
abbrev main_v82 : Ref sig .tc := ⟨.hbm, 163, rfl⟩
abbrev main_v83 : Ref sig .tc := ⟨.hbm, 164, rfl⟩
abbrev main_c_17 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_cst_18 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_call4_cst : Ref sig .tc := ⟨.hbm, 184, rfl⟩
abbrev main_call4_v0 : Ref sig .tc := ⟨.hbm, 185, rfl⟩
abbrev main_call4_cst_0 : Ref sig .tc := ⟨.hbm, 186, rfl⟩
abbrev main_call4_v1 : Ref sig .tc := ⟨.hbm, 187, rfl⟩
abbrev main_call4_v2 : Ref sig .tc := ⟨.hbm, 188, rfl⟩
abbrev main_call4_v3 : Ref sig .tc := ⟨.hbm, 189, rfl⟩
abbrev main_call4_v4 : Ref sig .tc := ⟨.hbm, 190, rfl⟩
abbrev main_call4_v5 : Ref sig .tc := ⟨.hbm, 191, rfl⟩
abbrev main_call4_v6 : Ref sig .tc := ⟨.hbm, 192, rfl⟩
abbrev main_call4_cst_1 : Ref sig .tc := ⟨.hbm, 193, rfl⟩
abbrev main_call4_v7 : Ref sig .tc := ⟨.hbm, 194, rfl⟩
abbrev main_call4_v8 : Ref sig .tc := ⟨.hbm, 195, rfl⟩
abbrev main_call4_v9 : Ref sig .tc := ⟨.hbm, 196, rfl⟩
abbrev main_call4_v10 : Ref sig .tc := ⟨.hbm, 197, rfl⟩
abbrev main_v101 : Ref sig .tc := ⟨.hbm, 198, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000x1_S100000x40_0_1 : S100000x1.BroadcastsInDim S100000x40 (![0, 1] : Fin 2 → Fin S100000x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KRun.lean ====
/-
  The idealized kernel's run with its result named: every weakly fair execution of @main terminates without
  a fault, the sixteen argument arrays end as launched, and the result array ends at the contents the last
  segment boundary gives it. @main is five kernel regions among stretches of host operations; the contents
  of every buffer at each boundary are a fold from the launch memory, and the final state is read against
  the last boundary.
-/
import proofs.«116927_j80977313399688_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run_result : θ_run defs (onTc (τ := τ) (main (F := F))) ⟨m, fun _ => 0, ρ⟩ (fun r => ∀ c : Dev nD,
      r.2.mem ((c.tc : Thread nD τ).loc main_v68) = W14 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v68 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c)⟩)

end Cert.KernelIdeal.KRun

end
-- ==== Proof.LibHostSSA.lean ====
/-
  Reading a straight line of host operations one operation at a time.

  In a line where every array is written by at most one operation, and an operation reads only arrays written before it
  (or never written by the line), what an array holds AFTER THE WHOLE LINE obeys the operation that writes it: the
  result array holds the operation's function of its operand arrays, all read after the whole line. The reason: cut the
  line at the operation; the part after it writes neither the result nor the operands, so reading them after the whole
  line is reading them right after (for the result) or right before (for the operands) the operation. The lemmas take
  the line, the list of arrays it writes in order, the position of the operation, and three list non-memberships that a
  literal line decides. Independent of any program.
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- Running one stretch after another: the line `l₁ ++ l₂` from `V` is `l₂` from what `l₁` leaves. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op ops ih => exact ih (op.result V)

/-- The line `L` writes exactly the arrays `W`, in order: each operation its one result array. -/
def WritesAre : List (HloOp τ sig Val) → List (Ref sig .tc) → Prop
  | [], [] => True
  | op :: L, r :: W => op.writes = {Proc.devRef .tc r} ∧ WritesAre L W
  | [], _ :: _ => False
  | _ :: _, [] => False

/-- A line leaves alone every array it does not write. -/
theorem WritesAre.keeps : ∀ {L : List (HloOp τ sig Val)} {W : List (Ref sig .tc)}, WritesAre L W →
    ∀ (V : Valuation τ sig Val) (r : Ref sig .tc), r ∉ W → StableHlo.after L V (Proc.devRef .tc r) = V (Proc.devRef .tc r)
  | [], [], _, _, _, _ => rfl
  | op :: L, w :: W, h, V, r, hr => by
      rw [StableHlo.after_cons, WritesAre.keeps h.2 _ r (fun hm => hr (List.mem_cons_of_mem _ hm)),
        op.result_of_not_mem V (by
          rw [h.1, Finset.mem_singleton]
          exact StableHlo.devRef_ne_of_ne (fun e => hr (e ▸ List.mem_cons_self)))]
  | [], _ :: _, h, _, _, _ => h.elim
  | _ :: _, [], h, _, _, _ => h.elim

/-- The tail of a line writes the tail of the list. -/
theorem WritesAre.drop : ∀ (k : ℕ) {L : List (HloOp τ sig Val)} {W : List (Ref sig .tc)}, WritesAre L W →
    WritesAre (L.drop k) (W.drop k)
  | 0, _, _, h => h
  | _ + 1, [], [], _ => trivial
  | k + 1, _ :: _, _ :: _, h => WritesAre.drop k h.2
  | _ + 1, [], _ :: _, h => h.elim
  | _ + 1, _ :: _, [], h => h.elim

variable {L : List (HloOp τ sig Val)} {W : List (Ref sig .tc)}

/-- An array no operation from position `k` on writes holds after the line what it held before position `k`. -/
theorem after_eq_take (h : WritesAre L W) (k : ℕ) (V : Valuation τ sig Val) (r : Ref sig .tc) (hr : r ∉ W.drop k) :
    StableHlo.after L V (Proc.devRef .tc r) = StableHlo.after (L.take k) V (Proc.devRef .tc r) := by
  conv_lhs => rw [← List.take_append_drop k L]
  rw [after_append]
  exact (h.drop k).keeps _ r hr

/-- An array no operation after position `k` writes holds after the line what operation `k` leaves in it. -/
theorem after_at (h : WritesAre L W) (k : ℕ) (V : Valuation τ sig Val) (op : HloOp τ sig Val)
    (hk : L.drop k = op :: L.drop (k + 1)) (r : Ref sig .tc) (hr : r ∉ W.drop (k + 1)) :
    StableHlo.after L V (Proc.devRef .tc r) = op.result (StableHlo.after (L.take k) V) (Proc.devRef .tc r) := by
  conv_lhs => rw [← List.take_append_drop k L, hk]
  rw [after_append, StableHlo.after_cons]
  exact (h.drop (k + 1)).keeps _ r hr

variable {x a b c y : Ref sig .tc}

theorem ssa_nullary (h : WritesAre L W) (k : ℕ) (V : Valuation τ sig Val) (v : y.ty.Contents Val) (hy)
    (hk : L.drop k = nullary (τ := τ) y v hy :: L.drop (k + 1)) (hy' : y ∉ W.drop (k + 1)) :
    StableHlo.after L V (Proc.devRef .tc y) = v := by
  rw [after_at h k V _ hk y hy', nullary_result]

theorem ssa_unary (h : WritesAre L W) (k : ℕ) (V : Valuation τ sig Val) (f : x.ty.Contents Val → y.ty.Contents Val) (hx hy)
    (hk : L.drop k = unary (τ := τ) x y f hx hy :: L.drop (k + 1)) (hy' : y ∉ W.drop (k + 1)) (hx' : x ∉ W.drop k) :
    StableHlo.after L V (Proc.devRef .tc y) = f (StableHlo.after L V (Proc.devRef .tc x)) := by
  rw [after_at h k V _ hk y hy', unary_result, after_eq_take h k V x hx']

theorem ssa_binary (h : WritesAre L W) (k : ℕ) (V : Valuation τ sig Val)
    (f : a.ty.Contents Val → b.ty.Contents Val → y.ty.Contents Val) (ha hb hy)
    (hk : L.drop k = binary (τ := τ) a b y f ha hb hy :: L.drop (k + 1)) (hy' : y ∉ W.drop (k + 1))
    (ha' : a ∉ W.drop k) (hb' : b ∉ W.drop k) :
    StableHlo.after L V (Proc.devRef .tc y) = f (StableHlo.after L V (Proc.devRef .tc a)) (StableHlo.after L V (Proc.devRef .tc b)) := by
  rw [after_at h k V _ hk y hy', binary_result, after_eq_take h k V a ha', after_eq_take h k V b hb']

theorem ssa_ternary (h : WritesAre L W) (k : ℕ) (V : Valuation τ sig Val)
    (f : c.ty.Contents Val → a.ty.Contents Val → b.ty.Contents Val → y.ty.Contents Val) (hc ha hb hy)
    (hk : L.drop k = ternary (τ := τ) c a b y f hc ha hb hy :: L.drop (k + 1)) (hy' : y ∉ W.drop (k + 1))
    (hc' : c ∉ W.drop k) (ha' : a ∉ W.drop k) (hb' : b ∉ W.drop k) :
    StableHlo.after L V (Proc.devRef .tc y)
      = f (StableHlo.after L V (Proc.devRef .tc c)) (StableHlo.after L V (Proc.devRef .tc a)) (StableHlo.after L V (Proc.devRef .tc b)) := by
  rw [after_at h k V _ hk y hy', ternary_result, after_eq_take h k V c hc', after_eq_take h k V a ha', after_eq_take h k V b hb']

theorem ssa_reshape (h : WritesAre L W) (k : ℕ) (V : Valuation τ sig Val) (he hn hx hy)
    (hk : L.drop k = reshape (τ := τ) (Val := Val) x y he hn hx hy :: L.drop (k + 1)) (hy' : y ∉ W.drop (k + 1)) (hx' : x ∉ W.drop k) :
    StableHlo.after L V (Proc.devRef .tc y)
      = fun i => he ▸ shapeCast y.ty.shape (StableHlo.after L V (Proc.devRef .tc x)) hn i := by
  rw [after_at h k V _ hk y hy', reshape_result, after_eq_take h k V x hx']

/-- A join of three operands, written as one operation over a literal family of three arrays. -/
theorem ssa_nary3 (h : WritesAre L W) (k : ℕ) (V : Valuation τ sig Val)
    (f : ((i : Fin 3) → ((![a, b, c] : Fin 3 → Ref sig .tc) i).ty.Contents Val) → y.ty.Contents Val) (hxs hy)
    (hk : L.drop k = nary (τ := τ) ![a, b, c] y f hxs hy :: L.drop (k + 1)) (hy' : y ∉ W.drop (k + 1))
    (ha' : a ∉ W.drop k) (hb' : b ∉ W.drop k) (hc' : c ∉ W.drop k) :
    StableHlo.after L V (Proc.devRef .tc y)
      = f (Fin.cons (StableHlo.after L V (Proc.devRef .tc a)) (Fin.cons (StableHlo.after L V (Proc.devRef .tc b))
          (Fin.cons (StableHlo.after L V (Proc.devRef .tc c)) (fun i => i.elim0)))) := by
  rw [after_at h k V _ hk y hy', nary_result, after_eq_take h k V a ha', after_eq_take h k V b hb', after_eq_take h k V c hc']
  congr 1; funext i; fin_cases i <;> rfl

end Cert.Lib

end
-- ==== Proof.RefOps.lean ====
/-
  The reference program as one straight line of host operations.

  The reference's @main is 118 operations of its own and five calls of outlined functions (the column variance
  twice, the rectifier twice, the log-softmax once; the variance itself calls a select). A call executes the
  callee's body on the operands, so the program is the line of 183 operations below: the callee's operations
  stand at the call site, over the arrays that call names. Each of the 183 arrays other than the sixteen
  arguments is written by exactly one operation, in the order of the line.
-/
import proofs.«116927_j80977313399688_1_alg».proof.ReferenceIdeal
import proofs.«116927_j80977313399688_1_alg».proof.Proof.Gen.ReferenceIdeal
import proofs.«116927_j80977313399688_1_alg».proof.Proof.LibHostSSA
import Idealize.ShloMosaic.Lib.StableHlo.Run
import Idealize.ShloMosaic.Lib.Pipeline.Regions

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- The 183 operations, in order: the outlined functions' operations at their call sites. -/
abbrev ops : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg2 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v4 (broadcastInDim S100000 ![] bcast_S_S100000 : (⟨S_, .f32⟩ : BufTy).Contents (Elt F) → (⟨S100000, .f32⟩ : BufTy).Contents (Elt F)),
    StableHlo.binary main_v3 main_v4 main_v5 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0x3F800000#32),
    StableHlo.unary main_cst_2 main_v6 (broadcastInDim S100000 ![] bcast_S_S100000 : (⟨S_, .f32⟩ : BufTy).Contents (Elt F) → (⟨S100000, .f32⟩ : BufTy).Contents (Elt F)),
    StableHlo.binary main_v6 main_v5 main_v7 (Host.divf : (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v8 (broadcastInDim S1600000 ![] bcast_S_S1600000 : (⟨S_, .i32⟩ : BufTy).Contents (Elt F) → (⟨S1600000, .i32⟩ : BufTy).Contents (Elt F)),
    StableHlo.binary main_arg1 main_v8 main_v9 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v10 (broadcastInDim S1600000 ![] bcast_S_S1600000 : (⟨S_, .i32⟩ : BufTy).Contents (Elt F) → (⟨S1600000, .i32⟩ : BufTy).Contents (Elt F)),
    StableHlo.binary main_arg1 main_v10 main_v11 (addi : (⟨S1600000, .i32⟩ : BufTy).Contents (Elt F) → (⟨S1600000, .i32⟩ : BufTy).Contents (Elt F) → (⟨S1600000, .i32⟩ : BufTy).Contents (Elt F)),
    StableHlo.ternary main_v9 main_v11 main_arg1 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v12 main_v13 (broadcastInDim S1600000x1 ![0] bcast_S1600000_S1600000x1_0 : (⟨S1600000, .i32⟩ : BufTy).Contents (Elt F) → (⟨S1600000x1, .i32⟩ : BufTy).Contents (Elt F)),
    StableHlo.binary main_arg0 main_v13 main_v14 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_4 (constant S_ .f32 0x00000000#32),
    StableHlo.unary main_cst_4 main_v15 (broadcastInDim S100000x128 ![] bcast_S_S100000x128 : (⟨S_, .f32⟩ : BufTy).Contents (Elt F) → (⟨S100000x128, .f32⟩ : BufTy).Contents (Elt F)),
    StableHlo.unary main_arg2 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v7 main_v18 (broadcastInDim S100000x1 ![0] bcast_S100000_S100000x1_0 : (⟨S100000, .f32⟩ : BufTy).Contents (Elt F) → (⟨S100000x1, .f32⟩ : BufTy).Contents (Elt F)),
    StableHlo.unary main_v18 main_v19 (broadcastInDim S100000x128 ![0, 1] bcast_S100000x1_S100000x128_0_1 : (⟨S100000x1, .f32⟩ : BufTy).Contents (Elt F) → (⟨S100000x128, .f32⟩ : BufTy).Contents (Elt F)),
    StableHlo.binary main_v17 main_v19 main_v20 (mulf : (⟨S100000x128, .f32⟩ : BufTy).Contents (Elt F) → (⟨S100000x128, .f32⟩ : BufTy).Contents (Elt F) → (⟨S100000x128, .f32⟩ : BufTy).Contents (Elt F)),
    StableHlo.binary main_v20 main_arg3 main_v21 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S100000x128 ![0, 1] bcast_S1x128_S100000x128_0_1 : (⟨S1x128, .f32⟩ : BufTy).Contents (Elt F) → (⟨S100000x128, .f32⟩ : BufTy).Contents (Elt F)),
    StableHlo.binary main_v21 main_v23 main_v24 (addf : (⟨S100000x128, .f32⟩ : BufTy).Contents (Elt F) → (⟨S100000x128, .f32⟩ : BufTy).Contents (Elt F) → (⟨S100000x128, .f32⟩ : BufTy).Contents (Elt F)),
    StableHlo.binary main_arg0 main_arg5 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v24 main_v25 main_v26 (addf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x00000000#32),
    StableHlo.binary main_v26 main_cst_5 main_v27 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_6 (constant S_ .f32 0x47C35000#32),
    StableHlo.unary main_cst_6 main_v28 (broadcastInDim S128 ![] bcast_S_S128 : (⟨S_, .f32⟩ : BufTy).Contents (Elt F) → (⟨S128, .f32⟩ : BufTy).Contents (Elt F)),
    StableHlo.binary main_v27 main_v28 main_v29 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call0.cst (constant S_ .f32 0x00000000#32),
    StableHlo.TRef.binary (.of main_v26 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v26 : StableHlo.TRef sig ⟨S100000x128, .f32⟩) main_call0.v4 main_call0.v5 subf,
    StableHlo.TRef.binary main_call0.v5 main_call0.v5 main_call0.v6 mulf,
    StableHlo.TRef.unary (.of main_c_7 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0_call0.v0 id,
    StableHlo.TRef.unary main_call0_call0.v0 main_call0_call0.v1 (broadcastInDim S128 ![] bcast_S_S128),
    StableHlo.TRef.ternary main_call0.v12 main_call0.v11 main_call0_call0.v1 main_call0_call0.v2 (fun p a b => select (broadcastInDim S128 ![] bcast_S_S128 p) a b),
    StableHlo.unary main_v29 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S100000x128 ![0, 1] bcast_S1x128_S100000x128_0_1 : (⟨S1x128, .f32⟩ : BufTy).Contents (Elt F) → (⟨S100000x128, .f32⟩ : BufTy).Contents (Elt F)),
    StableHlo.binary main_v26 main_v32 main_v33 (subf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v34 (broadcastInDim S128 ![] bcast_S_S128 : (⟨S_, .f32⟩ : BufTy).Contents (Elt F) → (⟨S128, .f32⟩ : BufTy).Contents (Elt F)),
    StableHlo.binary main_v30 main_v34 main_v35 (addf : (⟨S128, .f32⟩ : BufTy).Contents (Elt F) → (⟨S128, .f32⟩ : BufTy).Contents (Elt F) → (⟨S128, .f32⟩ : BufTy).Contents (Elt F)),
    StableHlo.unary main_v35 main_v36 (Host.sqrt : (⟨S128, .f32⟩ : BufTy).Contents (Elt F) → (⟨S128, .f32⟩ : BufTy).Contents (Elt F)),
    StableHlo.binary main_arg6 main_v36 main_v37 (Host.divf : (⟨S128, .f32⟩ : BufTy).Contents (Elt F) → (⟨S128, .f32⟩ : BufTy).Contents (Elt F) → (⟨S128, .f32⟩ : BufTy).Contents (Elt F)),
    StableHlo.unary main_v37 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v33 main_v39 main_v40 (mulf : (⟨S100000x128, .f32⟩ : BufTy).Contents (Elt F) → (⟨S100000x128, .f32⟩ : BufTy).Contents (Elt F) → (⟨S100000x128, .f32⟩ : BufTy).Contents (Elt F)),
    StableHlo.unary main_arg7 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v43 : StableHlo.TRef sig ⟨S100000x128, .f32⟩) main_call1.v0 main_call1.v1 maximumf,
    StableHlo.nullary main_c_9 (constantI S_ 32 0#32),
    StableHlo.unary main_c_9 main_v45 (broadcastInDim S1600000 ![] bcast_S_S1600000 : (⟨S_, .i32⟩ : BufTy).Contents (Elt F) → (⟨S1600000, .i32⟩ : BufTy).Contents (Elt F)),
    StableHlo.binary main_arg1 main_v45 main_v46 (cmpi .slt : (⟨S1600000, .i32⟩ : BufTy).Contents (Elt F) → (⟨S1600000, .i32⟩ : BufTy).Contents (Elt F) → (⟨S1600000, .i1⟩ : BufTy).Contents (Elt F)),
    StableHlo.nullary main_c_10 (constantI S_ 32 100000#32),
    StableHlo.unary main_c_10 main_v47 (broadcastInDim S1600000 ![] bcast_S_S1600000 : (⟨S_, .i32⟩ : BufTy).Contents (Elt F) → (⟨S1600000, .i32⟩ : BufTy).Contents (Elt F)),
    StableHlo.binary main_arg1 main_v47 main_v48 (addi : (⟨S1600000, .i32⟩ : BufTy).Contents (Elt F) → (⟨S1600000, .i32⟩ : BufTy).Contents (Elt F) → (⟨S1600000, .i32⟩ : BufTy).Contents (Elt F)),
    StableHlo.ternary main_v46 main_v48 main_arg1 main_v49 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v49 main_v50 (broadcastInDim S1600000x1 ![0] bcast_S1600000_S1600000x1_0 : (⟨S1600000, .i32⟩ : BufTy).Contents (Elt F) → (⟨S1600000x1, .i32⟩ : BufTy).Contents (Elt F)),
    StableHlo.binary main_v44 main_v50 main_v51 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_11 (constant S_ .f32 0x00000000#32),
    StableHlo.unary main_cst_11 main_v52 (broadcastInDim S100000x128 ![] bcast_S_S100000x128 : (⟨S_, .f32⟩ : BufTy).Contents (Elt F) → (⟨S100000x128, .f32⟩ : BufTy).Contents (Elt F)),
    StableHlo.unary main_arg2 main_v53 (broadcastInDim S1600000x1 ![0] bcast_S1600000_S1600000x1_0 : (⟨S1600000, .i32⟩ : BufTy).Contents (Elt F) → (⟨S1600000x1, .i32⟩ : BufTy).Contents (Elt F)),
    StableHlo.ternary main_v52 main_v53 main_v51 main_v54 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v7 main_v55 (broadcastInDim S100000x1 ![0] bcast_S100000_S100000x1_0 : (⟨S100000, .f32⟩ : BufTy).Contents (Elt F) → (⟨S100000x1, .f32⟩ : BufTy).Contents (Elt F)),
    StableHlo.unary main_v55 main_v56 (broadcastInDim S100000x128 ![0, 1] bcast_S100000x1_S100000x128_0_1 : (⟨S100000x1, .f32⟩ : BufTy).Contents (Elt F) → (⟨S100000x128, .f32⟩ : BufTy).Contents (Elt F)),
    StableHlo.binary main_v54 main_v56 main_v57 (mulf : (⟨S100000x128, .f32⟩ : BufTy).Contents (Elt F) → (⟨S100000x128, .f32⟩ : BufTy).Contents (Elt F) → (⟨S100000x128, .f32⟩ : BufTy).Contents (Elt F)),
    StableHlo.binary main_v57 main_arg8 main_v58 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v60 main_v61 (addf : (⟨S100000x128, .f32⟩ : BufTy).Contents (Elt F) → (⟨S100000x128, .f32⟩ : BufTy).Contents (Elt F) → (⟨S100000x128, .f32⟩ : BufTy).Contents (Elt F)),
    StableHlo.binary main_v44 main_arg10 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v61 main_v62 main_v63 (addf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x00000000#32),
    StableHlo.binary main_v63 main_cst_12 main_v64 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_13 (constant S_ .f32 0x47C35000#32),
    StableHlo.unary main_cst_13 main_v65 (broadcastInDim S128 ![] bcast_S_S128 : (⟨S_, .f32⟩ : BufTy).Contents (Elt F) → (⟨S128, .f32⟩ : BufTy).Contents (Elt F)),
    StableHlo.binary main_v64 main_v65 main_v66 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call2.cst (constant S_ .f32 0x00000000#32),
    StableHlo.TRef.binary (.of main_v63 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v63 : StableHlo.TRef sig ⟨S100000x128, .f32⟩) main_call2.v4 main_call2.v5 subf,
    StableHlo.TRef.binary main_call2.v5 main_call2.v5 main_call2.v6 mulf,
    StableHlo.TRef.unary (.of main_c_14 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2_call0.v0 id,
    StableHlo.TRef.unary main_call2_call0.v0 main_call2_call0.v1 (broadcastInDim S128 ![] bcast_S_S128),
    StableHlo.TRef.ternary main_call2.v12 main_call2.v11 main_call2_call0.v1 main_call2_call0.v2 (fun p a b => select (broadcastInDim S128 ![] bcast_S_S128 p) a b),
    StableHlo.unary main_v66 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v69 main_v70 (subf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x3727C5AC#32),
    StableHlo.unary main_cst_15 main_v71 (broadcastInDim S128 ![] bcast_S_S128 : (⟨S_, .f32⟩ : BufTy).Contents (Elt F) → (⟨S128, .f32⟩ : BufTy).Contents (Elt F)),
    StableHlo.binary main_v67 main_v71 main_v72 (addf : (⟨S128, .f32⟩ : BufTy).Contents (Elt F) → (⟨S128, .f32⟩ : BufTy).Contents (Elt F) → (⟨S128, .f32⟩ : BufTy).Contents (Elt F)),
    StableHlo.unary main_v72 main_v73 (Host.sqrt : (⟨S128, .f32⟩ : BufTy).Contents (Elt F) → (⟨S128, .f32⟩ : BufTy).Contents (Elt F)),
    StableHlo.binary main_arg11 main_v73 main_v74 (Host.divf : (⟨S128, .f32⟩ : BufTy).Contents (Elt F) → (⟨S128, .f32⟩ : BufTy).Contents (Elt F) → (⟨S128, .f32⟩ : BufTy).Contents (Elt F)),
    StableHlo.unary main_v74 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S100000x128 ![0, 1] bcast_S1x128_S100000x128_0_1 : (⟨S1x128, .f32⟩ : BufTy).Contents (Elt F) → (⟨S100000x128, .f32⟩ : BufTy).Contents (Elt F)),
    StableHlo.binary main_v70 main_v76 main_v77 (mulf : (⟨S100000x128, .f32⟩ : BufTy).Contents (Elt F) → (⟨S100000x128, .f32⟩ : BufTy).Contents (Elt F) → (⟨S100000x128, .f32⟩ : BufTy).Contents (Elt F)),
    StableHlo.unary main_arg12 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v77 main_v79 main_v80 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v80 : StableHlo.TRef sig ⟨S100000x128, .f32⟩) main_call3.v0 main_call3.v1 maximumf,
    StableHlo.nullary main_c_16 (constantI S_ 32 0#32),
    StableHlo.unary main_c_16 main_v82 (broadcastInDim S1600000 ![] bcast_S_S1600000 : (⟨S_, .i32⟩ : BufTy).Contents (Elt F) → (⟨S1600000, .i32⟩ : BufTy).Contents (Elt F)),
    StableHlo.binary main_arg1 main_v82 main_v83 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v84 (broadcastInDim S1600000 ![] bcast_S_S1600000 : (⟨S_, .i32⟩ : BufTy).Contents (Elt F) → (⟨S1600000, .i32⟩ : BufTy).Contents (Elt F)),
    StableHlo.binary main_arg1 main_v84 main_v85 (addi : (⟨S1600000, .i32⟩ : BufTy).Contents (Elt F) → (⟨S1600000, .i32⟩ : BufTy).Contents (Elt F) → (⟨S1600000, .i32⟩ : BufTy).Contents (Elt F)),
    StableHlo.ternary main_v83 main_v85 main_arg1 main_v86 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v86 main_v87 (broadcastInDim S1600000x1 ![0] bcast_S1600000_S1600000x1_0 : (⟨S1600000, .i32⟩ : BufTy).Contents (Elt F) → (⟨S1600000x1, .i32⟩ : BufTy).Contents (Elt F)),
    StableHlo.binary main_v81 main_v87 main_v88 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_18 (constant S_ .f32 0x00000000#32),
    StableHlo.unary main_cst_18 main_v89 (broadcastInDim S100000x128 ![] bcast_S_S100000x128 : (⟨S_, .f32⟩ : BufTy).Contents (Elt F) → (⟨S100000x128, .f32⟩ : BufTy).Contents (Elt F)),
    StableHlo.unary main_arg2 main_v90 (broadcastInDim S1600000x1 ![0] bcast_S1600000_S1600000x1_0 : (⟨S1600000, .i32⟩ : BufTy).Contents (Elt F) → (⟨S1600000x1, .i32⟩ : BufTy).Contents (Elt F)),
    StableHlo.ternary main_v89 main_v90 main_v88 main_v91 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v7 main_v92 (broadcastInDim S100000x1 ![0] bcast_S100000_S100000x1_0 : (⟨S100000, .f32⟩ : BufTy).Contents (Elt F) → (⟨S100000x1, .f32⟩ : BufTy).Contents (Elt F)),
    StableHlo.unary main_v92 main_v93 (broadcastInDim S100000x128 ![0, 1] bcast_S100000x1_S100000x128_0_1 : (⟨S100000x1, .f32⟩ : BufTy).Contents (Elt F) → (⟨S100000x128, .f32⟩ : BufTy).Contents (Elt F)),
    StableHlo.binary main_v91 main_v93 main_v94 (mulf : (⟨S100000x128, .f32⟩ : BufTy).Contents (Elt F) → (⟨S100000x128, .f32⟩ : BufTy).Contents (Elt F) → (⟨S100000x128, .f32⟩ : BufTy).Contents (Elt F)),
    StableHlo.binary main_v94 main_arg13 main_v95 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.unary main_arg14 main_v96 (broadcastInDim S1x40 ![1] bcast_S40_S1x40_1 : (⟨S40, .f32⟩ : BufTy).Contents (Elt F) → (⟨S1x40, .f32⟩ : BufTy).Contents (Elt F)),
    StableHlo.unary main_v96 main_v97 (broadcastInDim S100000x40 ![0, 1] bcast_S1x40_S100000x40_0_1 : (⟨S1x40, .f32⟩ : BufTy).Contents (Elt F) → (⟨S100000x40, .f32⟩ : BufTy).Contents (Elt F)),
    StableHlo.binary main_v95 main_v97 main_v98 (addf : (⟨S100000x40, .f32⟩ : BufTy).Contents (Elt F) → (⟨S100000x40, .f32⟩ : BufTy).Contents (Elt F) → (⟨S100000x40, .f32⟩ : BufTy).Contents (Elt F)),
    StableHlo.binary main_v81 main_arg15 main_v99 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.binary main_v98 main_v99 main_v100 (addf : (⟨S100000x40, .f32⟩ : BufTy).Contents (Elt F) → (⟨S100000x40, .f32⟩ : BufTy).Contents (Elt F) → (⟨S100000x40, .f32⟩ : BufTy).Contents (Elt F)),
    StableHlo.TRef.nullary main_call4.cst (constant S_ .f32 0xFF800000#32),
    StableHlo.TRef.binary (.of main_v100 : StableHlo.TRef sig ⟨S100000x40, .f32⟩) main_call4.cst main_call4.v0 (fun x v => Host.reduce FloatOps.maximumf x v reducesTo_S100000x40_S100000_d1 h_S_),
    StableHlo.TRef.nullary main_call4.cst_0 (constant S_ .f32 0xFF800000#32),
    StableHlo.TRef.unary main_call4.cst_0 main_call4.v1 (broadcastInDim S100000 ![] bcast_S_S100000),
    StableHlo.TRef.binary main_call4.v1 main_call4.v0 main_call4.v2 maximumf,
    StableHlo.TRef.unary main_call4.v2 main_call4.v3 (broadcastInDim S100000x1 ![0] bcast_S100000_S100000x1_0),
    StableHlo.TRef.unary main_call4.v3 main_call4.v4 (broadcastInDim S100000x40 ![0, 1] bcast_S100000x1_S100000x40_0_1),
    StableHlo.TRef.binary (.of main_v100 : StableHlo.TRef sig ⟨S100000x40, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S100000x40_S100000_d1 h_S_),
    StableHlo.TRef.unary main_call4.v7 main_call4.v8 (broadcastInDim S100000x1 ![0] bcast_S100000_S100000x1_0),
    StableHlo.TRef.unary main_call4.v8 main_call4.v9 Host.log,
    StableHlo.TRef.unary main_call4.v9 main_call4.v10 (broadcastInDim S100000x40 ![0, 1] bcast_S100000x1_S100000x40_0_1),
    StableHlo.TRef.binary main_call4.v5 main_call4.v10 main_call4.v11 subf ]

/-- @main is that line: the three windows one after another, each call its body. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore arrays only. -/
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., unary_bufs_sub .., binary_bufs_sub .., binary_bufs_sub .., unary_bufs_sub ..,
    unary_bufs_sub .., binary_bufs_sub .., binary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., unary_bufs_sub .., binary_bufs_sub .., binary_bufs_sub ..,
    unary_bufs_sub .., unary_bufs_sub .., binary_bufs_sub .., binary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., unary_bufs_sub .., binary_bufs_sub ..,
    binary_bufs_sub .., unary_bufs_sub .., unary_bufs_sub .., binary_bufs_sub .., binary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

/-- Every operation determines what it writes. -/
theorem ops_fresh_all : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl⟩

theorem ops_fresh : ∀ op ∈ (ops : List (HloOp τ sig (Elt F))), op.fresh = ∅ :=
  List.forall_iff_forall_mem.mp ops_fresh_all

/-- The arrays the line writes, in order: one per operation. -/
abbrev Wl : List (Ref sig .tc) :=
  [ main_cst, main_v0, main_cst_0, main_v1, main_v2, main_v3, main_cst_1, main_v4,
    main_v5, main_cst_2, main_v6, main_v7, main_c, main_v8, main_v9, main_c_3,
    main_v10, main_v11, main_v12, main_v13, main_v14, main_cst_4, main_v15, main_v16,
    main_v17, main_v18, main_v19, main_v20, main_v21, main_v22, main_v23, main_v24,
    main_v25, main_v26, main_cst_5, main_v27, main_cst_6, main_v28, main_v29, main_c_7,
    main_call0_cst, main_call0_v0, main_call0_v1, main_call0_cst_0, main_call0_v2, main_call0_v3, main_call0_v4, main_call0_v5,
    main_call0_v6, main_call0_v7, main_call0_cst_1, main_call0_v8, main_call0_cst_2, main_call0_v9, main_call0_v10, main_call0_v11,
    main_call0_cst_3, main_call0_v12, main_call0_cst_4, main_call0_call0_v0, main_call0_call0_v1, main_v30, main_v31, main_v32,
    main_v33, main_cst_8, main_v34, main_v35, main_v36, main_v37, main_v38, main_v39,
    main_v40, main_v41, main_v42, main_v43, main_call1_cst, main_call1_v0, main_v44, main_c_9,
    main_v45, main_v46, main_c_10, main_v47, main_v48, main_v49, main_v50, main_v51,
    main_cst_11, main_v52, main_v53, main_v54, main_v55, main_v56, main_v57, main_v58,
    main_v59, main_v60, main_v61, main_v62, main_v63, main_cst_12, main_v64, main_cst_13,
    main_v65, main_v66, main_c_14, main_call2_cst, main_call2_v0, main_call2_v1, main_call2_cst_0, main_call2_v2,
    main_call2_v3, main_call2_v4, main_call2_v5, main_call2_v6, main_call2_v7, main_call2_cst_1, main_call2_v8, main_call2_cst_2,
    main_call2_v9, main_call2_v10, main_call2_v11, main_call2_cst_3, main_call2_v12, main_call2_cst_4, main_call2_call0_v0, main_call2_call0_v1,
    main_v67, main_v68, main_v69, main_v70, main_cst_15, main_v71, main_v72, main_v73,
    main_v74, main_v75, main_v76, main_v77, main_v78, main_v79, main_v80, main_call3_cst,
    main_call3_v0, main_v81, main_c_16, main_v82, main_v83, main_c_17, main_v84, main_v85,
    main_v86, main_v87, main_v88, main_cst_18, main_v89, main_v90, main_v91, main_v92,
    main_v93, main_v94, main_v95, main_v96, main_v97, main_v98, main_v99, main_v100,
    main_call4_cst, main_call4_v0, main_call4_cst_0, main_call4_v1, main_call4_v2, main_call4_v3, main_call4_v4, main_call4_v5,
    main_call4_v6, main_call4_cst_1, main_call4_v7, main_call4_v8, main_call4_v9, main_call4_v10, main_v101 ]

/-- Operation `k` of the line writes array `k` of the list, and nothing else. -/
theorem hW : Cert.Lib.WritesAre (ops : List (HloOp τ sig (Elt F))) Wl := by
  simp only [Cert.Lib.WritesAre, nullary_writes, unary_writes, binary_writes, ternary_writes, and_self]

/-- Every weakly fair execution of @main terminates, each array at what the line leaves in it. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefEqs.lean ====
/-
  One equation per operation of the reference's line.

  Every array is written once and read only by later operations, so after the whole line the array an
  operation writes holds that operation's function of what its operand arrays hold after the whole line.
  The sixteen arguments are written by no operation and hold what they held at the start.
-/
import proofs.«116927_j80977313399688_1_alg».proof.Proof.RefOps

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

-- a row maximum is compared as a term, never unfolded over its 4,000,000 elements
attribute [local irreducible] Host.reduce

/-- What the array `r` holds after the whole line run from contents `V`. -/
def A (V : Valuation τ sig (Elt F)) (r : Ref sig .tc) : (Proc.devRef (τ := τ) .tc r).ty.Contents (Elt F) :=
  after ops V (Proc.devRef .tc r)
theorem e_main_cst (V : Valuation τ sig (Elt F)) : A V main_cst = constant S_ .f32 0x3F800000#32 :=
  Cert.Lib.ssa_nullary hW 0 V _ _ rfl (by decide)
theorem e_main_v0 (V : Valuation τ sig (Elt F)) : A V main_v0 = broadcastInDim S1600000 ![] bcast_S_S1600000 (A V main_cst) :=
  Cert.Lib.ssa_unary hW 1 V _ _ _ rfl (by decide) (by decide)
theorem e_main_cst_0 (V : Valuation τ sig (Elt F)) : A V main_cst_0 = constant S_ .f32 0x00000000#32 :=
  Cert.Lib.ssa_nullary hW 2 V _ _ rfl (by decide)
theorem e_main_v1 (V : Valuation τ sig (Elt F)) : A V main_v1 = broadcastInDim S100000 ![] bcast_S_S100000 (A V main_cst_0) :=
  Cert.Lib.ssa_unary hW 3 V _ _ _ rfl (by decide) (by decide)
theorem e_main_v2 (V : Valuation τ sig (Elt F)) : A V main_v2 = broadcastInDim S1600000x1 ![0] bcast_S1600000_S1600000x1_0 (A V main_arg2) :=
  Cert.Lib.ssa_unary hW 4 V _ _ _ rfl (by decide) (by decide)
theorem e_main_v3 (V : Valuation τ sig (Elt F)) : A V main_v3 = Host.scatterAdd scatter_S100000_S1600000x1_S1600000_n_0_0_1 (A V main_v1) (A V main_v2) (A V main_v0) :=
  Cert.Lib.ssa_ternary hW 5 V _ _ _ _ _ rfl (by decide) (by decide) (by decide) (by decide)
theorem e_main_cst_1 (V : Valuation τ sig (Elt F)) : A V main_cst_1 = constant S_ .f32 0x3F800000#32 :=
  Cert.Lib.ssa_nullary hW 6 V _ _ rfl (by decide)
theorem e_main_v4 (V : Valuation τ sig (Elt F)) : A V main_v4 = broadcastInDim S100000 ![] bcast_S_S100000 (A V main_cst_1) :=
  Cert.Lib.ssa_unary hW 7 V _ _ _ rfl (by decide) (by decide)
theorem e_main_v5 (V : Valuation τ sig (Elt F)) : A V main_v5 = maximumf (A V main_v3) (A V main_v4) :=
  Cert.Lib.ssa_binary hW 8 V _ _ _ _ rfl (by decide) (by decide) (by decide)
theorem e_main_cst_2 (V : Valuation τ sig (Elt F)) : A V main_cst_2 = constant S_ .f32 0x3F800000#32 :=
  Cert.Lib.ssa_nullary hW 9 V _ _ rfl (by decide)
theorem e_main_v6 (V : Valuation τ sig (Elt F)) : A V main_v6 = broadcastInDim S100000 ![] bcast_S_S100000 (A V main_cst_2) :=
  Cert.Lib.ssa_unary hW 10 V _ _ _ rfl (by decide) (by decide)
theorem e_main_v7 (V : Valuation τ sig (Elt F)) : A V main_v7 = Host.divf (A V main_v6) (A V main_v5) :=
  Cert.Lib.ssa_binary hW 11 V _ _ _ _ rfl (by decide) (by decide) (by decide)
theorem e_main_c (V : Valuation τ sig (Elt F)) : A V main_c = constantI S_ 32 0#32 :=
  Cert.Lib.ssa_nullary hW 12 V _ _ rfl (by decide)
theorem e_main_v8 (V : Valuation τ sig (Elt F)) : A V main_v8 = broadcastInDim S1600000 ![] bcast_S_S1600000 (A V main_c) :=
  Cert.Lib.ssa_unary hW 13 V _ _ _ rfl (by decide) (by decide)
theorem e_main_v9 (V : Valuation τ sig (Elt F)) : A V main_v9 = cmpi .slt (A V main_arg1) (A V main_v8) :=
  Cert.Lib.ssa_binary hW 14 V _ _ _ _ rfl (by decide) (by decide) (by decide)
theorem e_main_c_3 (V : Valuation τ sig (Elt F)) : A V main_c_3 = constantI S_ 32 100000#32 :=
  Cert.Lib.ssa_nullary hW 15 V _ _ rfl (by decide)
theorem e_main_v10 (V : Valuation τ sig (Elt F)) : A V main_v10 = broadcastInDim S1600000 ![] bcast_S_S1600000 (A V main_c_3) :=
  Cert.Lib.ssa_unary hW 16 V _ _ _ rfl (by decide) (by decide)
theorem e_main_v11 (V : Valuation τ sig (Elt F)) : A V main_v11 = addi (A V main_arg1) (A V main_v10) :=
  Cert.Lib.ssa_binary hW 17 V _ _ _ _ rfl (by decide) (by decide) (by decide)
theorem e_main_v12 (V : Valuation τ sig (Elt F)) : A V main_v12 = select (A V main_v9) (A V main_v11) (A V main_arg1) :=
  Cert.Lib.ssa_ternary hW 18 V _ _ _ _ _ rfl (by decide) (by decide) (by decide) (by decide)
theorem e_main_v13 (V : Valuation τ sig (Elt F)) : A V main_v13 = broadcastInDim S1600000x1 ![0] bcast_S1600000_S1600000x1_0 (A V main_v12) :=
  Cert.Lib.ssa_unary hW 19 V _ _ _ rfl (by decide) (by decide)
theorem e_main_v14 (V : Valuation τ sig (Elt F)) : A V main_v14 = Host.gather gather_S100000x128_S1600000x1_S1600000x128_1_0_n_n_0_1_1128 (A V main_arg0) (A V main_v13) :=
  Cert.Lib.ssa_binary hW 20 V _ _ _ _ rfl (by decide) (by decide) (by decide)
theorem e_main_cst_4 (V : Valuation τ sig (Elt F)) : A V main_cst_4 = constant S_ .f32 0x00000000#32 :=
  Cert.Lib.ssa_nullary hW 21 V _ _ rfl (by decide)
theorem e_main_v15 (V : Valuation τ sig (Elt F)) : A V main_v15 = broadcastInDim S100000x128 ![] bcast_S_S100000x128 (A V main_cst_4) :=
  Cert.Lib.ssa_unary hW 22 V _ _ _ rfl (by decide) (by decide)
theorem e_main_v16 (V : Valuation τ sig (Elt F)) : A V main_v16 = broadcastInDim S1600000x1 ![0] bcast_S1600000_S1600000x1_0 (A V main_arg2) :=
  Cert.Lib.ssa_unary hW 23 V _ _ _ rfl (by decide) (by decide)
theorem e_main_v17 (V : Valuation τ sig (Elt F)) : A V main_v17 = Host.scatterAdd scatter_S100000x128_S1600000x1_S1600000x128_1_0_0_1 (A V main_v15) (A V main_v16) (A V main_v14) :=
  Cert.Lib.ssa_ternary hW 24 V _ _ _ _ _ rfl (by decide) (by decide) (by decide) (by decide)
theorem e_main_v18 (V : Valuation τ sig (Elt F)) : A V main_v18 = broadcastInDim S100000x1 ![0] bcast_S100000_S100000x1_0 (A V main_v7) :=
  Cert.Lib.ssa_unary hW 25 V _ _ _ rfl (by decide) (by decide)
theorem e_main_v19 (V : Valuation τ sig (Elt F)) : A V main_v19 = broadcastInDim S100000x128 ![0, 1] bcast_S100000x1_S100000x128_0_1 (A V main_v18) :=
  Cert.Lib.ssa_unary hW 26 V _ _ _ rfl (by decide) (by decide)
theorem e_main_v20 (V : Valuation τ sig (Elt F)) : A V main_v20 = mulf (A V main_v17) (A V main_v19) :=
  Cert.Lib.ssa_binary hW 27 V _ _ _ _ rfl (by decide) (by decide) (by decide)
theorem e_main_v21 (V : Valuation τ sig (Elt F)) : A V main_v21 = Host.dotGeneral dot_S100000x128_S128x128_S100000x128_1_0_0_1_n_n none (A V main_v20) (A V main_arg3) :=
  Cert.Lib.ssa_binary hW 28 V _ _ _ _ rfl (by decide) (by decide) (by decide)
theorem e_main_v22 (V : Valuation τ sig (Elt F)) : A V main_v22 = broadcastInDim S1x128 ![1] bcast_S128_S1x128_1 (A V main_arg4) :=
  Cert.Lib.ssa_unary hW 29 V _ _ _ rfl (by decide) (by decide)
theorem e_main_v23 (V : Valuation τ sig (Elt F)) : A V main_v23 = broadcastInDim S100000x128 ![0, 1] bcast_S1x128_S100000x128_0_1 (A V main_v22) :=
  Cert.Lib.ssa_unary hW 30 V _ _ _ rfl (by decide) (by decide)
theorem e_main_v24 (V : Valuation τ sig (Elt F)) : A V main_v24 = addf (A V main_v21) (A V main_v23) :=
  Cert.Lib.ssa_binary hW 31 V _ _ _ _ rfl (by decide) (by decide) (by decide)
theorem e_main_v25 (V : Valuation τ sig (Elt F)) : A V main_v25 = Host.dotGeneral dot_S100000x128_S128x128_S100000x128_1_0_0_1_n_n none (A V main_arg0) (A V main_arg5) :=
  Cert.Lib.ssa_binary hW 32 V _ _ _ _ rfl (by decide) (by decide) (by decide)
theorem e_main_v26 (V : Valuation τ sig (Elt F)) : A V main_v26 = addf (A V main_v24) (A V main_v25) :=
  Cert.Lib.ssa_binary hW 33 V _ _ _ _ rfl (by decide) (by decide) (by decide)
theorem e_main_cst_5 (V : Valuation τ sig (Elt F)) : A V main_cst_5 = constant S_ .f32 0x00000000#32 :=
  Cert.Lib.ssa_nullary hW 34 V _ _ rfl (by decide)
theorem e_main_v27 (V : Valuation τ sig (Elt F)) : A V main_v27 = Host.reduceAdd (A V main_v26) (A V main_cst_5) reducesTo_S100000x128_S128_d0 h_S_ :=
  Cert.Lib.ssa_binary hW 35 V _ _ _ _ rfl (by decide) (by decide) (by decide)
theorem e_main_cst_6 (V : Valuation τ sig (Elt F)) : A V main_cst_6 = constant S_ .f32 0x47C35000#32 :=
  Cert.Lib.ssa_nullary hW 36 V _ _ rfl (by decide)
theorem e_main_v28 (V : Valuation τ sig (Elt F)) : A V main_v28 = broadcastInDim S128 ![] bcast_S_S128 (A V main_cst_6) :=
  Cert.Lib.ssa_unary hW 37 V _ _ _ rfl (by decide) (by decide)
theorem e_main_v29 (V : Valuation τ sig (Elt F)) : A V main_v29 = Host.divf (A V main_v27) (A V main_v28) :=
  Cert.Lib.ssa_binary hW 38 V _ _ _ _ rfl (by decide) (by decide) (by decide)
theorem e_main_c_7 (V : Valuation τ sig (Elt F)) : A V main_c_7 = constantI S_ 32 0#32 :=
  Cert.Lib.ssa_nullary hW 39 V _ _ rfl (by decide)
theorem e_main_call0_cst (V : Valuation τ sig (Elt F)) : A V main_call0_cst = constant S_ .f32 0x00000000#32 :=
  Cert.Lib.ssa_nullary hW 40 V _ _ rfl (by decide)
theorem e_main_call0_v0 (V : Valuation τ sig (Elt F)) : A V main_call0_v0 = Host.reduceAdd (A V main_v26) (A V main_call0_cst) reducesTo_S100000x128_S128_d0 h_S_ :=
  Cert.Lib.ssa_binary hW 41 V _ _ _ _ rfl (by decide) (by decide) (by decide)
theorem e_main_call0_v1 (V : Valuation τ sig (Elt F)) : A V main_call0_v1 = broadcastInDim S1x128 ![1] bcast_S128_S1x128_1 (A V main_call0_v0) :=
  Cert.Lib.ssa_unary hW 42 V _ _ _ rfl (by decide) (by decide)
theorem e_main_call0_cst_0 (V : Valuation τ sig (Elt F)) : A V main_call0_cst_0 = constant S_ .f32 0x47C35000#32 :=
  Cert.Lib.ssa_nullary hW 43 V _ _ rfl (by decide)
theorem e_main_call0_v2 (V : Valuation τ sig (Elt F)) : A V main_call0_v2 = broadcastInDim S1x128 ![] bcast_S_S1x128 (A V main_call0_cst_0) :=
  Cert.Lib.ssa_unary hW 44 V _ _ _ rfl (by decide) (by decide)
theorem e_main_call0_v3 (V : Valuation τ sig (Elt F)) : A V main_call0_v3 = Host.divf (A V main_call0_v1) (A V main_call0_v2) :=
  Cert.Lib.ssa_binary hW 45 V _ _ _ _ rfl (by decide) (by decide) (by decide)
theorem e_main_call0_v4 (V : Valuation τ sig (Elt F)) : A V main_call0_v4 = broadcastInDim S100000x128 ![0, 1] bcast_S1x128_S100000x128_0_1 (A V main_call0_v3) :=
  Cert.Lib.ssa_unary hW 46 V _ _ _ rfl (by decide) (by decide)
theorem e_main_call0_v5 (V : Valuation τ sig (Elt F)) : A V main_call0_v5 = subf (A V main_v26) (A V main_call0_v4) :=
  Cert.Lib.ssa_binary hW 47 V _ _ _ _ rfl (by decide) (by decide) (by decide)
theorem e_main_call0_v6 (V : Valuation τ sig (Elt F)) : A V main_call0_v6 = mulf (A V main_call0_v5) (A V main_call0_v5) :=
  Cert.Lib.ssa_binary hW 48 V _ _ _ _ rfl (by decide) (by decide) (by decide)
theorem e_main_call0_v7 (V : Valuation τ sig (Elt F)) : A V main_call0_v7 = sitofp .f32 (A V main_c_7) :=
  Cert.Lib.ssa_unary hW 49 V _ _ _ rfl (by decide) (by decide)
theorem e_main_call0_cst_1 (V : Valuation τ sig (Elt F)) : A V main_call0_cst_1 = constant S_ .f32 0x47C35000#32 :=
  Cert.Lib.ssa_nullary hW 50 V _ _ rfl (by decide)
theorem e_main_call0_v8 (V : Valuation τ sig (Elt F)) : A V main_call0_v8 = subf (A V main_call0_cst_1) (A V main_call0_v7) :=
  Cert.Lib.ssa_binary hW 51 V _ _ _ _ rfl (by decide) (by decide) (by decide)
theorem e_main_call0_cst_2 (V : Valuation τ sig (Elt F)) : A V main_call0_cst_2 = constant S_ .f32 0x00000000#32 :=
  Cert.Lib.ssa_nullary hW 52 V _ _ rfl (by decide)
theorem e_main_call0_v9 (V : Valuation τ sig (Elt F)) : A V main_call0_v9 = Host.reduceAdd (A V main_call0_v6) (A V main_call0_cst_2) reducesTo_S100000x128_S128_d0 h_S_ :=
  Cert.Lib.ssa_binary hW 53 V _ _ _ _ rfl (by decide) (by decide) (by decide)
theorem e_main_call0_v10 (V : Valuation τ sig (Elt F)) : A V main_call0_v10 = broadcastInDim S128 ![] bcast_S_S128 (A V main_call0_v8) :=
  Cert.Lib.ssa_unary hW 54 V _ _ _ rfl (by decide) (by decide)
theorem e_main_call0_v11 (V : Valuation τ sig (Elt F)) : A V main_call0_v11 = Host.divf (A V main_call0_v9) (A V main_call0_v10) :=
  Cert.Lib.ssa_binary hW 55 V _ _ _ _ rfl (by decide) (by decide) (by decide)
theorem e_main_call0_cst_3 (V : Valuation τ sig (Elt F)) : A V main_call0_cst_3 = constant S_ .f32 0x00000000#32 :=
  Cert.Lib.ssa_nullary hW 56 V _ _ rfl (by decide)
theorem e_main_call0_v12 (V : Valuation τ sig (Elt F)) : A V main_call0_v12 = cmpf .ogt (A V main_call0_v8) (A V main_call0_cst_3) :=
  Cert.Lib.ssa_binary hW 57 V _ _ _ _ rfl (by decide) (by decide) (by decide)
theorem e_main_call0_cst_4 (V : Valuation τ sig (Elt F)) : A V main_call0_cst_4 = constant S_ .f32 0x7FC00000#32 :=
  Cert.Lib.ssa_nullary hW 58 V _ _ rfl (by decide)
theorem e_main_call0_call0_v0 (V : Valuation τ sig (Elt F)) : A V main_call0_call0_v0 = id (A V main_call0_cst_4) :=
  Cert.Lib.ssa_unary hW 59 V _ _ _ rfl (by decide) (by decide)
theorem e_main_call0_call0_v1 (V : Valuation τ sig (Elt F)) : A V main_call0_call0_v1 = broadcastInDim S128 ![] bcast_S_S128 (A V main_call0_call0_v0) :=
  Cert.Lib.ssa_unary hW 60 V _ _ _ rfl (by decide) (by decide)
theorem e_main_v30 (V : Valuation τ sig (Elt F)) : A V main_v30 = select (broadcastInDim S128 ![] bcast_S_S128 (A V main_call0_v12)) (A V main_call0_v11) (A V main_call0_call0_v1) :=
  Cert.Lib.ssa_ternary hW 61 V _ _ _ _ _ rfl (by decide) (by decide) (by decide) (by decide)
theorem e_main_v31 (V : Valuation τ sig (Elt F)) : A V main_v31 = broadcastInDim S1x128 ![1] bcast_S128_S1x128_1 (A V main_v29) :=
  Cert.Lib.ssa_unary hW 62 V _ _ _ rfl (by decide) (by decide)
theorem e_main_v32 (V : Valuation τ sig (Elt F)) : A V main_v32 = broadcastInDim S100000x128 ![0, 1] bcast_S1x128_S100000x128_0_1 (A V main_v31) :=
  Cert.Lib.ssa_unary hW 63 V _ _ _ rfl (by decide) (by decide)
theorem e_main_v33 (V : Valuation τ sig (Elt F)) : A V main_v33 = subf (A V main_v26) (A V main_v32) :=
  Cert.Lib.ssa_binary hW 64 V _ _ _ _ rfl (by decide) (by decide) (by decide)
theorem e_main_cst_8 (V : Valuation τ sig (Elt F)) : A V main_cst_8 = constant S_ .f32 0x3727C5AC#32 :=
  Cert.Lib.ssa_nullary hW 65 V _ _ rfl (by decide)
theorem e_main_v34 (V : Valuation τ sig (Elt F)) : A V main_v34 = broadcastInDim S128 ![] bcast_S_S128 (A V main_cst_8) :=
  Cert.Lib.ssa_unary hW 66 V _ _ _ rfl (by decide) (by decide)
theorem e_main_v35 (V : Valuation τ sig (Elt F)) : A V main_v35 = addf (A V main_v30) (A V main_v34) :=
  Cert.Lib.ssa_binary hW 67 V _ _ _ _ rfl (by decide) (by decide) (by decide)
theorem e_main_v36 (V : Valuation τ sig (Elt F)) : A V main_v36 = Host.sqrt (A V main_v35) :=
  Cert.Lib.ssa_unary hW 68 V _ _ _ rfl (by decide) (by decide)
theorem e_main_v37 (V : Valuation τ sig (Elt F)) : A V main_v37 = Host.divf (A V main_arg6) (A V main_v36) :=
  Cert.Lib.ssa_binary hW 69 V _ _ _ _ rfl (by decide) (by decide) (by decide)
theorem e_main_v38 (V : Valuation τ sig (Elt F)) : A V main_v38 = broadcastInDim S1x128 ![1] bcast_S128_S1x128_1 (A V main_v37) :=
  Cert.Lib.ssa_unary hW 70 V _ _ _ rfl (by decide) (by decide)
theorem e_main_v39 (V : Valuation τ sig (Elt F)) : A V main_v39 = broadcastInDim S100000x128 ![0, 1] bcast_S1x128_S100000x128_0_1 (A V main_v38) :=
  Cert.Lib.ssa_unary hW 71 V _ _ _ rfl (by decide) (by decide)
theorem e_main_v40 (V : Valuation τ sig (Elt F)) : A V main_v40 = mulf (A V main_v33) (A V main_v39) :=
  Cert.Lib.ssa_binary hW 72 V _ _ _ _ rfl (by decide) (by decide) (by decide)
theorem e_main_v41 (V : Valuation τ sig (Elt F)) : A V main_v41 = broadcastInDim S1x128 ![1] bcast_S128_S1x128_1 (A V main_arg7) :=
  Cert.Lib.ssa_unary hW 73 V _ _ _ rfl (by decide) (by decide)
theorem e_main_v42 (V : Valuation τ sig (Elt F)) : A V main_v42 = broadcastInDim S100000x128 ![0, 1] bcast_S1x128_S100000x128_0_1 (A V main_v41) :=
  Cert.Lib.ssa_unary hW 74 V _ _ _ rfl (by decide) (by decide)
theorem e_main_v43 (V : Valuation τ sig (Elt F)) : A V main_v43 = addf (A V main_v40) (A V main_v42) :=
  Cert.Lib.ssa_binary hW 75 V _ _ _ _ rfl (by decide) (by decide) (by decide)
theorem e_main_call1_cst (V : Valuation τ sig (Elt F)) : A V main_call1_cst = constant S_ .f32 0x00000000#32 :=
  Cert.Lib.ssa_nullary hW 76 V _ _ rfl (by decide)
theorem e_main_call1_v0 (V : Valuation τ sig (Elt F)) : A V main_call1_v0 = broadcastInDim S100000x128 ![] bcast_S_S100000x128 (A V main_call1_cst) :=
  Cert.Lib.ssa_unary hW 77 V _ _ _ rfl (by decide) (by decide)
theorem e_main_v44 (V : Valuation τ sig (Elt F)) : A V main_v44 = maximumf (A V main_v43) (A V main_call1_v0) :=
  Cert.Lib.ssa_binary hW 78 V _ _ _ _ rfl (by decide) (by decide) (by decide)
theorem e_main_c_9 (V : Valuation τ sig (Elt F)) : A V main_c_9 = constantI S_ 32 0#32 :=
  Cert.Lib.ssa_nullary hW 79 V _ _ rfl (by decide)
theorem e_main_v45 (V : Valuation τ sig (Elt F)) : A V main_v45 = broadcastInDim S1600000 ![] bcast_S_S1600000 (A V main_c_9) :=
  Cert.Lib.ssa_unary hW 80 V _ _ _ rfl (by decide) (by decide)
theorem e_main_v46 (V : Valuation τ sig (Elt F)) : A V main_v46 = cmpi .slt (A V main_arg1) (A V main_v45) :=
  Cert.Lib.ssa_binary hW 81 V _ _ _ _ rfl (by decide) (by decide) (by decide)
theorem e_main_c_10 (V : Valuation τ sig (Elt F)) : A V main_c_10 = constantI S_ 32 100000#32 :=
  Cert.Lib.ssa_nullary hW 82 V _ _ rfl (by decide)
theorem e_main_v47 (V : Valuation τ sig (Elt F)) : A V main_v47 = broadcastInDim S1600000 ![] bcast_S_S1600000 (A V main_c_10) :=
  Cert.Lib.ssa_unary hW 83 V _ _ _ rfl (by decide) (by decide)
theorem e_main_v48 (V : Valuation τ sig (Elt F)) : A V main_v48 = addi (A V main_arg1) (A V main_v47) :=
  Cert.Lib.ssa_binary hW 84 V _ _ _ _ rfl (by decide) (by decide) (by decide)
theorem e_main_v49 (V : Valuation τ sig (Elt F)) : A V main_v49 = select (A V main_v46) (A V main_v48) (A V main_arg1) :=
  Cert.Lib.ssa_ternary hW 85 V _ _ _ _ _ rfl (by decide) (by decide) (by decide) (by decide)
theorem e_main_v50 (V : Valuation τ sig (Elt F)) : A V main_v50 = broadcastInDim S1600000x1 ![0] bcast_S1600000_S1600000x1_0 (A V main_v49) :=
  Cert.Lib.ssa_unary hW 86 V _ _ _ rfl (by decide) (by decide)
theorem e_main_v51 (V : Valuation τ sig (Elt F)) : A V main_v51 = Host.gather gather_S100000x128_S1600000x1_S1600000x128_1_0_n_n_0_1_1128 (A V main_v44) (A V main_v50) :=
  Cert.Lib.ssa_binary hW 87 V _ _ _ _ rfl (by decide) (by decide) (by decide)
theorem e_main_cst_11 (V : Valuation τ sig (Elt F)) : A V main_cst_11 = constant S_ .f32 0x00000000#32 :=
  Cert.Lib.ssa_nullary hW 88 V _ _ rfl (by decide)
theorem e_main_v52 (V : Valuation τ sig (Elt F)) : A V main_v52 = broadcastInDim S100000x128 ![] bcast_S_S100000x128 (A V main_cst_11) :=
  Cert.Lib.ssa_unary hW 89 V _ _ _ rfl (by decide) (by decide)
theorem e_main_v53 (V : Valuation τ sig (Elt F)) : A V main_v53 = broadcastInDim S1600000x1 ![0] bcast_S1600000_S1600000x1_0 (A V main_arg2) :=
  Cert.Lib.ssa_unary hW 90 V _ _ _ rfl (by decide) (by decide)
theorem e_main_v54 (V : Valuation τ sig (Elt F)) : A V main_v54 = Host.scatterAdd scatter_S100000x128_S1600000x1_S1600000x128_1_0_0_1 (A V main_v52) (A V main_v53) (A V main_v51) :=
  Cert.Lib.ssa_ternary hW 91 V _ _ _ _ _ rfl (by decide) (by decide) (by decide) (by decide)
theorem e_main_v55 (V : Valuation τ sig (Elt F)) : A V main_v55 = broadcastInDim S100000x1 ![0] bcast_S100000_S100000x1_0 (A V main_v7) :=
  Cert.Lib.ssa_unary hW 92 V _ _ _ rfl (by decide) (by decide)
theorem e_main_v56 (V : Valuation τ sig (Elt F)) : A V main_v56 = broadcastInDim S100000x128 ![0, 1] bcast_S100000x1_S100000x128_0_1 (A V main_v55) :=
  Cert.Lib.ssa_unary hW 93 V _ _ _ rfl (by decide) (by decide)
theorem e_main_v57 (V : Valuation τ sig (Elt F)) : A V main_v57 = mulf (A V main_v54) (A V main_v56) :=
  Cert.Lib.ssa_binary hW 94 V _ _ _ _ rfl (by decide) (by decide) (by decide)
theorem e_main_v58 (V : Valuation τ sig (Elt F)) : A V main_v58 = Host.dotGeneral dot_S100000x128_S128x128_S100000x128_1_0_0_1_n_n none (A V main_v57) (A V main_arg8) :=
  Cert.Lib.ssa_binary hW 95 V _ _ _ _ rfl (by decide) (by decide) (by decide)
theorem e_main_v59 (V : Valuation τ sig (Elt F)) : A V main_v59 = broadcastInDim S1x128 ![1] bcast_S128_S1x128_1 (A V main_arg9) :=
  Cert.Lib.ssa_unary hW 96 V _ _ _ rfl (by decide) (by decide)
theorem e_main_v60 (V : Valuation τ sig (Elt F)) : A V main_v60 = broadcastInDim S100000x128 ![0, 1] bcast_S1x128_S100000x128_0_1 (A V main_v59) :=
  Cert.Lib.ssa_unary hW 97 V _ _ _ rfl (by decide) (by decide)
theorem e_main_v61 (V : Valuation τ sig (Elt F)) : A V main_v61 = addf (A V main_v58) (A V main_v60) :=
  Cert.Lib.ssa_binary hW 98 V _ _ _ _ rfl (by decide) (by decide) (by decide)
theorem e_main_v62 (V : Valuation τ sig (Elt F)) : A V main_v62 = Host.dotGeneral dot_S100000x128_S128x128_S100000x128_1_0_0_1_n_n none (A V main_v44) (A V main_arg10) :=
  Cert.Lib.ssa_binary hW 99 V _ _ _ _ rfl (by decide) (by decide) (by decide)
theorem e_main_v63 (V : Valuation τ sig (Elt F)) : A V main_v63 = addf (A V main_v61) (A V main_v62) :=
  Cert.Lib.ssa_binary hW 100 V _ _ _ _ rfl (by decide) (by decide) (by decide)
theorem e_main_cst_12 (V : Valuation τ sig (Elt F)) : A V main_cst_12 = constant S_ .f32 0x00000000#32 :=
  Cert.Lib.ssa_nullary hW 101 V _ _ rfl (by decide)
theorem e_main_v64 (V : Valuation τ sig (Elt F)) : A V main_v64 = Host.reduceAdd (A V main_v63) (A V main_cst_12) reducesTo_S100000x128_S128_d0 h_S_ :=
  Cert.Lib.ssa_binary hW 102 V _ _ _ _ rfl (by decide) (by decide) (by decide)
theorem e_main_cst_13 (V : Valuation τ sig (Elt F)) : A V main_cst_13 = constant S_ .f32 0x47C35000#32 :=
  Cert.Lib.ssa_nullary hW 103 V _ _ rfl (by decide)
theorem e_main_v65 (V : Valuation τ sig (Elt F)) : A V main_v65 = broadcastInDim S128 ![] bcast_S_S128 (A V main_cst_13) :=
  Cert.Lib.ssa_unary hW 104 V _ _ _ rfl (by decide) (by decide)
theorem e_main_v66 (V : Valuation τ sig (Elt F)) : A V main_v66 = Host.divf (A V main_v64) (A V main_v65) :=
  Cert.Lib.ssa_binary hW 105 V _ _ _ _ rfl (by decide) (by decide) (by decide)
theorem e_main_c_14 (V : Valuation τ sig (Elt F)) : A V main_c_14 = constantI S_ 32 0#32 :=
  Cert.Lib.ssa_nullary hW 106 V _ _ rfl (by decide)
theorem e_main_call2_cst (V : Valuation τ sig (Elt F)) : A V main_call2_cst = constant S_ .f32 0x00000000#32 :=
  Cert.Lib.ssa_nullary hW 107 V _ _ rfl (by decide)
theorem e_main_call2_v0 (V : Valuation τ sig (Elt F)) : A V main_call2_v0 = Host.reduceAdd (A V main_v63) (A V main_call2_cst) reducesTo_S100000x128_S128_d0 h_S_ :=
  Cert.Lib.ssa_binary hW 108 V _ _ _ _ rfl (by decide) (by decide) (by decide)
theorem e_main_call2_v1 (V : Valuation τ sig (Elt F)) : A V main_call2_v1 = broadcastInDim S1x128 ![1] bcast_S128_S1x128_1 (A V main_call2_v0) :=
  Cert.Lib.ssa_unary hW 109 V _ _ _ rfl (by decide) (by decide)
theorem e_main_call2_cst_0 (V : Valuation τ sig (Elt F)) : A V main_call2_cst_0 = constant S_ .f32 0x47C35000#32 :=
  Cert.Lib.ssa_nullary hW 110 V _ _ rfl (by decide)
theorem e_main_call2_v2 (V : Valuation τ sig (Elt F)) : A V main_call2_v2 = broadcastInDim S1x128 ![] bcast_S_S1x128 (A V main_call2_cst_0) :=
  Cert.Lib.ssa_unary hW 111 V _ _ _ rfl (by decide) (by decide)
theorem e_main_call2_v3 (V : Valuation τ sig (Elt F)) : A V main_call2_v3 = Host.divf (A V main_call2_v1) (A V main_call2_v2) :=
  Cert.Lib.ssa_binary hW 112 V _ _ _ _ rfl (by decide) (by decide) (by decide)
theorem e_main_call2_v4 (V : Valuation τ sig (Elt F)) : A V main_call2_v4 = broadcastInDim S100000x128 ![0, 1] bcast_S1x128_S100000x128_0_1 (A V main_call2_v3) :=
  Cert.Lib.ssa_unary hW 113 V _ _ _ rfl (by decide) (by decide)
theorem e_main_call2_v5 (V : Valuation τ sig (Elt F)) : A V main_call2_v5 = subf (A V main_v63) (A V main_call2_v4) :=
  Cert.Lib.ssa_binary hW 114 V _ _ _ _ rfl (by decide) (by decide) (by decide)
theorem e_main_call2_v6 (V : Valuation τ sig (Elt F)) : A V main_call2_v6 = mulf (A V main_call2_v5) (A V main_call2_v5) :=
  Cert.Lib.ssa_binary hW 115 V _ _ _ _ rfl (by decide) (by decide) (by decide)
theorem e_main_call2_v7 (V : Valuation τ sig (Elt F)) : A V main_call2_v7 = sitofp .f32 (A V main_c_14) :=
  Cert.Lib.ssa_unary hW 116 V _ _ _ rfl (by decide) (by decide)
theorem e_main_call2_cst_1 (V : Valuation τ sig (Elt F)) : A V main_call2_cst_1 = constant S_ .f32 0x47C35000#32 :=
  Cert.Lib.ssa_nullary hW 117 V _ _ rfl (by decide)
theorem e_main_call2_v8 (V : Valuation τ sig (Elt F)) : A V main_call2_v8 = subf (A V main_call2_cst_1) (A V main_call2_v7) :=
  Cert.Lib.ssa_binary hW 118 V _ _ _ _ rfl (by decide) (by decide) (by decide)
theorem e_main_call2_cst_2 (V : Valuation τ sig (Elt F)) : A V main_call2_cst_2 = constant S_ .f32 0x00000000#32 :=
  Cert.Lib.ssa_nullary hW 119 V _ _ rfl (by decide)
theorem e_main_call2_v9 (V : Valuation τ sig (Elt F)) : A V main_call2_v9 = Host.reduceAdd (A V main_call2_v6) (A V main_call2_cst_2) reducesTo_S100000x128_S128_d0 h_S_ :=
  Cert.Lib.ssa_binary hW 120 V _ _ _ _ rfl (by decide) (by decide) (by decide)
theorem e_main_call2_v10 (V : Valuation τ sig (Elt F)) : A V main_call2_v10 = broadcastInDim S128 ![] bcast_S_S128 (A V main_call2_v8) :=
  Cert.Lib.ssa_unary hW 121 V _ _ _ rfl (by decide) (by decide)
theorem e_main_call2_v11 (V : Valuation τ sig (Elt F)) : A V main_call2_v11 = Host.divf (A V main_call2_v9) (A V main_call2_v10) :=
  Cert.Lib.ssa_binary hW 122 V _ _ _ _ rfl (by decide) (by decide) (by decide)
theorem e_main_call2_cst_3 (V : Valuation τ sig (Elt F)) : A V main_call2_cst_3 = constant S_ .f32 0x00000000#32 :=
  Cert.Lib.ssa_nullary hW 123 V _ _ rfl (by decide)
theorem e_main_call2_v12 (V : Valuation τ sig (Elt F)) : A V main_call2_v12 = cmpf .ogt (A V main_call2_v8) (A V main_call2_cst_3) :=
  Cert.Lib.ssa_binary hW 124 V _ _ _ _ rfl (by decide) (by decide) (by decide)
theorem e_main_call2_cst_4 (V : Valuation τ sig (Elt F)) : A V main_call2_cst_4 = constant S_ .f32 0x7FC00000#32 :=
  Cert.Lib.ssa_nullary hW 125 V _ _ rfl (by decide)
theorem e_main_call2_call0_v0 (V : Valuation τ sig (Elt F)) : A V main_call2_call0_v0 = id (A V main_call2_cst_4) :=
  Cert.Lib.ssa_unary hW 126 V _ _ _ rfl (by decide) (by decide)
theorem e_main_call2_call0_v1 (V : Valuation τ sig (Elt F)) : A V main_call2_call0_v1 = broadcastInDim S128 ![] bcast_S_S128 (A V main_call2_call0_v0) :=
  Cert.Lib.ssa_unary hW 127 V _ _ _ rfl (by decide) (by decide)
theorem e_main_v67 (V : Valuation τ sig (Elt F)) : A V main_v67 = select (broadcastInDim S128 ![] bcast_S_S128 (A V main_call2_v12)) (A V main_call2_v11) (A V main_call2_call0_v1) :=
  Cert.Lib.ssa_ternary hW 128 V _ _ _ _ _ rfl (by decide) (by decide) (by decide) (by decide)
theorem e_main_v68 (V : Valuation τ sig (Elt F)) : A V main_v68 = broadcastInDim S1x128 ![1] bcast_S128_S1x128_1 (A V main_v66) :=
  Cert.Lib.ssa_unary hW 129 V _ _ _ rfl (by decide) (by decide)
theorem e_main_v69 (V : Valuation τ sig (Elt F)) : A V main_v69 = broadcastInDim S100000x128 ![0, 1] bcast_S1x128_S100000x128_0_1 (A V main_v68) :=
  Cert.Lib.ssa_unary hW 130 V _ _ _ rfl (by decide) (by decide)
theorem e_main_v70 (V : Valuation τ sig (Elt F)) : A V main_v70 = subf (A V main_v63) (A V main_v69) :=
  Cert.Lib.ssa_binary hW 131 V _ _ _ _ rfl (by decide) (by decide) (by decide)
theorem e_main_cst_15 (V : Valuation τ sig (Elt F)) : A V main_cst_15 = constant S_ .f32 0x3727C5AC#32 :=
  Cert.Lib.ssa_nullary hW 132 V _ _ rfl (by decide)
theorem e_main_v71 (V : Valuation τ sig (Elt F)) : A V main_v71 = broadcastInDim S128 ![] bcast_S_S128 (A V main_cst_15) :=
  Cert.Lib.ssa_unary hW 133 V _ _ _ rfl (by decide) (by decide)
theorem e_main_v72 (V : Valuation τ sig (Elt F)) : A V main_v72 = addf (A V main_v67) (A V main_v71) :=
  Cert.Lib.ssa_binary hW 134 V _ _ _ _ rfl (by decide) (by decide) (by decide)
theorem e_main_v73 (V : Valuation τ sig (Elt F)) : A V main_v73 = Host.sqrt (A V main_v72) :=
  Cert.Lib.ssa_unary hW 135 V _ _ _ rfl (by decide) (by decide)
theorem e_main_v74 (V : Valuation τ sig (Elt F)) : A V main_v74 = Host.divf (A V main_arg11) (A V main_v73) :=
  Cert.Lib.ssa_binary hW 136 V _ _ _ _ rfl (by decide) (by decide) (by decide)
theorem e_main_v75 (V : Valuation τ sig (Elt F)) : A V main_v75 = broadcastInDim S1x128 ![1] bcast_S128_S1x128_1 (A V main_v74) :=
  Cert.Lib.ssa_unary hW 137 V _ _ _ rfl (by decide) (by decide)
theorem e_main_v76 (V : Valuation τ sig (Elt F)) : A V main_v76 = broadcastInDim S100000x128 ![0, 1] bcast_S1x128_S100000x128_0_1 (A V main_v75) :=
  Cert.Lib.ssa_unary hW 138 V _ _ _ rfl (by decide) (by decide)
theorem e_main_v77 (V : Valuation τ sig (Elt F)) : A V main_v77 = mulf (A V main_v70) (A V main_v76) :=
  Cert.Lib.ssa_binary hW 139 V _ _ _ _ rfl (by decide) (by decide) (by decide)
theorem e_main_v78 (V : Valuation τ sig (Elt F)) : A V main_v78 = broadcastInDim S1x128 ![1] bcast_S128_S1x128_1 (A V main_arg12) :=
  Cert.Lib.ssa_unary hW 140 V _ _ _ rfl (by decide) (by decide)
theorem e_main_v79 (V : Valuation τ sig (Elt F)) : A V main_v79 = broadcastInDim S100000x128 ![0, 1] bcast_S1x128_S100000x128_0_1 (A V main_v78) :=
  Cert.Lib.ssa_unary hW 141 V _ _ _ rfl (by decide) (by decide)
theorem e_main_v80 (V : Valuation τ sig (Elt F)) : A V main_v80 = addf (A V main_v77) (A V main_v79) :=
  Cert.Lib.ssa_binary hW 142 V _ _ _ _ rfl (by decide) (by decide) (by decide)
theorem e_main_call3_cst (V : Valuation τ sig (Elt F)) : A V main_call3_cst = constant S_ .f32 0x00000000#32 :=
  Cert.Lib.ssa_nullary hW 143 V _ _ rfl (by decide)
theorem e_main_call3_v0 (V : Valuation τ sig (Elt F)) : A V main_call3_v0 = broadcastInDim S100000x128 ![] bcast_S_S100000x128 (A V main_call3_cst) :=
  Cert.Lib.ssa_unary hW 144 V _ _ _ rfl (by decide) (by decide)
theorem e_main_v81 (V : Valuation τ sig (Elt F)) : A V main_v81 = maximumf (A V main_v80) (A V main_call3_v0) :=
  Cert.Lib.ssa_binary hW 145 V _ _ _ _ rfl (by decide) (by decide) (by decide)
theorem e_main_c_16 (V : Valuation τ sig (Elt F)) : A V main_c_16 = constantI S_ 32 0#32 :=
  Cert.Lib.ssa_nullary hW 146 V _ _ rfl (by decide)
theorem e_main_v82 (V : Valuation τ sig (Elt F)) : A V main_v82 = broadcastInDim S1600000 ![] bcast_S_S1600000 (A V main_c_16) :=
  Cert.Lib.ssa_unary hW 147 V _ _ _ rfl (by decide) (by decide)
theorem e_main_v83 (V : Valuation τ sig (Elt F)) : A V main_v83 = cmpi .slt (A V main_arg1) (A V main_v82) :=
  Cert.Lib.ssa_binary hW 148 V _ _ _ _ rfl (by decide) (by decide) (by decide)
theorem e_main_c_17 (V : Valuation τ sig (Elt F)) : A V main_c_17 = constantI S_ 32 100000#32 :=
  Cert.Lib.ssa_nullary hW 149 V _ _ rfl (by decide)
theorem e_main_v84 (V : Valuation τ sig (Elt F)) : A V main_v84 = broadcastInDim S1600000 ![] bcast_S_S1600000 (A V main_c_17) :=
  Cert.Lib.ssa_unary hW 150 V _ _ _ rfl (by decide) (by decide)
theorem e_main_v85 (V : Valuation τ sig (Elt F)) : A V main_v85 = addi (A V main_arg1) (A V main_v84) :=
  Cert.Lib.ssa_binary hW 151 V _ _ _ _ rfl (by decide) (by decide) (by decide)
theorem e_main_v86 (V : Valuation τ sig (Elt F)) : A V main_v86 = select (A V main_v83) (A V main_v85) (A V main_arg1) :=
  Cert.Lib.ssa_ternary hW 152 V _ _ _ _ _ rfl (by decide) (by decide) (by decide) (by decide)
theorem e_main_v87 (V : Valuation τ sig (Elt F)) : A V main_v87 = broadcastInDim S1600000x1 ![0] bcast_S1600000_S1600000x1_0 (A V main_v86) :=
  Cert.Lib.ssa_unary hW 153 V _ _ _ rfl (by decide) (by decide)
theorem e_main_v88 (V : Valuation τ sig (Elt F)) : A V main_v88 = Host.gather gather_S100000x128_S1600000x1_S1600000x128_1_0_n_n_0_1_1128 (A V main_v81) (A V main_v87) :=
  Cert.Lib.ssa_binary hW 154 V _ _ _ _ rfl (by decide) (by decide) (by decide)
theorem e_main_cst_18 (V : Valuation τ sig (Elt F)) : A V main_cst_18 = constant S_ .f32 0x00000000#32 :=
  Cert.Lib.ssa_nullary hW 155 V _ _ rfl (by decide)
theorem e_main_v89 (V : Valuation τ sig (Elt F)) : A V main_v89 = broadcastInDim S100000x128 ![] bcast_S_S100000x128 (A V main_cst_18) :=
  Cert.Lib.ssa_unary hW 156 V _ _ _ rfl (by decide) (by decide)
theorem e_main_v90 (V : Valuation τ sig (Elt F)) : A V main_v90 = broadcastInDim S1600000x1 ![0] bcast_S1600000_S1600000x1_0 (A V main_arg2) :=
  Cert.Lib.ssa_unary hW 157 V _ _ _ rfl (by decide) (by decide)
theorem e_main_v91 (V : Valuation τ sig (Elt F)) : A V main_v91 = Host.scatterAdd scatter_S100000x128_S1600000x1_S1600000x128_1_0_0_1 (A V main_v89) (A V main_v90) (A V main_v88) :=
  Cert.Lib.ssa_ternary hW 158 V _ _ _ _ _ rfl (by decide) (by decide) (by decide) (by decide)
theorem e_main_v92 (V : Valuation τ sig (Elt F)) : A V main_v92 = broadcastInDim S100000x1 ![0] bcast_S100000_S100000x1_0 (A V main_v7) :=
  Cert.Lib.ssa_unary hW 159 V _ _ _ rfl (by decide) (by decide)
theorem e_main_v93 (V : Valuation τ sig (Elt F)) : A V main_v93 = broadcastInDim S100000x128 ![0, 1] bcast_S100000x1_S100000x128_0_1 (A V main_v92) :=
  Cert.Lib.ssa_unary hW 160 V _ _ _ rfl (by decide) (by decide)
theorem e_main_v94 (V : Valuation τ sig (Elt F)) : A V main_v94 = mulf (A V main_v91) (A V main_v93) :=
  Cert.Lib.ssa_binary hW 161 V _ _ _ _ rfl (by decide) (by decide) (by decide)
theorem e_main_v95 (V : Valuation τ sig (Elt F)) : A V main_v95 = Host.dotGeneral dot_S100000x128_S128x40_S100000x40_1_0_0_1_n_n none (A V main_v94) (A V main_arg13) :=
  Cert.Lib.ssa_binary hW 162 V _ _ _ _ rfl (by decide) (by decide) (by decide)
theorem e_main_v96 (V : Valuation τ sig (Elt F)) : A V main_v96 = broadcastInDim S1x40 ![1] bcast_S40_S1x40_1 (A V main_arg14) :=
  Cert.Lib.ssa_unary hW 163 V _ _ _ rfl (by decide) (by decide)
theorem e_main_v97 (V : Valuation τ sig (Elt F)) : A V main_v97 = broadcastInDim S100000x40 ![0, 1] bcast_S1x40_S100000x40_0_1 (A V main_v96) :=
  Cert.Lib.ssa_unary hW 164 V _ _ _ rfl (by decide) (by decide)
theorem e_main_v98 (V : Valuation τ sig (Elt F)) : A V main_v98 = addf (A V main_v95) (A V main_v97) :=
  Cert.Lib.ssa_binary hW 165 V _ _ _ _ rfl (by decide) (by decide) (by decide)
theorem e_main_v99 (V : Valuation τ sig (Elt F)) : A V main_v99 = Host.dotGeneral dot_S100000x128_S128x40_S100000x40_1_0_0_1_n_n none (A V main_v81) (A V main_arg15) :=
  Cert.Lib.ssa_binary hW 166 V _ _ _ _ rfl (by decide) (by decide) (by decide)
theorem e_main_v100 (V : Valuation τ sig (Elt F)) : A V main_v100 = addf (A V main_v98) (A V main_v99) :=
  Cert.Lib.ssa_binary hW 167 V _ _ _ _ rfl (by decide) (by decide) (by decide)
theorem e_main_call4_cst (V : Valuation τ sig (Elt F)) : A V main_call4_cst = constant S_ .f32 0xFF800000#32 :=
  Cert.Lib.ssa_nullary hW 168 V _ _ rfl (by decide)
theorem e_main_call4_v0 (V : Valuation τ sig (Elt F)) : A V main_call4_v0 = Host.reduce FloatOps.maximumf (A V main_v100) (A V main_call4_cst) reducesTo_S100000x40_S100000_d1 h_S_ :=
  Cert.Lib.ssa_binary hW 169 V _ _ _ _ rfl (by decide) (by decide) (by decide)
theorem e_main_call4_cst_0 (V : Valuation τ sig (Elt F)) : A V main_call4_cst_0 = constant S_ .f32 0xFF800000#32 :=
  Cert.Lib.ssa_nullary hW 170 V _ _ rfl (by decide)
theorem e_main_call4_v1 (V : Valuation τ sig (Elt F)) : A V main_call4_v1 = broadcastInDim S100000 ![] bcast_S_S100000 (A V main_call4_cst_0) :=
  Cert.Lib.ssa_unary hW 171 V _ _ _ rfl (by decide) (by decide)
theorem e_main_call4_v2 (V : Valuation τ sig (Elt F)) : A V main_call4_v2 = maximumf (A V main_call4_v1) (A V main_call4_v0) :=
  Cert.Lib.ssa_binary hW 172 V _ _ _ _ rfl (by decide) (by decide) (by decide)
theorem e_main_call4_v3 (V : Valuation τ sig (Elt F)) : A V main_call4_v3 = broadcastInDim S100000x1 ![0] bcast_S100000_S100000x1_0 (A V main_call4_v2) :=
  Cert.Lib.ssa_unary hW 173 V _ _ _ rfl (by decide) (by decide)
theorem e_main_call4_v4 (V : Valuation τ sig (Elt F)) : A V main_call4_v4 = broadcastInDim S100000x40 ![0, 1] bcast_S100000x1_S100000x40_0_1 (A V main_call4_v3) :=
  Cert.Lib.ssa_unary hW 174 V _ _ _ rfl (by decide) (by decide)
theorem e_main_call4_v5 (V : Valuation τ sig (Elt F)) : A V main_call4_v5 = subf (A V main_v100) (A V main_call4_v4) :=
  Cert.Lib.ssa_binary hW 175 V _ _ _ _ rfl (by decide) (by decide) (by decide)
theorem e_main_call4_v6 (V : Valuation τ sig (Elt F)) : A V main_call4_v6 = Host.exp (A V main_call4_v5) :=
  Cert.Lib.ssa_unary hW 176 V _ _ _ rfl (by decide) (by decide)
theorem e_main_call4_cst_1 (V : Valuation τ sig (Elt F)) : A V main_call4_cst_1 = constant S_ .f32 0x00000000#32 :=
  Cert.Lib.ssa_nullary hW 177 V _ _ rfl (by decide)
theorem e_main_call4_v7 (V : Valuation τ sig (Elt F)) : A V main_call4_v7 = Host.reduceAdd (A V main_call4_v6) (A V main_call4_cst_1) reducesTo_S100000x40_S100000_d1 h_S_ :=
  Cert.Lib.ssa_binary hW 178 V _ _ _ _ rfl (by decide) (by decide) (by decide)
theorem e_main_call4_v8 (V : Valuation τ sig (Elt F)) : A V main_call4_v8 = broadcastInDim S100000x1 ![0] bcast_S100000_S100000x1_0 (A V main_call4_v7) :=
  Cert.Lib.ssa_unary hW 179 V _ _ _ rfl (by decide) (by decide)
theorem e_main_call4_v9 (V : Valuation τ sig (Elt F)) : A V main_call4_v9 = Host.log (A V main_call4_v8) :=
  Cert.Lib.ssa_unary hW 180 V _ _ _ rfl (by decide) (by decide)
theorem e_main_call4_v10 (V : Valuation τ sig (Elt F)) : A V main_call4_v10 = broadcastInDim S100000x40 ![0, 1] bcast_S100000x1_S100000x40_0_1 (A V main_call4_v9) :=
  Cert.Lib.ssa_unary hW 181 V _ _ _ rfl (by decide) (by decide)
theorem e_main_v101 (V : Valuation τ sig (Elt F)) : A V main_v101 = subf (A V main_call4_v5) (A V main_call4_v10) :=
  Cert.Lib.ssa_binary hW 182 V _ _ _ _ rfl (by decide) (by decide) (by decide)
theorem keep_arg0 (V : Valuation τ sig (Elt F)) : A V main_arg0 = V (Proc.devRef .tc main_arg0) :=
  hW.keeps V main_arg0 (by decide)
theorem keep_arg1 (V : Valuation τ sig (Elt F)) : A V main_arg1 = V (Proc.devRef .tc main_arg1) :=
  hW.keeps V main_arg1 (by decide)
theorem keep_arg2 (V : Valuation τ sig (Elt F)) : A V main_arg2 = V (Proc.devRef .tc main_arg2) :=
  hW.keeps V main_arg2 (by decide)
theorem keep_arg3 (V : Valuation τ sig (Elt F)) : A V main_arg3 = V (Proc.devRef .tc main_arg3) :=
  hW.keeps V main_arg3 (by decide)
theorem keep_arg4 (V : Valuation τ sig (Elt F)) : A V main_arg4 = V (Proc.devRef .tc main_arg4) :=
  hW.keeps V main_arg4 (by decide)
theorem keep_arg5 (V : Valuation τ sig (Elt F)) : A V main_arg5 = V (Proc.devRef .tc main_arg5) :=
  hW.keeps V main_arg5 (by decide)
theorem keep_arg6 (V : Valuation τ sig (Elt F)) : A V main_arg6 = V (Proc.devRef .tc main_arg6) :=
  hW.keeps V main_arg6 (by decide)
theorem keep_arg7 (V : Valuation τ sig (Elt F)) : A V main_arg7 = V (Proc.devRef .tc main_arg7) :=
  hW.keeps V main_arg7 (by decide)
theorem keep_arg8 (V : Valuation τ sig (Elt F)) : A V main_arg8 = V (Proc.devRef .tc main_arg8) :=
  hW.keeps V main_arg8 (by decide)
theorem keep_arg9 (V : Valuation τ sig (Elt F)) : A V main_arg9 = V (Proc.devRef .tc main_arg9) :=
  hW.keeps V main_arg9 (by decide)
theorem keep_arg10 (V : Valuation τ sig (Elt F)) : A V main_arg10 = V (Proc.devRef .tc main_arg10) :=
  hW.keeps V main_arg10 (by decide)
theorem keep_arg11 (V : Valuation τ sig (Elt F)) : A V main_arg11 = V (Proc.devRef .tc main_arg11) :=
  hW.keeps V main_arg11 (by decide)
theorem keep_arg12 (V : Valuation τ sig (Elt F)) : A V main_arg12 = V (Proc.devRef .tc main_arg12) :=
  hW.keeps V main_arg12 (by decide)
theorem keep_arg13 (V : Valuation τ sig (Elt F)) : A V main_arg13 = V (Proc.devRef .tc main_arg13) :=
  hW.keeps V main_arg13 (by decide)
theorem keep_arg14 (V : Valuation τ sig (Elt F)) : A V main_arg14 = V (Proc.devRef .tc main_arg14) :=
  hW.keeps V main_arg14 (by decide)
theorem keep_arg15 (V : Valuation τ sig (Elt F)) : A V main_arg15 = V (Proc.devRef .tc main_arg15) :=
  hW.keeps V main_arg15 (by decide)

end Cert.ReferenceIdeal.RefRun

end
-- ==== Proof.RefSpec.lean ====
/-
  The reference's computation as named array functions: three rounds of mean-aggregation over a graph
  (each node averages the feature rows of the sources of its incoming edges), each followed by two dense
  maps; after the first two rounds a batch normalisation over the node axis and a rectifier; after the
  third a log-softmax along the feature axis. Every function below is the reference's own sequence of
  host operations applied to array arguments, so the reference's result is `out` of its sixteen
  arguments by reading its operations one after another.
-/
import proofs.«116927_j80977313399688_1_alg».proof.ReferenceIdeal

noncomputable section

namespace Cert.ReferenceIdeal.Spec

open Idealize.ShloMosaic Cert.ReferenceIdeal
open Facts₀

variable {F : FTy → Type} [FloatOps F] [Facts₀]

/-- A float array of shape `S`. -/
abbrev A (S : Shape) := (⟨S, .f32⟩ : BufTy).Contents (Elt F)
/-- An array of 32-bit integers of shape `S`. -/
abbrev I (S : Shape) := (⟨S, .i32⟩ : BufTy).Contents (Elt F)

/-- `1 / max(deg, 1)` per node, `deg n` the number of edges whose destination is `n`
    (ones accumulated at the destinations). -/
def invDeg (dst : I (F := F) S1600000) : A (F := F) S100000 :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32)))
      (broadcastInDim S100000 ![] bcast_S_S100000 (constant S_ .f32 0x3F800000#32)))

/-- The source indices as gather start indices: a negative index wrapped by the node count, stood up
    as a column. -/
def srcIdx (src : I (F := F) S1600000) : I (F := F) S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32)))
      src)

/-- Mean aggregation: the rows of `h` at the edges' sources, accumulated at the edges' destinations,
    each node's sum scaled by `invDeg`. -/
def aggr (src dst : I (F := F) S1600000) (h : A (F := F) S100000x128) : A (F := F) S100000x128 :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 h (srcIdx src)))
    (broadcastInDim S100000x128 ![0, 1] bcast_S100000x1_S100000x128_0_1
      (broadcastInDim S100000x1 ![0] bcast_S100000_S100000x1_0 (invDeg dst)))

/-- A vector of 128 entries spread over the 100000 rows. -/
def rows (v : A (F := F) S128) : A (F := F) S100000x128 :=
  broadcastInDim S100000x128 ![0, 1] bcast_S1x128_S100000x128_0_1 (broadcastInDim S1x128 ![1] bcast_S128_S1x128_1 v)

/-- The two dense maps of a hidden round: `a · Wl + b + h · Wr`. -/
def lin (a h : A (F := F) S100000x128) (Wl : A (F := F) S128x128) (b : A (F := F) S128) (Wr : A (F := F) S128x128) :
    A (F := F) S100000x128 :=
  addf (addf (Host.dotGeneral dot_S100000x128_S128x128_S100000x128_1_0_0_1_n_n none a Wl) (rows b))
    (Host.dotGeneral dot_S100000x128_S128x128_S100000x128_1_0_0_1_n_n none h Wr)

/-- The column sums over the node axis. -/
def colSum (z : A (F := F) S100000x128) : A (F := F) S128 :=
  Host.reduceAdd z (constant S_ .f32 0x00000000#32) reducesTo_S100000x128_S128_d0 h_S_

/-- The column means over the node axis. -/
def colMean (z : A (F := F) S100000x128) : A (F := F) S128 :=
  Host.divf (colSum z) (broadcastInDim S128 ![] bcast_S_S128 (constant S_ .f32 0x47C35000#32))

/-- `z` minus its column means, the means computed in keepdims form as the variance computes them. -/
def centred (z : A (F := F) S100000x128) : A (F := F) S100000x128 :=
  subf z (broadcastInDim S100000x128 ![0, 1] bcast_S1x128_S100000x128_0_1
    (Host.divf (broadcastInDim S1x128 ![1] bcast_S128_S1x128_1 (colSum z))
      (broadcastInDim S1x128 ![] bcast_S_S1x128 (constant S_ .f32 0x47C35000#32))))

/-- The number the sum of squares is divided by: the node count minus the (zero) degrees of freedom. -/
def varCount : A (F := F) S_ :=
  subf (constant S_ .f32 0x47C35000#32) (sitofp .f32 (constantI S_ 32 0#32))

/-- The column variances over the node axis (the mean of the squared deviations; the guard on the count
    selects a quiet-NaN word when the count is not positive). -/
def colVar (z : A (F := F) S100000x128) : A (F := F) S128 :=
  select (broadcastInDim S128 ![] bcast_S_S128 (cmpf .ogt (varCount (F := F)) (constant S_ .f32 0x00000000#32)))
    (Host.divf (colSum (mulf (centred z) (centred z))) (broadcastInDim S128 ![] bcast_S_S128 (varCount (F := F))))
    (broadcastInDim S128 ![] bcast_S_S128 (id (constant S_ .f32 0x7FC00000#32)))

/-- Batch normalisation over the node axis, then the rectifier:
    `max((z - mean) · (g / sqrt(var + ε)) + be, 0)`. -/
def bn (z : A (F := F) S100000x128) (g be : A (F := F) S128) : A (F := F) S100000x128 :=
  maximumf
    (addf
      (mulf (subf z (rows (colMean z)))
        (rows (Host.divf g (Host.sqrt (addf (colVar z) (broadcastInDim S128 ![] bcast_S_S128 (constant S_ .f32 0x3727C5AC#32)))))))
      (rows be))
    (broadcastInDim S100000x128 ![] bcast_S_S100000x128 (constant S_ .f32 0x00000000#32))

/-- The two dense maps of the last round, into 40 classes. -/
def lin2 (a h : A (F := F) S100000x128) (Wl : A (F := F) S128x40) (b : A (F := F) S40) (Wr : A (F := F) S128x40) :
    A (F := F) S100000x40 :=
  addf (addf (Host.dotGeneral dot_S100000x128_S128x40_S100000x40_1_0_0_1_n_n none a Wl)
      (broadcastInDim S100000x40 ![0, 1] bcast_S1x40_S100000x40_0_1 (broadcastInDim S1x40 ![1] bcast_S40_S1x40_1 b)))
    (Host.dotGeneral dot_S100000x128_S128x40_S100000x40_1_0_0_1_n_n none h Wr)

/-- A per-row value spread over the 40 columns. -/
def cols (v : A (F := F) S100000) : A (F := F) S100000x40 :=
  broadcastInDim S100000x40 ![0, 1] bcast_S100000x1_S100000x40_0_1 (broadcastInDim S100000x1 ![0] bcast_S100000_S100000x1_0 v)

/-- Each row minus its maximum. -/
def shifted (z : A (F := F) S100000x40) : A (F := F) S100000x40 :=
  subf z (cols (maximumf (broadcastInDim S100000 ![] bcast_S_S100000 (constant S_ .f32 0xFF800000#32))
    (Host.reduce FloatOps.maximumf z (constant S_ .f32 0xFF800000#32) reducesTo_S100000x40_S100000_d1 h_S_)))

/-- Log-softmax along the class axis: the shifted row minus the log of the sum of its exponentials. -/
def logSoftmax (z : A (F := F) S100000x40) : A (F := F) S100000x40 :=
  subf (shifted z)
    (broadcastInDim S100000x40 ![0, 1] bcast_S100000x1_S100000x40_0_1
      (Host.log (broadcastInDim S100000x1 ![0] bcast_S100000_S100000x1_0
        (Host.reduceAdd (Host.exp (shifted z)) (constant S_ .f32 0x00000000#32) reducesTo_S100000x40_S100000_d1 h_S_))))

/-- A hidden round: aggregate, the two dense maps, normalise and rectify. -/
def layer (src dst : I (F := F) S1600000) (h : A (F := F) S100000x128) (Wl : A (F := F) S128x128) (b : A (F := F) S128)
    (Wr : A (F := F) S128x128) (g be : A (F := F) S128) : A (F := F) S100000x128 :=
  bn (lin (aggr src dst h) h Wl b Wr) g be

/-- The whole network. -/
def out (x : A (F := F) S100000x128) (src dst : I (F := F) S1600000)
    (Wl0 : A (F := F) S128x128) (b0 : A (F := F) S128) (Wr0 : A (F := F) S128x128) (g0 be0 : A (F := F) S128)
    (Wl1 : A (F := F) S128x128) (b1 : A (F := F) S128) (Wr1 : A (F := F) S128x128) (g1 be1 : A (F := F) S128)
    (Wl2 : A (F := F) S128x40) (b2 : A (F := F) S40) (Wr2 : A (F := F) S128x40) : A (F := F) S100000x40 :=
  logSoftmax (lin2 (aggr src dst (layer src dst (layer src dst x Wl0 b0 Wr0 g0 be0) Wl1 b1 Wr1 g1 be1))
    (layer src dst (layer src dst x Wl0 b0 Wr0 g0 be0) Wl1 b1 Wr1 g1 be1) Wl2 b2 Wr2)

end Cert.ReferenceIdeal.Spec

end
-- ==== Proof.RefRun.lean ====
/-
  The reference's run read back as the named array functions of its specification.

  The line's equations (one per operation) are composed stage by stage: the inverse degrees, the gather indices,
  the three mean aggregations, the dense maps, the column means and variances, the two normalisations with their
  rectifiers, the log-softmax. Each stage is the specification's function of the arrays the stage reads, by
  rewriting the arrays the stage writes with their operations and comparing the two terms, which are the same
  term. The result array is then `Spec.out` of the sixteen arguments, which no operation writes.
-/
import proofs.«116927_j80977313399688_1_alg».proof.Proof.RefEqs
import proofs.«116927_j80977313399688_1_alg».proof.Proof.RefSpec

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

-- the comparisons below are between terms with the same operations at the same places: nothing is evaluated
attribute [local irreducible] Host.gather Host.reduce

variable (V : Valuation τ sig (Elt F))

/-- The inverse degrees: ones accumulated at the destinations, at least one, inverted. -/
theorem invDeg_eq : A V main_v7 = Spec.invDeg (A V main_arg2) := by
  rw [e_main_v7, e_main_v6, e_main_cst_2, e_main_v5, e_main_v4, e_main_cst_1, e_main_v3, e_main_v2, e_main_v1, e_main_cst_0, e_main_v0, e_main_cst]
  rfl

/-- The gather indices of the first round. -/
theorem srcIdx0_eq : A V main_v13 = Spec.srcIdx (A V main_arg1) := by
  rw [e_main_v13, e_main_v12, e_main_v11, e_main_v10, e_main_c_3, e_main_v9, e_main_v8, e_main_c]
  rfl

/-- The gather indices of the second round. -/
theorem srcIdx1_eq : A V main_v50 = Spec.srcIdx (A V main_arg1) := by
  rw [e_main_v50, e_main_v49, e_main_v48, e_main_v47, e_main_c_10, e_main_v46, e_main_v45, e_main_c_9]
  rfl

/-- The gather indices of the third round. -/
theorem srcIdx2_eq : A V main_v87 = Spec.srcIdx (A V main_arg1) := by
  rw [e_main_v87, e_main_v86, e_main_v85, e_main_v84, e_main_c_17, e_main_v83, e_main_v82, e_main_c_16]
  rfl

/-- The first mean aggregation, of the input features. -/
theorem aggr0_eq : A V main_v20 = Spec.aggr (A V main_arg1) (A V main_arg2) (A V main_arg0) := by
  rw [e_main_v20, e_main_v19, e_main_v18, invDeg_eq, e_main_v17, e_main_v16, e_main_v15, e_main_cst_4, e_main_v14, srcIdx0_eq]
  rfl

/-- The second mean aggregation, of the first round's output. -/
theorem aggr1_eq : A V main_v57 = Spec.aggr (A V main_arg1) (A V main_arg2) (A V main_v44) := by
  rw [e_main_v57, e_main_v56, e_main_v55, invDeg_eq, e_main_v54, e_main_v53, e_main_v52, e_main_cst_11, e_main_v51, srcIdx1_eq]
  rfl

/-- The third mean aggregation, of the second round's output. -/
theorem aggr2_eq : A V main_v94 = Spec.aggr (A V main_arg1) (A V main_arg2) (A V main_v81) := by
  rw [e_main_v94, e_main_v93, e_main_v92, invDeg_eq, e_main_v91, e_main_v90, e_main_v89, e_main_cst_18, e_main_v88, srcIdx2_eq]
  rfl

/-- The dense maps of the first round. -/
theorem lin0_eq : A V main_v26 = Spec.lin (A V main_v20) (A V main_arg0) (A V main_arg3) (A V main_arg4) (A V main_arg5) := by
  rw [e_main_v26, e_main_v25, e_main_v24, e_main_v23, e_main_v22, e_main_v21]
  rfl

/-- The dense maps of the second round. -/
theorem lin1_eq : A V main_v63 = Spec.lin (A V main_v57) (A V main_v44) (A V main_arg8) (A V main_arg9) (A V main_arg10) := by
  rw [e_main_v63, e_main_v62, e_main_v61, e_main_v60, e_main_v59, e_main_v58]
  rfl

/-- The dense maps of the third round, into the classes. -/
theorem lin2_eq : A V main_v100 = Spec.lin2 (A V main_v94) (A V main_v81) (A V main_arg13) (A V main_arg14) (A V main_arg15) := by
  rw [e_main_v100, e_main_v99, e_main_v98, e_main_v97, e_main_v96, e_main_v95]
  rfl

/-- The column means of the first round. -/
theorem mean0_eq : A V main_v29 = Spec.colMean (A V main_v26) := by
  rw [e_main_v29, e_main_v28, e_main_cst_6, e_main_v27, e_main_cst_5]
  rfl

/-- The column means of the second round. -/
theorem mean1_eq : A V main_v66 = Spec.colMean (A V main_v63) := by
  rw [e_main_v66, e_main_v65, e_main_cst_13, e_main_v64, e_main_cst_12]
  rfl

/-- The column variances of the first round: the outlined variance with its guarded select at the call site. -/
theorem var0_eq : A V main_v30 = Spec.colVar (A V main_v26) := by
  rw [e_main_v30, e_main_call0_call0_v1, e_main_call0_call0_v0, e_main_call0_cst_4, e_main_call0_v12, e_main_call0_cst_3, e_main_call0_v11, e_main_call0_v10, e_main_call0_v8, e_main_call0_cst_1, e_main_call0_v7, e_main_c_7, e_main_call0_v9, e_main_call0_cst_2, e_main_call0_v6, e_main_call0_v5, e_main_call0_v4, e_main_call0_v3, e_main_call0_v2, e_main_call0_cst_0, e_main_call0_v1, e_main_call0_v0, e_main_call0_cst]
  rfl

/-- The column variances of the second round. -/
theorem var1_eq : A V main_v67 = Spec.colVar (A V main_v63) := by
  rw [e_main_v67, e_main_call2_call0_v1, e_main_call2_call0_v0, e_main_call2_cst_4, e_main_call2_v12, e_main_call2_cst_3, e_main_call2_v11, e_main_call2_v10, e_main_call2_v8, e_main_call2_cst_1, e_main_call2_v7, e_main_c_14, e_main_call2_v9, e_main_call2_cst_2, e_main_call2_v6, e_main_call2_v5, e_main_call2_v4, e_main_call2_v3, e_main_call2_v2, e_main_call2_cst_0, e_main_call2_v1, e_main_call2_v0, e_main_call2_cst]
  rfl

/-- The first normalisation and rectifier. -/
theorem bn0_eq : A V main_v44 = Spec.bn (A V main_v26) (A V main_arg6) (A V main_arg7) := by
  rw [e_main_v44, e_main_call1_v0, e_main_call1_cst, e_main_v43, e_main_v42, e_main_v41, e_main_v40, e_main_v39, e_main_v38, e_main_v37, e_main_v36, e_main_v35, e_main_v34, e_main_cst_8, var0_eq, e_main_v33, e_main_v32, e_main_v31, mean0_eq]
  rfl

/-- The second normalisation and rectifier. -/
theorem bn1_eq : A V main_v81 = Spec.bn (A V main_v63) (A V main_arg11) (A V main_arg12) := by
  rw [e_main_v81, e_main_call3_v0, e_main_call3_cst, e_main_v80, e_main_v79, e_main_v78, e_main_v77, e_main_v76, e_main_v75, e_main_v74, e_main_v73, e_main_v72, e_main_v71, e_main_cst_15, var1_eq, e_main_v70, e_main_v69, e_main_v68, mean1_eq]
  rfl

/-- The log-softmax of the third round's dense maps. -/
theorem logSoftmax_eq : A V main_v101 = Spec.logSoftmax (A V main_v100) := by
  rw [e_main_v101, e_main_call4_v10, e_main_call4_v9, e_main_call4_v8, e_main_call4_v7, e_main_call4_cst_1, e_main_call4_v6, e_main_call4_v5, e_main_call4_v4, e_main_call4_v3, e_main_call4_v2, e_main_call4_v1, e_main_call4_cst_0, e_main_call4_v0, e_main_call4_cst]
  rfl

/-- The result array holds the whole network of what the sixteen argument arrays hold after the line. -/
theorem out_eq_A : A V main_v101 = Spec.out (A V main_arg0) (A V main_arg1) (A V main_arg2) (A V main_arg3) (A V main_arg4) (A V main_arg5) (A V main_arg6) (A V main_arg7) (A V main_arg8) (A V main_arg9) (A V main_arg10) (A V main_arg11) (A V main_arg12) (A V main_arg13) (A V main_arg14) (A V main_arg15) := by
  rw [logSoftmax_eq, lin2_eq, aggr2_eq, bn1_eq, lin1_eq, aggr1_eq, bn0_eq, lin0_eq, aggr0_eq]
  rfl

/-- The result array holds the whole network of the sixteen arguments the line started from. -/
theorem out_eq : after ops V (Proc.devRef .tc main_v101) = Spec.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  have h := out_eq_A V
  rw [keep_arg0, keep_arg1, keep_arg2, keep_arg3, keep_arg4, keep_arg5, keep_arg6, keep_arg7, keep_arg8, keep_arg9, keep_arg10, keep_arg11, keep_arg12, keep_arg13, keep_arg14, keep_arg15] at h
  exact h

/-- On every device, for any float values, from any memory with zero counters: every weakly fair execution of the
    reference terminates, its result the specification's function of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v101) = Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c main_v101).trans (out_eq _),
      (h c main_arg0).trans (keep_arg0 _),
      (h c main_arg1).trans (keep_arg1 _),
      (h c main_arg2).trans (keep_arg2 _),
      (h c main_arg3).trans (keep_arg3 _),
      (h c main_arg4).trans (keep_arg4 _),
      (h c main_arg5).trans (keep_arg5 _),
      (h c main_arg6).trans (keep_arg6 _),
      (h c main_arg7).trans (keep_arg7 _),
      (h c main_arg8).trans (keep_arg8 _),
      (h c main_arg9).trans (keep_arg9 _),
      (h c main_arg10).trans (keep_arg10 _),
      (h c main_arg11).trans (keep_arg11 _),
      (h c main_arg12).trans (keep_arg12 _),
      (h c main_arg13).trans (keep_arg13 _),
      (h c main_arg14).trans (keep_arg14 _),
      (h c main_arg15).trans (keep_arg15 _)⟩)
    (run_after m ρ)

end Cert.ReferenceIdeal.RefRun

end
-- ==== Proof.LibRowVector.lean ====
/-
  A vector stood up as a one-row matrix, read at an index: a vector of n entries broadcast along the second axis
  (broadcast_in_dim with dims = [1]) into a [1, n] matrix reads, at (u, q), the vector at q — any n, any element
  type. (The reshape [n] → [1, n] is the library's shapeCast_a_1a_apply.)
-/
import Idealize.ShloMosaic.Lib.ValueIdx
import Idealize.ShloMosaic.Lib.Pipeline.Value

noncomputable section

namespace Cert.Lib.RowVector

open Idealize.ShloMosaic Idealize.ShloMosaic.ValueIdx

/-- A vector of `n` entries broadcast along the second axis into a one-row matrix reads, at `(u, q)`, the
    vector at `q`. -/
theorem bcRow_apply {α : Type} {n : ℕ} (h : (⟨1, ![n]⟩ : Shape).BroadcastsInDim ⟨2, ![1, n]⟩ ![1])
    (v : (⟨1, ![n]⟩ : Shape).Idx → α) (u : Fin 1) (q : Fin n) :
    broadcastInDim ⟨2, ![1, n]⟩ ![1] h v (ix2 u q) = v (ix1 q) := by
  refine broadcastInDim_apply ![1] h v (ix2 u q) (ix1 q) fun a => ?_
  match a with
  | ⟨0, _⟩ =>
    show q.val = if n = 1 then 0 else q.val
    split
    · have := q.isLt; omega
    · rfl

end Cert.Lib.RowVector

end
-- ==== Proof.KBase.lean ====
/-
  Shared facts for reading the kernel program's host stretches in the reference's vocabulary: the two
  programs' records of dimension numbers for the row gather and the two accumulations are equal; a buffer
  that no operation of a stretch writes keeps its contents; and two layout readings — a vector stood up as a
  one-row matrix (by a broadcast along the second axis, or by a reshape) read at (0, q) is the vector at q.
-/
import proofs.«116927_j80977313399688_1_alg».proof.Proof.Gen.KernelIdeal.Frame
import proofs.«116927_j80977313399688_1_alg».proof.Proof.Gen.ReferenceIdeal
import proofs.«116927_j80977313399688_1_alg».proof.Proof.RefSpec
import Idealize.ShloMosaic.PureOps.Ideal
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import proofs.«116927_j80977313399688_1_alg».proof.Proof.LibRowVector

set_option maxRecDepth 16384

noncomputable section

namespace Cert.KernelIdeal.KChain

open Idealize.ShloMosaic Idealize.ShloMosaic.TcCoe Idealize.SL.Sem Idealize.ShloMosaic.ValueIdx
open Cert.KernelIdeal Cert.KernelIdeal.Gen

/-- The degree count's accumulation: the same dimension numbers in both programs. -/
theorem scatterVec_eq : Cert.KernelIdeal.scatter_S100000_S1600000x1_S1600000_n_0_0_1
    = Cert.ReferenceIdeal.scatter_S100000_S1600000x1_S1600000_n_0_0_1 := rfl
/-- The row accumulation: the same dimension numbers in both programs. -/
theorem scatterRows_eq : Cert.KernelIdeal.scatter_S100000x128_S1600000x1_S1600000x128_1_0_0_1
    = Cert.ReferenceIdeal.scatter_S100000x128_S1600000x1_S1600000x128_1_0_0_1 := rfl
/-- The row gather: the same dimension numbers in both programs. -/
theorem gatherRows_eq : Cert.KernelIdeal.gather_S100000x128_S1600000x1_S1600000x128_1_0_n_n_0_1_1128
    = Cert.ReferenceIdeal.gather_S100000x128_S1600000x1_S1600000x128_1_0_n_n_0_1_1128 := rfl

/-- A buffer that no operation of a stretch writes keeps its contents: the side goal, operation by operation. -/
macro "keeps_stretch" ops:ident : tactic => `(tactic| (
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

open Cert.Lib.RowVector (bcRow_apply)

/-- A quotient formed on one-row matrices — a vector of column values stood up as a row, divided by a scalar
    spread over the row — read at `(0, q)` is the quotient formed on vectors read at `q`. -/
theorem quotRow_apply (R : S128.Idx → Ideal .f32) (n : S_.Idx → Ideal .f32)
    (h1 : S128.BroadcastsInDim S1x128 ![1]) (h2 : S_.BroadcastsInDim S1x128 ![])
    (h2' : Cert.ReferenceIdeal.S_.BroadcastsInDim Cert.ReferenceIdeal.S128 ![]) (q : Fin 128) :
    Host.divf (F := Ideal) (φ := .f32) (broadcastInDim S1x128 ![1] h1 R) (broadcastInDim S1x128 ![] h2 n) (ix2 0 q)
      = Host.divf (F := Ideal) (φ := .f32) R (broadcastInDim Cert.ReferenceIdeal.S128 ![] h2' n) (ix1 q) := by
  show FloatOps.hostDivf (broadcastInDim S1x128 ![1] h1 R (ix2 0 q)) (broadcastInDim S1x128 ![] h2 n (ix2 0 q))
      = FloatOps.hostDivf (R (ix1 q)) (broadcastInDim Cert.ReferenceIdeal.S128 ![] h2' n (ix1 q))
  rw [broadcastInDim_scalar_apply h2 n, broadcastInDim_scalar_apply h2' n, bcRow_apply h1 R 0 q]

/-- The guarded quotient of the variance, formed on one-row matrices and read at `(0, q)`, is the guarded
    quotient formed on vectors read at `q`: the guard, the divisor and the fallback are scalars spread over the
    row. -/
theorem guardedQuotRow_apply (p : S_.Idx → BitVec 1) (R : S128.Idx → Ideal .f32) (n c : S_.Idx → Ideal .f32)
    (hp : S_.BroadcastsInDim S1x128 ![]) (h1 : S128.BroadcastsInDim S1x128 ![1]) (h2 hc : S_.BroadcastsInDim S1x128 ![])
    (hp' h2' hc' : Cert.ReferenceIdeal.S_.BroadcastsInDim Cert.ReferenceIdeal.S128 ![]) (q : Fin 128) :
    select (broadcastInDim S1x128 ![] hp p)
        (Host.divf (F := Ideal) (φ := .f32) (broadcastInDim S1x128 ![1] h1 R) (broadcastInDim S1x128 ![] h2 n))
        (broadcastInDim S1x128 ![] hc c) (ix2 0 q)
      = select (broadcastInDim Cert.ReferenceIdeal.S128 ![] hp' p)
        (Host.divf (F := Ideal) (φ := .f32) R (broadcastInDim Cert.ReferenceIdeal.S128 ![] h2' n))
        (broadcastInDim Cert.ReferenceIdeal.S128 ![] hc' c) (ix1 q) := by
  show Scalar.select (broadcastInDim S1x128 ![] hp p (ix2 0 q))
        (FloatOps.hostDivf (broadcastInDim S1x128 ![1] h1 R (ix2 0 q)) (broadcastInDim S1x128 ![] h2 n (ix2 0 q)))
        (broadcastInDim S1x128 ![] hc c (ix2 0 q))
      = Scalar.select (broadcastInDim Cert.ReferenceIdeal.S128 ![] hp' p (ix1 q))
        (FloatOps.hostDivf (R (ix1 q)) (broadcastInDim Cert.ReferenceIdeal.S128 ![] h2' n (ix1 q)))
        (broadcastInDim Cert.ReferenceIdeal.S128 ![] hc' c (ix1 q))
  rw [broadcastInDim_scalar_apply hp p, broadcastInDim_scalar_apply h2 n, broadcastInDim_scalar_apply hc c,
    broadcastInDim_scalar_apply hp' p, broadcastInDim_scalar_apply h2' n, broadcastInDim_scalar_apply hc' c,
    bcRow_apply h1 R 0 q]

end Cert.KernelIdeal.KChain

end
-- ==== Proof.KS0.lean ====
/-
  The host operations before the first kernel region, read from the launch contents: the aggregated
  input features are the reference's mean aggregation of the inputs, the per-node scale is the reference's
  reciprocal clipped degree, the first bias stands as a one-row matrix, and the region's other operands
  are argument arrays as launched.
-/
import proofs.«116927_j80977313399688_1_alg».proof.Proof.Gen.KernelIdeal.Frame
import proofs.«116927_j80977313399688_1_alg».proof.Proof.Gen.ReferenceIdeal
import proofs.«116927_j80977313399688_1_alg».proof.Proof.RefSpec
import Idealize.ShloMosaic.PureOps.Ideal
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import proofs.«116927_j80977313399688_1_alg».proof.Proof.KBase

set_option maxRecDepth 16384

noncomputable section

namespace Cert.KernelIdeal.KChain

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- Before the first region the aggregated features are the reference's aggregation of the launch contents. -/
theorem W1_v20 (c : Dev nD) :
    (W1 m ρ c (Proc.devRef .tc main_v20) : S100000x128.Idx → EReal)
      = Cert.ReferenceIdeal.Spec.aggr (F := Ideal) (m ((c : Thread nD τ).loc main_arg1)) (m ((c : Thread nD τ).loc main_arg2)) (m ((c : Thread nD τ).loc main_arg0)) := by
  show StableHlo.after hostOps0 (W0 m ρ c) (Proc.devRef .tc main_v20) = _
  after_results_simp
  rw [scatterRows_eq, gatherRows_eq, scatterVec_eq]
  rfl

/-- The per-node scale computed before the first region is the reference's. -/
theorem W1_v7 (c : Dev nD) :
    (W1 m ρ c (Proc.devRef .tc main_v7) : S100000.Idx → EReal)
      = Cert.ReferenceIdeal.Spec.invDeg (F := Ideal) (m ((c : Thread nD τ).loc main_arg2)) := by
  show StableHlo.after hostOps0 (W0 m ρ c) (Proc.devRef .tc main_v7) = _
  after_results_simp
  rw [scatterVec_eq]
  rfl

/-- The first bias as a one-row matrix. -/
theorem W1_v21_row (c : Dev nD) (q : Fin 128) :
    (W1 m ρ c (Proc.devRef .tc main_v21) : S1x128.Idx → EReal) (ix2 0 q) = (m ((c : Thread nD τ).loc main_arg4)) (ix1 q) := by
  show StableHlo.after hostOps0 (W0 m ρ c) (Proc.devRef .tc main_v21) _ = _
  after_results_simp
  exact shapeCast_a_1a_apply _ _ 0 q

theorem W1_main_arg0_of0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by keeps_stretch hostOps0))
    _ = m ((c : Thread nD τ).loc main_arg0) := rfl

theorem W1_main_arg3_of0 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by keeps_stretch hostOps0))
    _ = m ((c : Thread nD τ).loc main_arg3) := rfl

theorem W1_main_arg5_of0 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by keeps_stretch hostOps0))
    _ = m ((c : Thread nD τ).loc main_arg5) := rfl

end Cert.KernelIdeal.KChain

end
-- ==== Proof.KS4.lean ====
/-
  The host operations between the second normalisation region and the last region, read from what the
  normalisation region left: the aggregated features are the reference's mean aggregation of that output, the
  last bias stands as a one-row matrix, and the weights are argument arrays as launched.
-/
import proofs.«116927_j80977313399688_1_alg».proof.Proof.Gen.KernelIdeal.Frame
import proofs.«116927_j80977313399688_1_alg».proof.Proof.Gen.ReferenceIdeal
import proofs.«116927_j80977313399688_1_alg».proof.Proof.RefSpec
import Idealize.ShloMosaic.PureOps.Ideal
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import proofs.«116927_j80977313399688_1_alg».proof.Proof.KBase
import proofs.«116927_j80977313399688_1_alg».proof.Proof.KS0

set_option maxRecDepth 16384

noncomputable section

namespace Cert.KernelIdeal.KChain

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

theorem W12_main_arg1_of0 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := StableHlo.after_of_forall_not_mem (b := Proc.devRef .tc main_arg1) _ _ (List.forall_iff_forall_mem.mp (by keeps_stretch hostOps3_2))
    _ = W9 m ρ c (Proc.devRef .tc main_arg1) := StableHlo.after_of_forall_not_mem (b := Proc.devRef .tc main_arg1) _ _ (List.forall_iff_forall_mem.mp (by keeps_stretch hostOps3_1))
    _ = W8 m ρ c (Proc.devRef .tc main_arg1) := StableHlo.after_of_forall_not_mem (b := Proc.devRef .tc main_arg1) _ _ (List.forall_iff_forall_mem.mp (by keeps_stretch hostOps3))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by keeps_stretch hostOps2))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by keeps_stretch hostOps1_2))
    _ = W3 m ρ c (Proc.devRef .tc main_arg1) := StableHlo.after_of_forall_not_mem (b := Proc.devRef .tc main_arg1) _ _ (List.forall_iff_forall_mem.mp (by keeps_stretch hostOps1_1))
    _ = W2 m ρ c (Proc.devRef .tc main_arg1) := StableHlo.after_of_forall_not_mem (b := Proc.devRef .tc main_arg1) _ _ (List.forall_iff_forall_mem.mp (by keeps_stretch hostOps1))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by keeps_stretch hostOps0))
    _ = m ((c : Thread nD τ).loc main_arg1) := rfl

theorem W12_main_arg2_of0 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by keeps_stretch hostOps3_2))
    _ = W9 m ρ c (Proc.devRef .tc main_arg2) := StableHlo.after_of_forall_not_mem (b := Proc.devRef .tc main_arg2) _ _ (List.forall_iff_forall_mem.mp (by keeps_stretch hostOps3_1))
    _ = W8 m ρ c (Proc.devRef .tc main_arg2) := StableHlo.after_of_forall_not_mem (b := Proc.devRef .tc main_arg2) _ _ (List.forall_iff_forall_mem.mp (by keeps_stretch hostOps3))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by keeps_stretch hostOps2))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by keeps_stretch hostOps1_2))
    _ = W3 m ρ c (Proc.devRef .tc main_arg2) := StableHlo.after_of_forall_not_mem (b := Proc.devRef .tc main_arg2) _ _ (List.forall_iff_forall_mem.mp (by keeps_stretch hostOps1_1))
    _ = W2 m ρ c (Proc.devRef .tc main_arg2) := StableHlo.after_of_forall_not_mem (b := Proc.devRef .tc main_arg2) _ _ (List.forall_iff_forall_mem.mp (by keeps_stretch hostOps1))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by keeps_stretch hostOps0))
    _ = m ((c : Thread nD τ).loc main_arg2) := rfl

theorem W12_main_v7_of1 (c : Dev nD) : W12 m ρ c (Proc.devRef .tc main_v7) = W1 m ρ c (Proc.devRef .tc main_v7) :=
  calc W12 m ρ c (Proc.devRef .tc main_v7)
    _ = W11 m ρ c (Proc.devRef .tc main_v7) := W12_of_ne m ρ c main_v7 (by decide)
    _ = W10 m ρ c (Proc.devRef .tc main_v7) := StableHlo.after_of_forall_not_mem (b := Proc.devRef .tc main_v7) _ _ (List.forall_iff_forall_mem.mp (by keeps_stretch hostOps3_2))
    _ = W9 m ρ c (Proc.devRef .tc main_v7) := StableHlo.after_of_forall_not_mem (b := Proc.devRef .tc main_v7) _ _ (List.forall_iff_forall_mem.mp (by keeps_stretch hostOps3_1))
    _ = W8 m ρ c (Proc.devRef .tc main_v7) := StableHlo.after_of_forall_not_mem (b := Proc.devRef .tc main_v7) _ _ (List.forall_iff_forall_mem.mp (by keeps_stretch hostOps3))
    _ = W7 m ρ c (Proc.devRef .tc main_v7) := W8_of_ne m ρ c main_v7 (by decide)
    _ = W6 m ρ c (Proc.devRef .tc main_v7) := StableHlo.after_of_forall_not_mem (b := Proc.devRef .tc main_v7) _ _ (List.forall_iff_forall_mem.mp (by keeps_stretch hostOps2))
    _ = W5 m ρ c (Proc.devRef .tc main_v7) := W6_of_ne m ρ c main_v7 (by decide)
    _ = W4 m ρ c (Proc.devRef .tc main_v7) := StableHlo.after_of_forall_not_mem (b := Proc.devRef .tc main_v7) _ _ (List.forall_iff_forall_mem.mp (by keeps_stretch hostOps1_2))
    _ = W3 m ρ c (Proc.devRef .tc main_v7) := StableHlo.after_of_forall_not_mem (b := Proc.devRef .tc main_v7) _ _ (List.forall_iff_forall_mem.mp (by keeps_stretch hostOps1_1))
    _ = W2 m ρ c (Proc.devRef .tc main_v7) := StableHlo.after_of_forall_not_mem (b := Proc.devRef .tc main_v7) _ _ (List.forall_iff_forall_mem.mp (by keeps_stretch hostOps1))
    _ = W1 m ρ c (Proc.devRef .tc main_v7) := W2_of_ne m ρ c main_v7 (by decide)

/-- The aggregated features entering the dense region are the reference's aggregation of the previous
    region's output. -/
theorem W13_main_v66 (c : Dev nD) :
    (W13 m ρ c (Proc.devRef .tc main_v66) : S100000x128.Idx → EReal)
      = Cert.ReferenceIdeal.Spec.aggr (F := Ideal) (m ((c : Thread nD τ).loc main_arg1)) (m ((c : Thread nD τ).loc main_arg2)) (W12 m ρ c (Proc.devRef .tc main_v53)) := by
  show StableHlo.after hostOps4 (W12 m ρ c) (Proc.devRef .tc main_v66) = _
  after_results_simp
  rw [W12_main_arg1_of0, W12_main_arg2_of0, W12_main_v7_of1, W1_v7, scatterRows_eq, gatherRows_eq]
  rfl

theorem W13_main_v53_of12 (c : Dev nD) : W13 m ρ c (Proc.devRef .tc main_v53) = W12 m ρ c (Proc.devRef .tc main_v53) :=
  calc W13 m ρ c (Proc.devRef .tc main_v53)
    _ = W12 m ρ c (Proc.devRef .tc main_v53) := StableHlo.after_of_forall_not_mem (b := Proc.devRef .tc main_v53) _ _ (List.forall_iff_forall_mem.mp (by keeps_stretch hostOps4))

theorem W12_main_arg14_of0 (c : Dev nD) : W12 m ρ c (Proc.devRef .tc main_arg14) = m ((c : Thread nD τ).loc main_arg14) :=
  calc W12 m ρ c (Proc.devRef .tc main_arg14)
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by keeps_stretch hostOps3_2))
    _ = W9 m ρ c (Proc.devRef .tc main_arg14) := StableHlo.after_of_forall_not_mem (b := Proc.devRef .tc main_arg14) _ _ (List.forall_iff_forall_mem.mp (by keeps_stretch hostOps3_1))
    _ = W8 m ρ c (Proc.devRef .tc main_arg14) := StableHlo.after_of_forall_not_mem (b := Proc.devRef .tc main_arg14) _ _ (List.forall_iff_forall_mem.mp (by keeps_stretch hostOps3))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by keeps_stretch hostOps2))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by keeps_stretch hostOps1_2))
    _ = W3 m ρ c (Proc.devRef .tc main_arg14) := StableHlo.after_of_forall_not_mem (b := Proc.devRef .tc main_arg14) _ _ (List.forall_iff_forall_mem.mp (by keeps_stretch hostOps1_1))
    _ = W2 m ρ c (Proc.devRef .tc main_arg14) := StableHlo.after_of_forall_not_mem (b := Proc.devRef .tc main_arg14) _ _ (List.forall_iff_forall_mem.mp (by keeps_stretch hostOps1))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by keeps_stretch hostOps0))
    _ = m ((c : Thread nD τ).loc main_arg14) := rfl

/-- The bias as a one-row matrix. -/
theorem W13_main_v67_row (c : Dev nD) (q : Fin 40) :
    (W13 m ρ c (Proc.devRef .tc main_v67) : S1x40.Idx → EReal) (ix2 0 q) = (m ((c : Thread nD τ).loc main_arg14)) (ix1 q) := by
  show StableHlo.after hostOps4 (W12 m ρ c) (Proc.devRef .tc main_v67) _ = _
  after_results_simp
  rw [W12_main_arg14_of0]
  exact shapeCast_a_1a_apply _ _ 0 q

theorem W13_main_arg13_of0 (c : Dev nD) : W13 m ρ c (Proc.devRef .tc main_arg13) = m ((c : Thread nD τ).loc main_arg13) :=
  calc W13 m ρ c (Proc.devRef .tc main_arg13)
    _ = W12 m ρ c (Proc.devRef .tc main_arg13) := StableHlo.after_of_forall_not_mem (b := Proc.devRef .tc main_arg13) _ _ (List.forall_iff_forall_mem.mp (by keeps_stretch hostOps4))
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by keeps_stretch hostOps3_2))
    _ = W9 m ρ c (Proc.devRef .tc main_arg13) := StableHlo.after_of_forall_not_mem (b := Proc.devRef .tc main_arg13) _ _ (List.forall_iff_forall_mem.mp (by keeps_stretch hostOps3_1))
    _ = W8 m ρ c (Proc.devRef .tc main_arg13) := StableHlo.after_of_forall_not_mem (b := Proc.devRef .tc main_arg13) _ _ (List.forall_iff_forall_mem.mp (by keeps_stretch hostOps3))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by keeps_stretch hostOps2))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by keeps_stretch hostOps1_2))
    _ = W3 m ρ c (Proc.devRef .tc main_arg13) := StableHlo.after_of_forall_not_mem (b := Proc.devRef .tc main_arg13) _ _ (List.forall_iff_forall_mem.mp (by keeps_stretch hostOps1_1))
    _ = W2 m ρ c (Proc.devRef .tc main_arg13) := StableHlo.after_of_forall_not_mem (b := Proc.devRef .tc main_arg13) _ _ (List.forall_iff_forall_mem.mp (by keeps_stretch hostOps1))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by keeps_stretch hostOps0))
    _ = m ((c : Thread nD τ).loc main_arg13) := rfl

theorem W13_main_arg15_of0 (c : Dev nD) : W13 m ρ c (Proc.devRef .tc main_arg15) = m ((c : Thread nD τ).loc main_arg15) :=
  calc W13 m ρ c (Proc.devRef .tc main_arg15)
    _ = W12 m ρ c (Proc.devRef .tc main_arg15) := StableHlo.after_of_forall_not_mem (b := Proc.devRef .tc main_arg15) _ _ (List.forall_iff_forall_mem.mp (by keeps_stretch hostOps4))
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by keeps_stretch hostOps3_2))
    _ = W9 m ρ c (Proc.devRef .tc main_arg15) := StableHlo.after_of_forall_not_mem (b := Proc.devRef .tc main_arg15) _ _ (List.forall_iff_forall_mem.mp (by keeps_stretch hostOps3_1))
    _ = W8 m ρ c (Proc.devRef .tc main_arg15) := StableHlo.after_of_forall_not_mem (b := Proc.devRef .tc main_arg15) _ _ (List.forall_iff_forall_mem.mp (by keeps_stretch hostOps3))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by keeps_stretch hostOps2))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by keeps_stretch hostOps1_2))
    _ = W3 m ρ c (Proc.devRef .tc main_arg15) := StableHlo.after_of_forall_not_mem (b := Proc.devRef .tc main_arg15) _ _ (List.forall_iff_forall_mem.mp (by keeps_stretch hostOps1_1))
    _ = W2 m ρ c (Proc.devRef .tc main_arg15) := StableHlo.after_of_forall_not_mem (b := Proc.devRef .tc main_arg15) _ _ (List.forall_iff_forall_mem.mp (by keeps_stretch hostOps1))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by keeps_stretch hostOps0))
    _ = m ((c : Thread nD τ).loc main_arg15) := rfl

end Cert.KernelIdeal.KChain

end
-- ==== Proof.KS1.lean ====
/-
  The host operations between the first dense region and the first normalisation region, read from what
  the dense region left: the column means and column variances of its output (kept as one-row matrices) are
  the reference's, and the scale and shift vectors stand as one-row matrices.
-/
import proofs.«116927_j80977313399688_1_alg».proof.Proof.Gen.KernelIdeal.Frame
import proofs.«116927_j80977313399688_1_alg».proof.Proof.Gen.ReferenceIdeal
import proofs.«116927_j80977313399688_1_alg».proof.Proof.RefSpec
import Idealize.ShloMosaic.PureOps.Ideal
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import proofs.«116927_j80977313399688_1_alg».proof.Proof.KBase

set_option maxRecDepth 16384

noncomputable section

namespace Cert.KernelIdeal.KChain

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- Across the three stretches the region's first operand keeps what the previous region left. -/
theorem W5_main_v22_of2 (c : Dev nD) : W5 m ρ c (Proc.devRef .tc main_v22) = W2 m ρ c (Proc.devRef .tc main_v22) :=
  calc W5 m ρ c (Proc.devRef .tc main_v22)
    _ = W4 m ρ c (Proc.devRef .tc main_v22) := StableHlo.after_of_forall_not_mem (b := Proc.devRef .tc main_v22) _ _ (List.forall_iff_forall_mem.mp (by keeps_stretch hostOps1_2))
    _ = W3 m ρ c (Proc.devRef .tc main_v22) := StableHlo.after_of_forall_not_mem (b := Proc.devRef .tc main_v22) _ _ (List.forall_iff_forall_mem.mp (by keeps_stretch hostOps1_1))
    _ = W2 m ρ c (Proc.devRef .tc main_v22) := StableHlo.after_of_forall_not_mem (b := Proc.devRef .tc main_v22) _ _ (List.forall_iff_forall_mem.mp (by keeps_stretch hostOps1))

/-- The column means, as a one-row matrix, are the reference's column means of the previous region's output. -/
theorem W5_main_v26_row (c : Dev nD) (q : Fin 128) :
    (W5 m ρ c (Proc.devRef .tc main_v26) : S1x128.Idx → EReal) (ix2 0 q)
      = Cert.ReferenceIdeal.Spec.colMean (F := Ideal) (W2 m ρ c (Proc.devRef .tc main_v22)) (ix1 q) := by
  show StableHlo.after hostOps1_2 (W4 m ρ c) (Proc.devRef .tc main_v26) _ = _
  after_results_simp
  unfold Cert.ReferenceIdeal.Spec.colMean Cert.ReferenceIdeal.Spec.colSum
  exact quotRow_apply _ _ _ _ _ q

/-- The column variances, as a one-row matrix, are the reference's column variances of the previous region's output. -/
theorem W5_main_v27_row (c : Dev nD) (q : Fin 128) :
    (W5 m ρ c (Proc.devRef .tc main_v27) : S1x128.Idx → EReal) (ix2 0 q)
      = Cert.ReferenceIdeal.Spec.colVar (F := Ideal) (W2 m ρ c (Proc.devRef .tc main_v22)) (ix1 q) := by
  show StableHlo.after hostOps1_2 (W4 m ρ c) (Proc.devRef .tc main_v27) _ = _
  after_results_simp
  simp only [cast_eq]
  unfold Cert.ReferenceIdeal.Spec.colVar Cert.ReferenceIdeal.Spec.colSum Cert.ReferenceIdeal.Spec.centred Cert.ReferenceIdeal.Spec.varCount Cert.ReferenceIdeal.Spec.colSum
  exact guardedQuotRow_apply _ _ _ _ _ _ _ _ _ _ _ q

theorem W2_main_arg6_of0 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by keeps_stretch hostOps0))
    _ = m ((c : Thread nD τ).loc main_arg6) := rfl

theorem W2_main_arg7_of0 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by keeps_stretch hostOps0))
    _ = m ((c : Thread nD τ).loc main_arg7) := rfl

/-- The scale vector as a one-row matrix. -/
theorem W5_main_v28_row (c : Dev nD) (q : Fin 128) :
    (W5 m ρ c (Proc.devRef .tc main_v28) : S1x128.Idx → EReal) (ix2 0 q) = (m ((c : Thread nD τ).loc main_arg6)) (ix1 q) := by
  show StableHlo.after hostOps1_2 (W4 m ρ c) (Proc.devRef .tc main_v28) _ = _
  after_results_simp
  rw [W2_main_arg6_of0]
  exact shapeCast_a_1a_apply _ _ 0 q

/-- The shift vector as a one-row matrix. -/
theorem W5_main_v29_row (c : Dev nD) (q : Fin 128) :
    (W5 m ρ c (Proc.devRef .tc main_v29) : S1x128.Idx → EReal) (ix2 0 q) = (m ((c : Thread nD τ).loc main_arg7)) (ix1 q) := by
  show StableHlo.after hostOps1_2 (W4 m ρ c) (Proc.devRef .tc main_v29) _ = _
  after_results_simp
  rw [W2_main_arg7_of0]
  exact shapeCast_a_1a_apply _ _ 0 q

end Cert.KernelIdeal.KChain

end
-- ==== Proof.KS2.lean ====
/-
  The host operations between the first normalisation region and the second dense region, read from what
  the normalisation region left: the aggregated features are the reference's mean aggregation of that output
  (through the same edges and the same per-node scale), the second bias stands as a one-row matrix, and the
  weights are argument arrays as launched.
-/
import proofs.«116927_j80977313399688_1_alg».proof.Proof.Gen.KernelIdeal.Frame
import proofs.«116927_j80977313399688_1_alg».proof.Proof.Gen.ReferenceIdeal
import proofs.«116927_j80977313399688_1_alg».proof.Proof.RefSpec
import Idealize.ShloMosaic.PureOps.Ideal
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import proofs.«116927_j80977313399688_1_alg».proof.Proof.KBase
import proofs.«116927_j80977313399688_1_alg».proof.Proof.KS0

set_option maxRecDepth 16384

noncomputable section

namespace Cert.KernelIdeal.KChain

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

theorem W6_main_arg1_of0 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by keeps_stretch hostOps1_2))
    _ = W3 m ρ c (Proc.devRef .tc main_arg1) := StableHlo.after_of_forall_not_mem (b := Proc.devRef .tc main_arg1) _ _ (List.forall_iff_forall_mem.mp (by keeps_stretch hostOps1_1))
    _ = W2 m ρ c (Proc.devRef .tc main_arg1) := StableHlo.after_of_forall_not_mem (b := Proc.devRef .tc main_arg1) _ _ (List.forall_iff_forall_mem.mp (by keeps_stretch hostOps1))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by keeps_stretch hostOps0))
    _ = m ((c : Thread nD τ).loc main_arg1) := rfl

theorem W6_main_arg2_of0 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by keeps_stretch hostOps1_2))
    _ = W3 m ρ c (Proc.devRef .tc main_arg2) := StableHlo.after_of_forall_not_mem (b := Proc.devRef .tc main_arg2) _ _ (List.forall_iff_forall_mem.mp (by keeps_stretch hostOps1_1))
    _ = W2 m ρ c (Proc.devRef .tc main_arg2) := StableHlo.after_of_forall_not_mem (b := Proc.devRef .tc main_arg2) _ _ (List.forall_iff_forall_mem.mp (by keeps_stretch hostOps1))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by keeps_stretch hostOps0))
    _ = m ((c : Thread nD τ).loc main_arg2) := rfl

theorem W6_main_v7_of1 (c : Dev nD) : W6 m ρ c (Proc.devRef .tc main_v7) = W1 m ρ c (Proc.devRef .tc main_v7) :=
  calc W6 m ρ c (Proc.devRef .tc main_v7)
    _ = W5 m ρ c (Proc.devRef .tc main_v7) := W6_of_ne m ρ c main_v7 (by decide)
    _ = W4 m ρ c (Proc.devRef .tc main_v7) := StableHlo.after_of_forall_not_mem (b := Proc.devRef .tc main_v7) _ _ (List.forall_iff_forall_mem.mp (by keeps_stretch hostOps1_2))
    _ = W3 m ρ c (Proc.devRef .tc main_v7) := StableHlo.after_of_forall_not_mem (b := Proc.devRef .tc main_v7) _ _ (List.forall_iff_forall_mem.mp (by keeps_stretch hostOps1_1))
    _ = W2 m ρ c (Proc.devRef .tc main_v7) := StableHlo.after_of_forall_not_mem (b := Proc.devRef .tc main_v7) _ _ (List.forall_iff_forall_mem.mp (by keeps_stretch hostOps1))
    _ = W1 m ρ c (Proc.devRef .tc main_v7) := W2_of_ne m ρ c main_v7 (by decide)

/-- The aggregated features entering the dense region are the reference's aggregation of the previous
    region's output. -/
theorem W7_main_v43 (c : Dev nD) :
    (W7 m ρ c (Proc.devRef .tc main_v43) : S100000x128.Idx → EReal)
      = Cert.ReferenceIdeal.Spec.aggr (F := Ideal) (m ((c : Thread nD τ).loc main_arg1)) (m ((c : Thread nD τ).loc main_arg2)) (W6 m ρ c (Proc.devRef .tc main_v30)) := by
  show StableHlo.after hostOps2 (W6 m ρ c) (Proc.devRef .tc main_v43) = _
  after_results_simp
  rw [W6_main_arg1_of0, W6_main_arg2_of0, W6_main_v7_of1, W1_v7, scatterRows_eq, gatherRows_eq]
  rfl

theorem W7_main_v30_of6 (c : Dev nD) : W7 m ρ c (Proc.devRef .tc main_v30) = W6 m ρ c (Proc.devRef .tc main_v30) :=
  calc W7 m ρ c (Proc.devRef .tc main_v30)
    _ = W6 m ρ c (Proc.devRef .tc main_v30) := StableHlo.after_of_forall_not_mem (b := Proc.devRef .tc main_v30) _ _ (List.forall_iff_forall_mem.mp (by keeps_stretch hostOps2))

theorem W6_main_arg9_of0 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by keeps_stretch hostOps1_2))
    _ = W3 m ρ c (Proc.devRef .tc main_arg9) := StableHlo.after_of_forall_not_mem (b := Proc.devRef .tc main_arg9) _ _ (List.forall_iff_forall_mem.mp (by keeps_stretch hostOps1_1))
    _ = W2 m ρ c (Proc.devRef .tc main_arg9) := StableHlo.after_of_forall_not_mem (b := Proc.devRef .tc main_arg9) _ _ (List.forall_iff_forall_mem.mp (by keeps_stretch hostOps1))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by keeps_stretch hostOps0))
    _ = m ((c : Thread nD τ).loc main_arg9) := rfl

/-- The bias as a one-row matrix. -/
theorem W7_main_v44_row (c : Dev nD) (q : Fin 128) :
    (W7 m ρ c (Proc.devRef .tc main_v44) : S1x128.Idx → EReal) (ix2 0 q) = (m ((c : Thread nD τ).loc main_arg9)) (ix1 q) := by
  show StableHlo.after hostOps2 (W6 m ρ c) (Proc.devRef .tc main_v44) _ = _
  after_results_simp
  rw [W6_main_arg9_of0]
  exact shapeCast_a_1a_apply _ _ 0 q

theorem W7_main_arg8_of0 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_forall_not_mem (b := Proc.devRef .tc main_arg8) _ _ (List.forall_iff_forall_mem.mp (by keeps_stretch hostOps2))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by keeps_stretch hostOps1_2))
    _ = W3 m ρ c (Proc.devRef .tc main_arg8) := StableHlo.after_of_forall_not_mem (b := Proc.devRef .tc main_arg8) _ _ (List.forall_iff_forall_mem.mp (by keeps_stretch hostOps1_1))
    _ = W2 m ρ c (Proc.devRef .tc main_arg8) := StableHlo.after_of_forall_not_mem (b := Proc.devRef .tc main_arg8) _ _ (List.forall_iff_forall_mem.mp (by keeps_stretch hostOps1))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by keeps_stretch hostOps0))
    _ = m ((c : Thread nD τ).loc main_arg8) := rfl

theorem W7_main_arg10_of0 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_forall_not_mem (b := Proc.devRef .tc main_arg10) _ _ (List.forall_iff_forall_mem.mp (by keeps_stretch hostOps2))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by keeps_stretch hostOps1_2))
    _ = W3 m ρ c (Proc.devRef .tc main_arg10) := StableHlo.after_of_forall_not_mem (b := Proc.devRef .tc main_arg10) _ _ (List.forall_iff_forall_mem.mp (by keeps_stretch hostOps1_1))
    _ = W2 m ρ c (Proc.devRef .tc main_arg10) := StableHlo.after_of_forall_not_mem (b := Proc.devRef .tc main_arg10) _ _ (List.forall_iff_forall_mem.mp (by keeps_stretch hostOps1))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by keeps_stretch hostOps0))
    _ = m ((c : Thread nD τ).loc main_arg10) := rfl

end Cert.KernelIdeal.KChain

end
-- ==== Proof.KS3.lean ====
/-
  The host operations between the second dense region and the second normalisation region, read from what
  the dense region left: the column means and column variances of its output (kept as one-row matrices) are
  the reference's, and the scale and shift vectors stand as one-row matrices.
-/
import proofs.«116927_j80977313399688_1_alg».proof.Proof.Gen.KernelIdeal.Frame
import proofs.«116927_j80977313399688_1_alg».proof.Proof.Gen.ReferenceIdeal
import proofs.«116927_j80977313399688_1_alg».proof.Proof.RefSpec
import Idealize.ShloMosaic.PureOps.Ideal
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import proofs.«116927_j80977313399688_1_alg».proof.Proof.KBase

set_option maxRecDepth 16384

noncomputable section

namespace Cert.KernelIdeal.KChain

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- Across the three stretches the region's first operand keeps what the previous region left. -/
theorem W11_main_v45_of8 (c : Dev nD) : W11 m ρ c (Proc.devRef .tc main_v45) = W8 m ρ c (Proc.devRef .tc main_v45) :=
  calc W11 m ρ c (Proc.devRef .tc main_v45)
    _ = W10 m ρ c (Proc.devRef .tc main_v45) := StableHlo.after_of_forall_not_mem (b := Proc.devRef .tc main_v45) _ _ (List.forall_iff_forall_mem.mp (by keeps_stretch hostOps3_2))
    _ = W9 m ρ c (Proc.devRef .tc main_v45) := StableHlo.after_of_forall_not_mem (b := Proc.devRef .tc main_v45) _ _ (List.forall_iff_forall_mem.mp (by keeps_stretch hostOps3_1))
    _ = W8 m ρ c (Proc.devRef .tc main_v45) := StableHlo.after_of_forall_not_mem (b := Proc.devRef .tc main_v45) _ _ (List.forall_iff_forall_mem.mp (by keeps_stretch hostOps3))

/-- The column means, as a one-row matrix, are the reference's column means of the previous region's output. -/
theorem W11_main_v49_row (c : Dev nD) (q : Fin 128) :
    (W11 m ρ c (Proc.devRef .tc main_v49) : S1x128.Idx → EReal) (ix2 0 q)
      = Cert.ReferenceIdeal.Spec.colMean (F := Ideal) (W8 m ρ c (Proc.devRef .tc main_v45)) (ix1 q) := by
  show StableHlo.after hostOps3_2 (W10 m ρ c) (Proc.devRef .tc main_v49) _ = _
  after_results_simp
  unfold Cert.ReferenceIdeal.Spec.colMean Cert.ReferenceIdeal.Spec.colSum
  exact quotRow_apply _ _ _ _ _ q

/-- The column variances, as a one-row matrix, are the reference's column variances of the previous region's output. -/
theorem W11_main_v50_row (c : Dev nD) (q : Fin 128) :
    (W11 m ρ c (Proc.devRef .tc main_v50) : S1x128.Idx → EReal) (ix2 0 q)
      = Cert.ReferenceIdeal.Spec.colVar (F := Ideal) (W8 m ρ c (Proc.devRef .tc main_v45)) (ix1 q) := by
  show StableHlo.after hostOps3_2 (W10 m ρ c) (Proc.devRef .tc main_v50) _ = _
  after_results_simp
  simp only [cast_eq]
  unfold Cert.ReferenceIdeal.Spec.colVar Cert.ReferenceIdeal.Spec.colSum Cert.ReferenceIdeal.Spec.centred Cert.ReferenceIdeal.Spec.varCount Cert.ReferenceIdeal.Spec.colSum
  exact guardedQuotRow_apply _ _ _ _ _ _ _ _ _ _ _ q

theorem W8_main_arg11_of0 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by keeps_stretch hostOps2))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by keeps_stretch hostOps1_2))
    _ = W3 m ρ c (Proc.devRef .tc main_arg11) := StableHlo.after_of_forall_not_mem (b := Proc.devRef .tc main_arg11) _ _ (List.forall_iff_forall_mem.mp (by keeps_stretch hostOps1_1))
    _ = W2 m ρ c (Proc.devRef .tc main_arg11) := StableHlo.after_of_forall_not_mem (b := Proc.devRef .tc main_arg11) _ _ (List.forall_iff_forall_mem.mp (by keeps_stretch hostOps1))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by keeps_stretch hostOps0))
    _ = m ((c : Thread nD τ).loc main_arg11) := rfl

theorem W8_main_arg12_of0 (c : Dev nD) : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by keeps_stretch hostOps2))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by keeps_stretch hostOps1_2))
    _ = W3 m ρ c (Proc.devRef .tc main_arg12) := StableHlo.after_of_forall_not_mem (b := Proc.devRef .tc main_arg12) _ _ (List.forall_iff_forall_mem.mp (by keeps_stretch hostOps1_1))
    _ = W2 m ρ c (Proc.devRef .tc main_arg12) := StableHlo.after_of_forall_not_mem (b := Proc.devRef .tc main_arg12) _ _ (List.forall_iff_forall_mem.mp (by keeps_stretch hostOps1))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by keeps_stretch hostOps0))
    _ = m ((c : Thread nD τ).loc main_arg12) := rfl

/-- The scale vector as a one-row matrix. -/
theorem W11_main_v51_row (c : Dev nD) (q : Fin 128) :
    (W11 m ρ c (Proc.devRef .tc main_v51) : S1x128.Idx → EReal) (ix2 0 q) = (m ((c : Thread nD τ).loc main_arg11)) (ix1 q) := by
  show StableHlo.after hostOps3_2 (W10 m ρ c) (Proc.devRef .tc main_v51) _ = _
  after_results_simp
  rw [W8_main_arg11_of0]
  exact shapeCast_a_1a_apply _ _ 0 q

/-- The shift vector as a one-row matrix. -/
theorem W11_main_v52_row (c : Dev nD) (q : Fin 128) :
    (W11 m ρ c (Proc.devRef .tc main_v52) : S1x128.Idx → EReal) (ix2 0 q) = (m ((c : Thread nD τ).loc main_arg12)) (ix1 q) := by
  show StableHlo.after hostOps3_2 (W10 m ρ c) (Proc.devRef .tc main_v52) _ = _
  after_results_simp
  rw [W8_main_arg12_of0]
  exact shapeCast_a_1a_apply _ _ 0 q

end Cert.KernelIdeal.KChain

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.RegionLin0.lean ====
/-
  What the first dense region of the kernel writes. The region walks fifty grid points; at point t it reads rows
  2000 t … 2000 t + 1999 of two [100000, 128] arrays a and h, the whole [128, 128] weight arrays Wl and Wr and the
  [1, 128] bias row bl, and writes rows 2000 t … 2000 t + 1999 of the [100000, 128] output:
      out (p, q) = (Σ_k a (p, k) · Wl (k, q) + Σ_k h (p, k) · Wr (k, q)) + bl (0, q).
  Over the extended reals the changes of float format are the identity and each matrix product into a zero accumulator
  is the plain sum over k. The fifty row blocks tile the output, so after the region the output array is that function
  of the five arrays at every index. The reference computes (Σ_k a (p, k) · Wl (k, q) + b (q)) + Σ_k h (p, k) · Wr (k, q)
  with the bias vector b spread over the rows: the same three terms added in another order, equal by commutativity
  and associativity of addition alone.
-/
import proofs.«116927_j80977313399688_1_alg».proof.Proof.Gen.KernelIdeal.Frame
import proofs.«116927_j80977313399688_1_alg».proof.Proof.RefSpec
import proofs.«116927_j80977313399688_1_alg».proof.Proof.LibPlainDot
import Idealize.ShloMosaic.Lib.Pipeline.Value
import Idealize.ShloMosaic.Lib.ValueLayout
import Idealize.ShloMosaic.Lib.ValueIdx

noncomputable section

namespace Cert.KernelIdeal.RegionValue.Lin0

open Cert.KernelIdeal Cert.KernelIdeal.Gen Idealize.ShloMosaic Idealize.ShloMosaic.TcCoe Idealize.SL.Sem
open Idealize.ShloMosaic.ValueIdx
open Idealize.ShloMosaic.Pipeline (Dat)

/-- The block's value at row r, column q: the two products of the row with the weight columns, summed, plus the bias entry. -/
theorem pay0_apply (x0 x1 : Vec Ideal S2000x128 .f32) (x2 x4 : Vec Ideal S128x128 .f32) (x3 : Vec Ideal S1x128 .f32)
    (r : Fin 2000) (q : Fin 128) :
    (k0_pay1 (F := Ideal) x0 x1 x2 x4 x3 : S2000x128.Idx → EReal) (ix2 r q)
      = (∑ k : Fin 128, (x0 : S2000x128.Idx → EReal) (ix2 r k) * (x2 : S128x128.Idx → EReal) (ix2 k q)
          + ∑ k : Fin 128, (x1 : S2000x128.Idx → EReal) (ix2 r k) * (x4 : S128x128.Idx → EReal) (ix2 k q))
        + (x3 : S1x128.Idx → EReal) (ix2 (0 : Fin 1) q) := by
  unfold k0_pay1
  rw [shapeCast_self, shapeCast_self]
  show (_ + _) + _ = _
  refine congrArg₂ (· + ·) (congrArg₂ (· + ·) ?_ ?_) ?_
  · exact Cert.Lib.matmul_zero_apply Facts₀.dot_S2000x128_S128x128_S2000x128_1_0_0_1_n_n_wf none
      (truncf .bf16 x0 bitsLt_bf16_f32) (truncf .bf16 x2 bitsLt_bf16_f32) r q
  · exact Cert.Lib.matmul_zero_apply Facts₀.dot_S2000x128_S128x128_S2000x128_1_0_0_1_n_n_wf none
      (truncf .bf16 x1 bitsLt_bf16_f32) (truncf .bf16 x4 bitsLt_bf16_f32) r q
  · exact broadcastTo_1b_ab_apply x3 broadcasts_S1x128_S2000x128 r q

variable (V : (c : Dev nD) → (b : Ref sig .tc) → Buf (Elt Ideal) ((c : Thread nD τ).loc b))

theorem hz : (![0, 0] : Fin 2 → Nat) = fun _ => 0 := funext fun a => by fin_cases a <;> rfl

/-- Row p of the first array against column q of the first weights, plus the same for the second pair, plus the bias row's entry q. -/
def lin0 (a h : S100000x128.Idx → EReal) (Wl : S128x128.Idx → EReal) (bl : S1x128.Idx → EReal) (Wr : S128x128.Idx → EReal)
    (p : Fin 100000) (q : Fin 128) : EReal :=
  (∑ k : Fin 128, a (ix2 p k) * Wl (ix2 k q) + ∑ k : Fin 128, h (ix2 p k) * Wr (ix2 k q)) + bl (ix2 (0 : Fin 1) q)

/-- The whole array the region writes, as a function of the five arrays it reads. -/
def G0 (a h : S100000x128.Idx → EReal) (Wl : S128x128.Idx → EReal) (bl : S1x128.Idx → EReal) (Wr : S128x128.Idx → EReal) :
    S100000x128.Idx → EReal := fun i => lin0 a h Wl bl Wr (i 0) (i 1)

/-- The block indices over the grid: the row-blocked windows sit at block t, the whole-array windows at block 0. -/
theorem idx_facts0 : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0 :=
  (by decide +kernel : ∀ t : Fin grid0.N, _)

/-- Block t of the first row-blocked array is its rows 2000 t … 2000 t + 1999. -/
theorem iblk0_0_apply (c : Dev nD) (t : Fin cfg0.N) (r : Fin 2000) (k : Fin 128) (p : Fin 100000)
    (hp : p.val = 2000 * t.val + r.val) :
    (iblk0 V c 0 t : S2000x128.Idx → EReal) (ix2 r k) = (V c (Pipeline.arrRef spec0 0) : S100000x128.Idx → EReal) (ix2 p k) := by
  obtain ⟨e00, e01, -⟩ := idx_facts0 t
  unfold iblk0
  rw [View.read_apply]
  refine congrArg (V c (Pipeline.arrRef spec0 0) : S100000x128.Idx → EReal) (funext fun a => Fin.ext ?_)
  match a with
  | ⟨0, _⟩ => show win0_0.index t (0 : Fin 2) * 2000 + 1 * r.val = p.val; rw [e00, hp]; omega
  | ⟨1, _⟩ => show win0_0.index t (1 : Fin 2) * 128 + 1 * k.val = k.val; rw [e01]; omega

/-- Block t of the second row-blocked array is its rows 2000 t … 2000 t + 1999. -/
theorem iblk0_1_apply (c : Dev nD) (t : Fin cfg0.N) (r : Fin 2000) (k : Fin 128) (p : Fin 100000)
    (hp : p.val = 2000 * t.val + r.val) :
    (iblk0 V c 1 t : S2000x128.Idx → EReal) (ix2 r k) = (V c (Pipeline.arrRef spec0 1) : S100000x128.Idx → EReal) (ix2 p k) := by
  obtain ⟨-, -, e10, e11, -⟩ := idx_facts0 t
  unfold iblk0
  rw [View.read_apply]
  refine congrArg (V c (Pipeline.arrRef spec0 1) : S100000x128.Idx → EReal) (funext fun a => Fin.ext ?_)
  match a with
  | ⟨0, _⟩ => show win0_1.index t (0 : Fin 2) * 2000 + 1 * r.val = p.val; rw [e10, hp]; omega
  | ⟨1, _⟩ => show win0_1.index t (1 : Fin 2) * 128 + 1 * k.val = k.val; rw [e11]; omega

/-- The first weight window's block is the whole array at every point. -/
theorem iblk0_2_apply (c : Dev nD) (t : Fin cfg0.N) (k q : Fin 128) :
    (iblk0 V c 2 t : S128x128.Idx → EReal) (ix2 k q) = (V c (Pipeline.arrRef spec0 2) : S128x128.Idx → EReal) (ix2 k q) := by
  obtain ⟨-, -, -, -, e20, e21, -⟩ := idx_facts0 t
  unfold iblk0
  rw [View.read_apply]
  refine congrArg (V c (Pipeline.arrRef spec0 2) : S128x128.Idx → EReal) (funext fun a => Fin.ext ?_)
  match a with
  | ⟨0, _⟩ => show win0_2.index t (0 : Fin 2) * 128 + 1 * k.val = k.val; rw [e20]; omega
  | ⟨1, _⟩ => show win0_2.index t (1 : Fin 2) * 128 + 1 * q.val = q.val; rw [e21]; omega

/-- The bias window's block is the whole row at every point. -/
theorem iblk0_3_apply (c : Dev nD) (t : Fin cfg0.N) (q : Fin 128) :
    (iblk0 V c 3 t : S1x128.Idx → EReal) (ix2 (0 : Fin 1) q) = (V c (Pipeline.arrRef spec0 3) : S1x128.Idx → EReal) (ix2 (0 : Fin 1) q) := by
  obtain ⟨-, -, -, -, -, -, e30, e31, -⟩ := idx_facts0 t
  unfold iblk0
  rw [View.read_apply]
  refine congrArg (V c (Pipeline.arrRef spec0 3) : S1x128.Idx → EReal) (funext fun a => Fin.ext ?_)
  match a with
  | ⟨0, _⟩ => show win0_3.index t (0 : Fin 2) * 1 + 1 * 0 = 0; rw [e30]
  | ⟨1, _⟩ => show win0_3.index t (1 : Fin 2) * 128 + 1 * q.val = q.val; rw [e31]; omega

/-- The second weight window's block is the whole array at every point. -/
theorem iblk0_4_apply (c : Dev nD) (t : Fin cfg0.N) (k q : Fin 128) :
    (iblk0 V c 4 t : S128x128.Idx → EReal) (ix2 k q) = (V c (Pipeline.arrRef spec0 4) : S128x128.Idx → EReal) (ix2 k q) := by
  obtain ⟨-, -, -, -, -, -, -, -, e40, e41, -⟩ := idx_facts0 t
  unfold iblk0
  rw [View.read_apply]
  refine congrArg (V c (Pipeline.arrRef spec0 4) : S128x128.Idx → EReal) (funext fun a => Fin.ext ?_)
  match a with
  | ⟨0, _⟩ => show win0_4.index t (0 : Fin 2) * 128 + 1 * k.val = k.val; rw [e40]; omega
  | ⟨1, _⟩ => show win0_4.index t (1 : Fin 2) * 128 + 1 * q.val = q.val; rw [e41]; omega

/-- What point t computes at (r, q) of its block is the whole-array function at row 2000 t + r. -/
theorem block0_eq (c : Dev nD) (t : Fin cfg0.N) (r : Fin 2000) (q : Fin 128) (i : S100000x128.Idx)
    (hi0 : (i 0).val = 2000 * t.val + r.val) (hi1 : (i 1).val = q.val) :
    (k0_pay1 (F := Ideal) (iblk0 V c 0 t) (iblk0 V c 1 t) (iblk0 V c 2 t) (iblk0 V c 4 t) (iblk0 V c 3 t) : S2000x128.Idx → EReal) (ix2 r q)
      = G0 (V c (Pipeline.arrRef spec0 0)) (V c (Pipeline.arrRef spec0 1)) (V c (Pipeline.arrRef spec0 2))
          (V c (Pipeline.arrRef spec0 3)) (V c (Pipeline.arrRef spec0 4)) i := by
  refine (pay0_apply (iblk0 V c 0 t) (iblk0 V c 1 t) (iblk0 V c 2 t) (iblk0 V c 4 t) (iblk0 V c 3 t) r q).trans ?_
  obtain ⟨p, q', rfl⟩ : ∃ (p : Fin 100000) (q' : Fin 128), i = ix2 p q' := ⟨i 0, i 1, eq_ix2 i⟩
  obtain rfl : q' = q := Fin.ext hi1
  show _ = lin0 _ _ _ _ _ p q'
  unfold lin0
  refine congrArg₂ (· + ·) (congrArg₂ (· + ·) ?_ ?_) (iblk0_3_apply V c t q')
  · exact Finset.sum_congr rfl fun k _ => congrArg₂ (· * ·) (iblk0_0_apply V c t r k p hi0) (iblk0_2_apply V c t k q')
  · exact Finset.sum_congr rfl fun k _ => congrArg₂ (· * ·) (iblk0_1_apply V c t r k p hi0) (iblk0_4_apply V c t k q')

set_option maxHeartbeats 400000 in
/-- What point t writes back is block t of the whole-array function. -/
theorem flushed0_eq (c : Dev nD) (t : Fin cfg0.N) :
    (dat0 V c).flushed 5 t = ((cfg0.win 5).blk t).view.read (Elt Ideal)
      (G0 (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨r, q, rfl⟩ : ∃ (r : Fin 2000) (q : Fin 128), j = ix2 r q := ⟨j 0, j 1, eq_ix2 j⟩
  obtain ⟨-, -, -, -, -, -, -, -, -, -, e50, e51⟩ := idx_facts0 t
  refine block0_eq V c t r q _ ?_ ?_
  · show win0_5.index t (0 : Fin 2) * 2000 + 1 * r.val = _; rw [e50]; omega
  · show win0_5.index t (1 : Fin 2) * 128 + 1 * q.val = _; rw [e51]; omega

/-- An index of the output array is in point t's block iff each coordinate is in the block's range on its axis. -/
theorem mem_blk0 (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v22).slice (win0_5.rect t)).set ↔ _
  rw [View.set_slice_whole, Rect.mem_set_unit]
  exact Iff.rfl

/-- Row r of the output lies in the block of point r / 2000: the fifty blocks tile the array. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, -, -, -, -, -, -, e50, e51⟩ := idx_facts0 ⟨(i 0).val / 2000, ht⟩
  refine ⟨⟨(i 0).val / 2000, ht⟩, flush0_5 _, ?_⟩
  rw [mem_blk0]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val
      ∧ (i 1).val < win0_5.index ⟨(i 0).val / 2000, ht⟩ (1 : Fin 2) * 128 + 128
    rw [e51]; omega

/-- The output array after the region's fifty points is the whole-array function of the arrays the region read. -/
theorem final0 (c : Dev nD) :
    (dat0 V c).arrAt 5 cfg0.N = G0 (V c (Pipeline.arrRef spec0 0)) (V c (Pipeline.arrRef spec0 1)) (V c (Pipeline.arrRef spec0 2))
        (V c (Pipeline.arrRef spec0 3)) (V c (Pipeline.arrRef spec0 4)) :=
  (dat0 V c).arrAt_eq_of_cover 5 _ (fun t _ => flushed0_eq V c t) cover0

/-- A vector of 128 entries spread over the rows, read at (p, q), is the vector's entry q. -/
theorem rows_apply [Cert.ReferenceIdeal.Facts₀] (b : Cert.ReferenceIdeal.Spec.A (F := Ideal) Cert.ReferenceIdeal.S128)
    (p : Fin 100000) (q : Fin 128) :
    (Cert.ReferenceIdeal.Spec.rows (F := Ideal) b : S100000x128.Idx → EReal) (ix2 p q) = (b : S128.Idx → EReal) (ix1 q) := by
  unfold Cert.ReferenceIdeal.Spec.rows
  refine (broadcastInDim_apply _ _ _ (ix2 p q) (ix2 (0 : Fin 1) q) fun a => ?_).trans
    (broadcastInDim_apply _ _ _ (ix2 (0 : Fin 1) q) (ix1 q) fun a => ?_)
  · match a with
    | ⟨0, _⟩ => rfl
    | ⟨1, _⟩ => rfl
  · match a with
    | ⟨0, _⟩ => rfl

/-- The reference's two dense maps at (p, q). -/
theorem lin_apply [Cert.ReferenceIdeal.Facts₀] (a h : Cert.ReferenceIdeal.Spec.A (F := Ideal) Cert.ReferenceIdeal.S100000x128)
    (Wl : Cert.ReferenceIdeal.Spec.A (F := Ideal) Cert.ReferenceIdeal.S128x128)
    (b : Cert.ReferenceIdeal.Spec.A (F := Ideal) Cert.ReferenceIdeal.S128)
    (Wr : Cert.ReferenceIdeal.Spec.A (F := Ideal) Cert.ReferenceIdeal.S128x128) (p : Fin 100000) (q : Fin 128) :
    (Cert.ReferenceIdeal.Spec.lin (F := Ideal) a h Wl b Wr : S100000x128.Idx → EReal) (ix2 p q)
      = (∑ k : Fin 128, (a : S100000x128.Idx → EReal) (ix2 p k) * (Wl : S128x128.Idx → EReal) (ix2 k q) + (b : S128.Idx → EReal) (ix1 q))
        + ∑ k : Fin 128, (h : S100000x128.Idx → EReal) (ix2 p k) * (Wr : S128x128.Idx → EReal) (ix2 k q) := by
  unfold Cert.ReferenceIdeal.Spec.lin
  show (_ + _) + _ = _
  refine congrArg₂ (· + ·) (congrArg₂ (· + ·) ?_ (rows_apply b p q)) ?_
  · exact Cert.Lib.dotGeneral_plain_apply Cert.ReferenceIdeal.Facts₀.dot_S100000x128_S128x128_S100000x128_1_0_0_1_n_n_wf none .single a Wl p q
  · exact Cert.Lib.dotGeneral_plain_apply Cert.ReferenceIdeal.Facts₀.dot_S100000x128_S128x128_S100000x128_1_0_0_1_n_n_wf none .single h Wr p q

end Cert.KernelIdeal.RegionValue.Lin0

namespace Cert.KernelIdeal.RegionValue

open Cert.KernelIdeal Cert.KernelIdeal.Gen Idealize.ShloMosaic Idealize.ShloMosaic.TcCoe Idealize.SL.Sem
open Idealize.ShloMosaic.ValueIdx
open Cert.KernelIdeal.RegionValue.Lin0

/-- REGION 0's RESULT: the output array after the region is the reference's two dense maps of the arrays the region read,
    the bias window holding the bias vector as a row. The two sides add the same three terms in different orders. -/
theorem value0 [Cert.ReferenceIdeal.Facts₀] (V : (c : Dev nD) → (b : Ref sig .tc) → Buf (Elt Ideal) ((c : Thread nD τ).loc b)) (c : Dev nD)
    (b : Cert.ReferenceIdeal.Spec.A (F := Ideal) Cert.ReferenceIdeal.S128)
    (hb : ∀ q : Fin 128, (V c (Pipeline.arrRef spec0 3) : S1x128.Idx → EReal) (ix2 (0 : Fin 1) q) = (b : S128.Idx → EReal) (ix1 q)) :
    ((dat0 (F := Ideal) V c).arrAt 5 cfg0.N : S100000x128.Idx → EReal)
      = Cert.ReferenceIdeal.Spec.lin (F := Ideal) (V c (Pipeline.arrRef spec0 0)) (V c (Pipeline.arrRef spec0 1))
          (V c (Pipeline.arrRef spec0 2)) b (V c (Pipeline.arrRef spec0 4)) := by
  refine (final0 V c).trans (funext fun i => ?_)
  obtain ⟨p, q, rfl⟩ : ∃ (p : Fin 100000) (q : Fin 128), i = ix2 p q := ⟨i 0, i 1, eq_ix2 i⟩
  refine Eq.trans ?_ (lin_apply _ _ _ b _ p q).symm
  show lin0 _ _ _ _ _ p q = _
  unfold lin0
  rw [hb q]
  exact add_right_comm _ _ _

end Cert.KernelIdeal.RegionValue

end
-- ==== Proof.RegionBn1.lean ====
/-
  Region 1 of the kernel (batch normalisation and rectifier over blocks of 2000 rows) as one array function.
  Its body computes, at row `r` and column `q` of a block, `max((x - mean) · (g · rsqrt(var + ε)) + be, 0)` with the four
  one-row operands broadcast over the rows; the 50 grid points write the 50 row blocks of the output, so the output
  array ends as that formula of the operand arrays entry by entry. The reference divides by the square root instead
  of multiplying by its reciprocal; for a positive real `var + ε` the two agree, and under that hypothesis the region's
  output is the reference's normalisation of its first operand.
-/
import proofs.«116927_j80977313399688_1_alg».proof.Proof.Gen.KernelIdeal.Frame
import proofs.«116927_j80977313399688_1_alg».proof.Proof.RefSpec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost

set_option maxRecDepth 16384
-- reading an operand array's type off the program's table of buffers costs more the later the buffer is declared
set_option maxHeartbeats 1000000

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

/-- The normalisation of one entry: `max((x - mean) · (g · rsqrt(var + ε)) + be, 0)`. -/
def bnAt1 (x mean var g be : EReal) : EReal :=
  max ((x - mean) * (g * Ideal.rsqrt (var + Ideal.ofBits .f32 0x3727C5AC#32)) + be) (Ideal.ofBits .f32 0x00000000#32)

/-- The body's payload at row `r`, column `q`: the entry of the row block normalised by the four rows' entries `q`. -/
theorem pay_apply1 [Facts] (x0 : Vec Ideal S2000x128 .f32) (xg xv xm xb : Vec Ideal S1x128 .f32) (r : Fin 2000) (q : Fin 128) :
    k1_pay1 x0 xg xv xm xb (ix2 r q)
      = bnAt1 (x0 (ix2 r q)) (xm (ix2 (0 : Fin 1) q)) (xv (ix2 (0 : Fin 1) q)) (xg (ix2 (0 : Fin 1) q)) (xb (ix2 (0 : Fin 1) q)) := by
  unfold k1_pay1
  simp only [shapeCast_self]
  unfold bnAt1
  refine congrArg₂ max ?_ rfl
  refine congrArg₂ (· + ·) ?_ (broadcastTo_1b_ab_apply xb _ r q)
  refine congrArg₂ (· * ·) ?_ ?_
  · exact congrArg (x0 (ix2 r q) - ·) (broadcastTo_1b_ab_apply xm _ r q)
  · exact broadcastTo_1b_ab_apply _ _ r q

theorem hz1 : (![0, 0] : Fin 2 → Nat) = fun _ => 0 := funext fun a => by fin_cases a <;> rfl

/-- The whole output array as one function of the five operand arrays. -/
def bnArr1 (z : S100000x128.Idx → EReal) (mean var g be : S1x128.Idx → EReal) : S100000x128.Idx → EReal :=
  fun i => bnAt1 (z i) (mean (ix2 (0 : Fin 1) (i 1 : Fin 128))) (var (ix2 (0 : Fin 1) (i 1 : Fin 128)))
    (g (ix2 (0 : Fin 1) (i 1 : Fin 128))) (be (ix2 (0 : Fin 1) (i 1 : Fin 128)))

/-- The printed index maps over the 50 grid points: the row-block windows sit at block `t`, the four rows at block 0. -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

variable (V : (c : Dev nD) → (b : Ref sig .tc) → Buf (Elt Ideal) ((c : Thread nD τ).loc b))

/-- Where the output's block at point `t` sits in the array: rows `2000 t …`, all columns. -/
theorem emb5_1 (t : Fin cfg1.N) (r : Fin 2000) (q : Fin 128) (k : S100000x128.Idx)
    (hk0 : (k 0).val = 2000 * t.val + r.val) (hk1 : (k 1).val = q.val) :
    ((cfg1.win 5).blk t).view.emb (ix2 r q) = k := by
  obtain ⟨-, -, e0, e1, -⟩ := idx_facts1 t
  funext a; apply Fin.ext
  match a with
  | ⟨0, _⟩ => show win1_5.index t (0 : Fin 2) * 2000 + 1 * r.val = (k 0).val; rw [e0, hk0]; omega
  | ⟨1, _⟩ => show win1_5.index t (1 : Fin 2) * 128 + 1 * q.val = (k 1).val; rw [e1, hk1]; omega

/-- Where the row-block input's block at point `t` sits in its array: the same rows as the output's. -/
theorem emb0_1 (t : Fin cfg1.N) (r : Fin 2000) (q : Fin 128) (k : S100000x128.Idx)
    (hk0 : (k 0).val = 2000 * t.val + r.val) (hk1 : (k 1).val = q.val) :
    ((cfg1.win 0).blk t).view.emb (ix2 r q) = k := by
  obtain ⟨e0, e1, -⟩ := idx_facts1 t
  funext a; apply Fin.ext
  match a with
  | ⟨0, _⟩ => show win1_0.index t (0 : Fin 2) * 2000 + 1 * r.val = (k 0).val; rw [e0, hk0]; omega
  | ⟨1, _⟩ => show win1_0.index t (1 : Fin 2) * 128 + 1 * q.val = (k 1).val; rw [e1, hk1]; omega

/-- The four one-row windows' block at every point is the whole row. -/
theorem embRow_1 (t : Fin cfg1.N) (q : Fin 128) :
    ((cfg1.win 1).blk t).view.emb (ix2 (0 : Fin 1) q) = ix2 (0 : Fin 1) q
    ∧ ((cfg1.win 2).blk t).view.emb (ix2 (0 : Fin 1) q) = ix2 (0 : Fin 1) q
    ∧ ((cfg1.win 3).blk t).view.emb (ix2 (0 : Fin 1) q) = ix2 (0 : Fin 1) q
    ∧ ((cfg1.win 4).blk t).view.emb (ix2 (0 : Fin 1) q) = ix2 (0 : Fin 1) q := by
  obtain ⟨-, -, -, -, a0, a1, b0, b1, c0, c1, d0, d1⟩ := idx_facts1 t
  refine ⟨?_, ?_, ?_, ?_⟩ <;> (funext a; apply Fin.ext)
  · match a with
    | ⟨0, _⟩ => show win1_1.index t (0 : Fin 2) * 1 + 1 * 0 = 0; rw [a0]
    | ⟨1, _⟩ => show win1_1.index t (1 : Fin 2) * 128 + 1 * q.val = q.val; rw [a1]; omega
  · match a with
    | ⟨0, _⟩ => show win1_2.index t (0 : Fin 2) * 1 + 1 * 0 = 0; rw [b0]
    | ⟨1, _⟩ => show win1_2.index t (1 : Fin 2) * 128 + 1 * q.val = q.val; rw [b1]; omega
  · match a with
    | ⟨0, _⟩ => show win1_3.index t (0 : Fin 2) * 1 + 1 * 0 = 0; rw [c0]
    | ⟨1, _⟩ => show win1_3.index t (1 : Fin 2) * 128 + 1 * q.val = q.val; rw [c1]; omega
  · match a with
    | ⟨0, _⟩ => show win1_4.index t (0 : Fin 2) * 1 + 1 * 0 = 0; rw [d0]
    | ⟨1, _⟩ => show win1_4.index t (1 : Fin 2) * 128 + 1 * q.val = q.val; rw [d1]; omega

/-- The row-block input's block at point `t`, read at `(r, q)`, is the array at row `2000 t + r`. -/
theorem iblk0_apply1 (c : Dev nD) (t : Fin cfg1.N) (r : Fin 2000) (q : Fin 128) (k : S100000x128.Idx)
    (hk0 : (k 0).val = 2000 * t.val + r.val) (hk1 : (k 1).val = q.val) :
    (iblk1 V c 0 t : Vec Ideal S2000x128 .f32) (ix2 r q) = (V c (Pipeline.arrRef spec1 0) : S100000x128.Idx → EReal) k := by
  show (V c (Pipeline.arrRef spec1 0) : S100000x128.Idx → EReal) (((cfg1.win 0).blk t).view.emb (ix2 r q)) = _
  exact congrArg (V c (Pipeline.arrRef spec1 0) : S100000x128.Idx → EReal) (emb0_1 t r q k hk0 hk1)

/-- Each one-row input's block at any point, read at `(0, q)`, is the row's entry `q`. -/
theorem iblkRow_apply1 (c : Dev nD) (t : Fin cfg1.N) (q : Fin 128) :
    (iblk1 V c 1 t : Vec Ideal S1x128 .f32) (ix2 (0 : Fin 1) q) = (V c (Pipeline.arrRef spec1 1) : S1x128.Idx → EReal) (ix2 (0 : Fin 1) q)
    ∧ (iblk1 V c 2 t : Vec Ideal S1x128 .f32) (ix2 (0 : Fin 1) q) = (V c (Pipeline.arrRef spec1 2) : S1x128.Idx → EReal) (ix2 (0 : Fin 1) q)
    ∧ (iblk1 V c 3 t : Vec Ideal S1x128 .f32) (ix2 (0 : Fin 1) q) = (V c (Pipeline.arrRef spec1 3) : S1x128.Idx → EReal) (ix2 (0 : Fin 1) q)
    ∧ (iblk1 V c 4 t : Vec Ideal S1x128 .f32) (ix2 (0 : Fin 1) q) = (V c (Pipeline.arrRef spec1 4) : S1x128.Idx → EReal) (ix2 (0 : Fin 1) q) := by
  obtain ⟨h1, h2, h3, h4⟩ := embRow_1 t q
  refine ⟨?_, ?_, ?_, ?_⟩
  · show (V c (Pipeline.arrRef spec1 1) : S1x128.Idx → EReal) (((cfg1.win 1).blk t).view.emb (ix2 (0 : Fin 1) q)) = _
    exact congrArg (V c (Pipeline.arrRef spec1 1) : S1x128.Idx → EReal) h1
  · show (V c (Pipeline.arrRef spec1 2) : S1x128.Idx → EReal) (((cfg1.win 2).blk t).view.emb (ix2 (0 : Fin 1) q)) = _
    exact congrArg (V c (Pipeline.arrRef spec1 2) : S1x128.Idx → EReal) h2
  · show (V c (Pipeline.arrRef spec1 3) : S1x128.Idx → EReal) (((cfg1.win 3).blk t).view.emb (ix2 (0 : Fin 1) q)) = _
    exact congrArg (V c (Pipeline.arrRef spec1 3) : S1x128.Idx → EReal) h3
  · show (V c (Pipeline.arrRef spec1 4) : S1x128.Idx → EReal) (((cfg1.win 4).blk t).view.emb (ix2 (0 : Fin 1) q)) = _
    exact congrArg (V c (Pipeline.arrRef spec1 4) : S1x128.Idx → EReal) h4

theorem bnAt_congr1 {x x' m m' v v' g g' b b' : EReal} (hx : x = x') (hm : m = m') (hv : v = v') (hg : g = g') (hb : b = b') :
    bnAt1 x m v g b = bnAt1 x' m' v' g' b' := by subst hx hm hv hg hb; rfl

/-- WHAT POINT `t` WRITES BACK is block `t` of `bnArr1` of the five operand arrays as the region finds them. -/
theorem flushed_eq1 [Facts] (c : Dev nD) (t : Fin cfg1.N) :
    (dat1 V c).flushed 5 t = ((cfg1.win 5).blk t).view.read (Elt Ideal)
      (bnArr1 (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero hz1]
  simp only [View.ld_unit_zero (S := S2000x128) hz1, View.ld_unit_zero (S := S1x128) hz1]
  refine funext fun (j : S2000x128.Idx) => ?_
  obtain ⟨r, q, rfl⟩ : ∃ (r : Fin 2000) (q : Fin 128), j = ix2 r q := ⟨j 0, j 1, eq_ix2 j⟩
  have hlt : 2000 * t.val + r.val < 100000 := by
    have h1 : t.val < 50 := lt_of_lt_of_eq t.isLt N_1
    have h2 := r.isLt
    omega
  refine (pay_apply1 (iblk1 V c 0 t) (iblk1 V c 3 t) (iblk1 V c 2 t) (iblk1 V c 1 t) (iblk1 V c 4 t) r q).trans ?_
  obtain ⟨h1, h2, h3, h4⟩ := iblkRow_apply1 V c t q
  have h0 := iblk0_apply1 V c t r q (ix2 ⟨2000 * t.val + r.val, hlt⟩ q) rfl rfl
  have h5 := emb5_1 t r q (ix2 ⟨2000 * t.val + r.val, hlt⟩ q) rfl rfl
  refine (bnAt_congr1 h0 h1 h2 h3 h4).trans ?_
  exact (congrArg (bnArr1 (V c (Pipeline.arrRef spec1 0)) (V c (Pipeline.arrRef spec1 1)) (V c (Pipeline.arrRef spec1 2))
        (V c (Pipeline.arrRef spec1 3)) (V c (Pipeline.arrRef spec1 4))) h5).symm

/-- An index of the array is in point `t`'s block iff each coordinate is in the block's range on its axis. -/
theorem mem_blk1 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v30).slice (win1_5.rect t)).set ↔ _
  rw [View.set_slice_whole, Rect.mem_set_unit]
  exact Iff.rfl

/-- Row `p` of the output is written by point `p / 2000`. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_5 _, ?_⟩
  rw [mem_blk1]
  obtain ⟨-, -, e0, e1, -⟩ := idx_facts1 ⟨(i 0).val / 2000, by rw [hN]; omega⟩
  intro a
  match a with
  | ⟨0, _⟩ =>
    show win1_5.index _ (0 : Fin 2) * 2000 ≤ (i 0).val ∧ (i 0).val < win1_5.index _ (0 : Fin 2) * 2000 + 2000
    rw [e0]; show (i 0).val / 2000 * 2000 ≤ (i 0).val ∧ (i 0).val < (i 0).val / 2000 * 2000 + 2000; omega
  | ⟨1, _⟩ =>
    show win1_5.index _ (1 : Fin 2) * 128 ≤ (i 1).val ∧ (i 1).val < win1_5.index _ (1 : Fin 2) * 128 + 128
    rw [e1]; omega

/-- THE ARRAY after the region: `bnArr1` of the five operand arrays as the region finds them. -/
theorem final1 [Facts] (c : Dev nD) :
    (dat1 V c).arrAt 5 cfg1.N = bnArr1 (V c (Pipeline.arrRef spec1 0)) (V c (Pipeline.arrRef spec1 1)) (V c (Pipeline.arrRef spec1 2))
        (V c (Pipeline.arrRef spec1 3)) (V c (Pipeline.arrRef spec1 4)) :=
  (dat1 V c).arrAt_eq_of_cover 5 _ (fun t _ => flushed_eq1 V c t) cover1

/-! ## The reference's normalisation at an index -/

/-- A vector spread over the rows reads, at row `p` and column `q`, its entry `q`. -/
theorem rows_apply1 [Cert.ReferenceIdeal.Facts₀] (v : Cert.ReferenceIdeal.Spec.A (F := Ideal) Cert.ReferenceIdeal.S128) (p : Fin 100000) (q : Fin 128) :
    Cert.ReferenceIdeal.Spec.rows v (ix2 p q) = v (ix1 q) := by
  unfold Cert.ReferenceIdeal.Spec.rows
  refine (broadcastInDim_oneRow_apply _ _ p q).trans ?_
  refine broadcastInDim_apply ![1] _ v (ix2 (0 : Fin 1) q) (ix1 q) fun a => ?_
  match a with
  | ⟨0, _⟩ =>
    show q.val = if (128 : ℕ) = 1 then 0 else q.val
    rw [if_neg (by decide)]

/-- The reference's normalisation read at row `p`, column `q`. -/
theorem bn_apply1 [Cert.ReferenceIdeal.Facts₀] (z : Cert.ReferenceIdeal.Spec.A (F := Ideal) Cert.ReferenceIdeal.S100000x128)
    (g be : Cert.ReferenceIdeal.Spec.A (F := Ideal) Cert.ReferenceIdeal.S128) (p : Fin 100000) (q : Fin 128) :
    Cert.ReferenceIdeal.Spec.bn z g be (ix2 p q)
      = max ((z (ix2 p q) - Cert.ReferenceIdeal.Spec.colMean z (ix1 q))
          * Ideal.div (g (ix1 q)) (Ideal.sqrt (Cert.ReferenceIdeal.Spec.colVar z (ix1 q) + Ideal.ofBits .f32 0x3727C5AC#32)) + be (ix1 q))
        (Ideal.ofBits .f32 0x00000000#32) := by
  unfold Cert.ReferenceIdeal.Spec.bn
  refine congrArg₂ max ?_ rfl
  refine congrArg₂ (· + ·) ?_ (rows_apply1 be p q)
  refine congrArg₂ (· * ·) ?_ ?_
  · exact congrArg (z (ix2 p q) - ·) (rows_apply1 _ p q)
  · exact rows_apply1 _ p q

/-- For a positive real `r`: multiplying by the reciprocal square root of `r` is dividing by its square root. -/
theorem mul_rsqrt_eq_div_sqrt1 (g : EReal) {r : ℝ} (hr : 0 < r) :
    g * Ideal.rsqrt (r : EReal) = Ideal.div g (Ideal.sqrt (r : EReal)) := by
  have hs : Real.sqrt r ≠ 0 := (Real.sqrt_pos.mpr hr).ne'
  rw [Ideal.rsqrt_coe, if_neg (not_lt.mpr hr.le), if_neg hr.ne', Ideal.sqrt_coe, if_neg (not_lt.mpr hr.le),
    Ideal.div_coe hs, one_div]

/-! ## The region's value -/

/-- What region 1 leaves in its output array, when it finds its first operand at `z`, the next two at the column
    means and variances of `z` and the last two at `g` and `be` (as rows), and every `variance + ε` is a positive
    real: the reference's batch normalisation and rectifier of `z`. -/
theorem value1 [Facts] [Cert.ReferenceIdeal.Facts₀] (c : Dev nD)
    (z : Cert.ReferenceIdeal.Spec.A (F := Ideal) Cert.ReferenceIdeal.S100000x128)
    (g be : Cert.ReferenceIdeal.Spec.A (F := Ideal) Cert.ReferenceIdeal.S128)
    (hz : (V c (Pipeline.arrRef spec1 0) : S100000x128.Idx → EReal) = z)
    (hmean : ∀ q : Fin 128, (V c (Pipeline.arrRef spec1 1) : S1x128.Idx → EReal) (ix2 (0 : Fin 1) q) = Cert.ReferenceIdeal.Spec.colMean z (ix1 q))
    (hvar : ∀ q : Fin 128, (V c (Pipeline.arrRef spec1 2) : S1x128.Idx → EReal) (ix2 (0 : Fin 1) q) = Cert.ReferenceIdeal.Spec.colVar z (ix1 q))
    (hg : ∀ q : Fin 128, (V c (Pipeline.arrRef spec1 3) : S1x128.Idx → EReal) (ix2 (0 : Fin 1) q) = g (ix1 q))
    (hbe : ∀ q : Fin 128, (V c (Pipeline.arrRef spec1 4) : S1x128.Idx → EReal) (ix2 (0 : Fin 1) q) = be (ix1 q))
    (hpos : ∀ q : Fin 128, ∃ r : ℝ, 0 < r ∧ Cert.ReferenceIdeal.Spec.colVar z (ix1 q) + Ideal.ofBits .f32 0x3727C5AC#32 = (r : EReal)) :
    ((dat1 V c).arrAt 5 cfg1.N : S100000x128.Idx → EReal) = Cert.ReferenceIdeal.Spec.bn z g be := by
  refine (final1 V c).trans ?_
  funext i
  obtain ⟨p, q, rfl⟩ : ∃ (p : Fin 100000) (q : Fin 128), i = ix2 p q := ⟨i 0, i 1, eq_ix2 i⟩
  refine Eq.trans ?_ (bn_apply1 z g be p q).symm
  refine (bnAt_congr1 (congrFun hz (ix2 p q)) (hmean q) (hvar q) (hg q) (hbe q)).trans ?_
  unfold bnAt1
  obtain ⟨r, hr, er⟩ := hpos q
  rw [er, mul_rsqrt_eq_div_sqrt1 _ hr]

end Cert.KernelIdeal.RegionValue

end
-- ==== Proof.RegionLin2.lean ====
/-
  What the second dense region of the kernel writes. The region walks fifty grid points; at point t it reads rows
  2000 t … 2000 t + 1999 of two [100000, 128] arrays a and h, the whole [128, 128] weight arrays Wl and Wr and the
  [1, 128] bias row bl, and writes rows 2000 t … 2000 t + 1999 of the [100000, 128] output:
      out (p, q) = (Σ_k a (p, k) · Wl (k, q) + Σ_k h (p, k) · Wr (k, q)) + bl (0, q).
  Over the extended reals the changes of float format are the identity and each matrix product into a zero accumulator
  is the plain sum over k. The fifty row blocks tile the output, so after the region the output array is that function
  of the five arrays at every index. The reference computes (Σ_k a (p, k) · Wl (k, q) + b (q)) + Σ_k h (p, k) · Wr (k, q)
  with the bias vector b spread over the rows: the same three terms added in another order, equal by commutativity
  and associativity of addition alone.
-/
import proofs.«116927_j80977313399688_1_alg».proof.Proof.Gen.KernelIdeal.Frame
import proofs.«116927_j80977313399688_1_alg».proof.Proof.RefSpec
import proofs.«116927_j80977313399688_1_alg».proof.Proof.LibPlainDot
import Idealize.ShloMosaic.Lib.Pipeline.Value
import Idealize.ShloMosaic.Lib.ValueLayout
import Idealize.ShloMosaic.Lib.ValueIdx

noncomputable section

namespace Cert.KernelIdeal.RegionValue.Lin2

open Cert.KernelIdeal Cert.KernelIdeal.Gen Idealize.ShloMosaic Idealize.ShloMosaic.TcCoe Idealize.SL.Sem
open Idealize.ShloMosaic.ValueIdx
open Idealize.ShloMosaic.Pipeline (Dat)

/-- The block's value at row r, column q: the two products of the row with the weight columns, summed, plus the bias entry. -/
theorem pay2_apply (x0 x1 : Vec Ideal S2000x128 .f32) (x2 x4 : Vec Ideal S128x128 .f32) (x3 : Vec Ideal S1x128 .f32)
    (r : Fin 2000) (q : Fin 128) :
    (k2_pay1 (F := Ideal) x0 x1 x2 x4 x3 : S2000x128.Idx → EReal) (ix2 r q)
      = (∑ k : Fin 128, (x0 : S2000x128.Idx → EReal) (ix2 r k) * (x2 : S128x128.Idx → EReal) (ix2 k q)
          + ∑ k : Fin 128, (x1 : S2000x128.Idx → EReal) (ix2 r k) * (x4 : S128x128.Idx → EReal) (ix2 k q))
        + (x3 : S1x128.Idx → EReal) (ix2 (0 : Fin 1) q) := by
  unfold k2_pay1
  rw [shapeCast_self, shapeCast_self, shapeCast_self]
  show (_ + _) + _ = _
  refine congrArg₂ (· + ·) (congrArg₂ (· + ·) ?_ ?_) ?_
  · exact Cert.Lib.matmul_zero_apply Facts₀.dot_S2000x128_S128x128_S2000x128_1_0_0_1_n_n_wf none
      (truncf .bf16 x0 bitsLt_bf16_f32) (truncf .bf16 x2 bitsLt_bf16_f32) r q
  · exact Cert.Lib.matmul_zero_apply Facts₀.dot_S2000x128_S128x128_S2000x128_1_0_0_1_n_n_wf none
      (truncf .bf16 x1 bitsLt_bf16_f32) (truncf .bf16 x4 bitsLt_bf16_f32) r q
  · exact broadcastTo_1b_ab_apply x3 broadcasts_S1x128_S2000x128 r q

variable (V : (c : Dev nD) → (b : Ref sig .tc) → Buf (Elt Ideal) ((c : Thread nD τ).loc b))

theorem hz : (![0, 0] : Fin 2 → Nat) = fun _ => 0 := funext fun a => by fin_cases a <;> rfl

/-- Row p of the first array against column q of the first weights, plus the same for the second pair, plus the bias row's entry q. -/
def dense2 (a h : S100000x128.Idx → EReal) (Wl : S128x128.Idx → EReal) (bl : S1x128.Idx → EReal) (Wr : S128x128.Idx → EReal)
    (p : Fin 100000) (q : Fin 128) : EReal :=
  (∑ k : Fin 128, a (ix2 p k) * Wl (ix2 k q) + ∑ k : Fin 128, h (ix2 p k) * Wr (ix2 k q)) + bl (ix2 (0 : Fin 1) q)

/-- The whole array the region writes, as a function of the five arrays it reads. -/
def G2 (a h : S100000x128.Idx → EReal) (Wl : S128x128.Idx → EReal) (bl : S1x128.Idx → EReal) (Wr : S128x128.Idx → EReal) :
    S100000x128.Idx → EReal := fun i => dense2 a h Wl bl Wr (i 0) (i 1)

/-- The block indices over the grid: the row-blocked windows sit at block t, the whole-array windows at block 0. -/
theorem idx_facts2 : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = 0 ∧ win2_2.index t (1 : Fin 2) = 0
  ∧ win2_3.index t (0 : Fin 2) = 0 ∧ win2_3.index t (1 : Fin 2) = 0
  ∧ win2_4.index t (0 : Fin 2) = 0 ∧ win2_4.index t (1 : Fin 2) = 0
  ∧ win2_5.index t (0 : Fin 2) = t.val ∧ win2_5.index t (1 : Fin 2) = 0 :=
  (by decide +kernel : ∀ t : Fin grid2.N, _)

/-- Block t of the first row-blocked array is its rows 2000 t … 2000 t + 1999. -/
theorem iblk2_0_apply (c : Dev nD) (t : Fin cfg2.N) (r : Fin 2000) (k : Fin 128) (p : Fin 100000)
    (hp : p.val = 2000 * t.val + r.val) :
    (iblk2 V c 0 t : S2000x128.Idx → EReal) (ix2 r k) = (V c (Pipeline.arrRef spec2 0) : S100000x128.Idx → EReal) (ix2 p k) := by
  obtain ⟨e00, e01, -⟩ := idx_facts2 t
  unfold iblk2
  rw [View.read_apply]
  refine congrArg (V c (Pipeline.arrRef spec2 0) : S100000x128.Idx → EReal) (funext fun a => Fin.ext ?_)
  match a with
  | ⟨0, _⟩ => show win2_0.index t (0 : Fin 2) * 2000 + 1 * r.val = p.val; rw [e00, hp]; omega
  | ⟨1, _⟩ => show win2_0.index t (1 : Fin 2) * 128 + 1 * k.val = k.val; rw [e01]; omega

/-- Block t of the second row-blocked array is its rows 2000 t … 2000 t + 1999. -/
theorem iblk2_1_apply (c : Dev nD) (t : Fin cfg2.N) (r : Fin 2000) (k : Fin 128) (p : Fin 100000)
    (hp : p.val = 2000 * t.val + r.val) :
    (iblk2 V c 1 t : S2000x128.Idx → EReal) (ix2 r k) = (V c (Pipeline.arrRef spec2 1) : S100000x128.Idx → EReal) (ix2 p k) := by
  obtain ⟨-, -, e10, e11, -⟩ := idx_facts2 t
  unfold iblk2
  rw [View.read_apply]
  refine congrArg (V c (Pipeline.arrRef spec2 1) : S100000x128.Idx → EReal) (funext fun a => Fin.ext ?_)
  match a with
  | ⟨0, _⟩ => show win2_1.index t (0 : Fin 2) * 2000 + 1 * r.val = p.val; rw [e10, hp]; omega
  | ⟨1, _⟩ => show win2_1.index t (1 : Fin 2) * 128 + 1 * k.val = k.val; rw [e11]; omega

/-- The first weight window's block is the whole array at every point. -/
theorem iblk2_2_apply (c : Dev nD) (t : Fin cfg2.N) (k q : Fin 128) :
    (iblk2 V c 2 t : S128x128.Idx → EReal) (ix2 k q) = (V c (Pipeline.arrRef spec2 2) : S128x128.Idx → EReal) (ix2 k q) := by
  obtain ⟨-, -, -, -, e20, e21, -⟩ := idx_facts2 t
  unfold iblk2
  rw [View.read_apply]
  refine congrArg (V c (Pipeline.arrRef spec2 2) : S128x128.Idx → EReal) (funext fun a => Fin.ext ?_)
  match a with
  | ⟨0, _⟩ => show win2_2.index t (0 : Fin 2) * 128 + 1 * k.val = k.val; rw [e20]; omega
  | ⟨1, _⟩ => show win2_2.index t (1 : Fin 2) * 128 + 1 * q.val = q.val; rw [e21]; omega

/-- The bias window's block is the whole row at every point. -/
theorem iblk2_3_apply (c : Dev nD) (t : Fin cfg2.N) (q : Fin 128) :
    (iblk2 V c 3 t : S1x128.Idx → EReal) (ix2 (0 : Fin 1) q) = (V c (Pipeline.arrRef spec2 3) : S1x128.Idx → EReal) (ix2 (0 : Fin 1) q) := by
  obtain ⟨-, -, -, -, -, -, e30, e31, -⟩ := idx_facts2 t
  unfold iblk2
  rw [View.read_apply]
  refine congrArg (V c (Pipeline.arrRef spec2 3) : S1x128.Idx → EReal) (funext fun a => Fin.ext ?_)
  match a with
  | ⟨0, _⟩ => show win2_3.index t (0 : Fin 2) * 1 + 1 * 0 = 0; rw [e30]
  | ⟨1, _⟩ => show win2_3.index t (1 : Fin 2) * 128 + 1 * q.val = q.val; rw [e31]; omega

/-- The second weight window's block is the whole array at every point. -/
theorem iblk2_4_apply (c : Dev nD) (t : Fin cfg2.N) (k q : Fin 128) :
    (iblk2 V c 4 t : S128x128.Idx → EReal) (ix2 k q) = (V c (Pipeline.arrRef spec2 4) : S128x128.Idx → EReal) (ix2 k q) := by
  obtain ⟨-, -, -, -, -, -, -, -, e40, e41, -⟩ := idx_facts2 t
  unfold iblk2
  rw [View.read_apply]
  refine congrArg (V c (Pipeline.arrRef spec2 4) : S128x128.Idx → EReal) (funext fun a => Fin.ext ?_)
  match a with
  | ⟨0, _⟩ => show win2_4.index t (0 : Fin 2) * 128 + 1 * k.val = k.val; rw [e40]; omega
  | ⟨1, _⟩ => show win2_4.index t (1 : Fin 2) * 128 + 1 * q.val = q.val; rw [e41]; omega

/-- What point t computes at (r, q) of its block is the whole-array function at row 2000 t + r. -/
theorem block2_eq (c : Dev nD) (t : Fin cfg2.N) (r : Fin 2000) (q : Fin 128) (i : S100000x128.Idx)
    (hi0 : (i 0).val = 2000 * t.val + r.val) (hi1 : (i 1).val = q.val) :
    (k2_pay1 (F := Ideal) (iblk2 V c 0 t) (iblk2 V c 1 t) (iblk2 V c 2 t) (iblk2 V c 4 t) (iblk2 V c 3 t) : S2000x128.Idx → EReal) (ix2 r q)
      = G2 (V c (Pipeline.arrRef spec2 0)) (V c (Pipeline.arrRef spec2 1)) (V c (Pipeline.arrRef spec2 2))
          (V c (Pipeline.arrRef spec2 3)) (V c (Pipeline.arrRef spec2 4)) i := by
  refine (pay2_apply (iblk2 V c 0 t) (iblk2 V c 1 t) (iblk2 V c 2 t) (iblk2 V c 4 t) (iblk2 V c 3 t) r q).trans ?_
  obtain ⟨p, q', rfl⟩ : ∃ (p : Fin 100000) (q' : Fin 128), i = ix2 p q' := ⟨i 0, i 1, eq_ix2 i⟩
  obtain rfl : q' = q := Fin.ext hi1
  show _ = dense2 _ _ _ _ _ p q'
  unfold dense2
  refine congrArg₂ (· + ·) (congrArg₂ (· + ·) ?_ ?_) (iblk2_3_apply V c t q')
  · exact Finset.sum_congr rfl fun k _ => congrArg₂ (· * ·) (iblk2_0_apply V c t r k p hi0) (iblk2_2_apply V c t k q')
  · exact Finset.sum_congr rfl fun k _ => congrArg₂ (· * ·) (iblk2_1_apply V c t r k p hi0) (iblk2_4_apply V c t k q')

set_option maxHeartbeats 400000 in
/-- What point t writes back is block t of the whole-array function. -/
theorem flushed2_eq (c : Dev nD) (t : Fin cfg2.N) :
    (dat2 V c).flushed 5 t = ((cfg2.win 5).blk t).view.read (Elt Ideal)
      (G2 (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz]
  funext j
  obtain ⟨r, q, rfl⟩ : ∃ (r : Fin 2000) (q : Fin 128), j = ix2 r q := ⟨j 0, j 1, eq_ix2 j⟩
  obtain ⟨-, -, -, -, -, -, -, -, -, -, e50, e51⟩ := idx_facts2 t
  refine block2_eq V c t r q _ ?_ ?_
  · show win2_5.index t (0 : Fin 2) * 2000 + 1 * r.val = _; rw [e50]; omega
  · show win2_5.index t (1 : Fin 2) * 128 + 1 * q.val = _; rw [e51]; omega

/-- An index of the output array is in point t's block iff each coordinate is in the block's range on its axis. -/
theorem mem_blk2 (t : Fin cfg2.N) (i : S100000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v45).slice (win2_5.rect t)).set ↔ _
  rw [View.set_slice_whole, Rect.mem_set_unit]
  exact Iff.rfl

/-- Row r of the output lies in the block of point r / 2000: the fifty blocks tile the array. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 50 := N_2
  have ht : (i 0).val / 2000 < cfg2.N := by rw [hN]; omega
  obtain ⟨-, -, -, -, -, -, -, -, -, -, e50, e51⟩ := idx_facts2 ⟨(i 0).val / 2000, ht⟩
  refine ⟨⟨(i 0).val / 2000, ht⟩, flush2_5 _, ?_⟩
  rw [mem_blk2]
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win2_5.index ⟨(i 0).val / 2000, ht⟩ (1 : Fin 2) * 128 ≤ (i 1).val
      ∧ (i 1).val < win2_5.index ⟨(i 0).val / 2000, ht⟩ (1 : Fin 2) * 128 + 128
    rw [e51]; omega

/-- The output array after the region's fifty points is the whole-array function of the arrays the region read. -/
theorem final2 (c : Dev nD) :
    (dat2 V c).arrAt 5 cfg2.N = G2 (V c (Pipeline.arrRef spec2 0)) (V c (Pipeline.arrRef spec2 1)) (V c (Pipeline.arrRef spec2 2))
        (V c (Pipeline.arrRef spec2 3)) (V c (Pipeline.arrRef spec2 4)) :=
  (dat2 V c).arrAt_eq_of_cover 5 _ (fun t _ => flushed2_eq V c t) cover2

/-- A vector of 128 entries spread over the rows, read at (p, q), is the vector's entry q. -/
theorem rows_apply [Cert.ReferenceIdeal.Facts₀] (b : Cert.ReferenceIdeal.Spec.A (F := Ideal) Cert.ReferenceIdeal.S128)
    (p : Fin 100000) (q : Fin 128) :
    (Cert.ReferenceIdeal.Spec.rows (F := Ideal) b : S100000x128.Idx → EReal) (ix2 p q) = (b : S128.Idx → EReal) (ix1 q) := by
  unfold Cert.ReferenceIdeal.Spec.rows
  refine (broadcastInDim_apply _ _ _ (ix2 p q) (ix2 (0 : Fin 1) q) fun a => ?_).trans
    (broadcastInDim_apply _ _ _ (ix2 (0 : Fin 1) q) (ix1 q) fun a => ?_)
  · match a with
    | ⟨0, _⟩ => rfl
    | ⟨1, _⟩ => rfl
  · match a with
    | ⟨0, _⟩ => rfl

/-- The reference's two dense maps at (p, q). -/
theorem lin_apply [Cert.ReferenceIdeal.Facts₀] (a h : Cert.ReferenceIdeal.Spec.A (F := Ideal) Cert.ReferenceIdeal.S100000x128)
    (Wl : Cert.ReferenceIdeal.Spec.A (F := Ideal) Cert.ReferenceIdeal.S128x128)
    (b : Cert.ReferenceIdeal.Spec.A (F := Ideal) Cert.ReferenceIdeal.S128)
    (Wr : Cert.ReferenceIdeal.Spec.A (F := Ideal) Cert.ReferenceIdeal.S128x128) (p : Fin 100000) (q : Fin 128) :
    (Cert.ReferenceIdeal.Spec.lin (F := Ideal) a h Wl b Wr : S100000x128.Idx → EReal) (ix2 p q)
      = (∑ k : Fin 128, (a : S100000x128.Idx → EReal) (ix2 p k) * (Wl : S128x128.Idx → EReal) (ix2 k q) + (b : S128.Idx → EReal) (ix1 q))
        + ∑ k : Fin 128, (h : S100000x128.Idx → EReal) (ix2 p k) * (Wr : S128x128.Idx → EReal) (ix2 k q) := by
  unfold Cert.ReferenceIdeal.Spec.lin
  show (_ + _) + _ = _
  refine congrArg₂ (· + ·) (congrArg₂ (· + ·) ?_ (rows_apply b p q)) ?_
  · exact Cert.Lib.dotGeneral_plain_apply Cert.ReferenceIdeal.Facts₀.dot_S100000x128_S128x128_S100000x128_1_0_0_1_n_n_wf none .single a Wl p q
  · exact Cert.Lib.dotGeneral_plain_apply Cert.ReferenceIdeal.Facts₀.dot_S100000x128_S128x128_S100000x128_1_0_0_1_n_n_wf none .single h Wr p q

end Cert.KernelIdeal.RegionValue.Lin2

namespace Cert.KernelIdeal.RegionValue

open Cert.KernelIdeal Cert.KernelIdeal.Gen Idealize.ShloMosaic Idealize.ShloMosaic.TcCoe Idealize.SL.Sem
open Idealize.ShloMosaic.ValueIdx
open Cert.KernelIdeal.RegionValue.Lin2

/-- REGION 2's RESULT: the output array after the region is the reference's two dense maps of the arrays the region read,
    the bias window holding the bias vector as a row. The two sides add the same three terms in different orders. -/
theorem value2 [Cert.ReferenceIdeal.Facts₀] (V : (c : Dev nD) → (b : Ref sig .tc) → Buf (Elt Ideal) ((c : Thread nD τ).loc b)) (c : Dev nD)
    (b : Cert.ReferenceIdeal.Spec.A (F := Ideal) Cert.ReferenceIdeal.S128)
    (hb : ∀ q : Fin 128, (V c (Pipeline.arrRef spec2 3) : S1x128.Idx → EReal) (ix2 (0 : Fin 1) q) = (b : S128.Idx → EReal) (ix1 q)) :
    ((dat2 (F := Ideal) V c).arrAt 5 cfg2.N : S100000x128.Idx → EReal)
      = Cert.ReferenceIdeal.Spec.lin (F := Ideal) (V c (Pipeline.arrRef spec2 0)) (V c (Pipeline.arrRef spec2 1))
          (V c (Pipeline.arrRef spec2 2)) b (V c (Pipeline.arrRef spec2 4)) := by
  refine (final2 V c).trans (funext fun i => ?_)
  obtain ⟨p, q, rfl⟩ : ∃ (p : Fin 100000) (q : Fin 128), i = ix2 p q := ⟨i 0, i 1, eq_ix2 i⟩
  refine Eq.trans ?_ (lin_apply _ _ _ b _ p q).symm
  show dense2 _ _ _ _ _ p q = _
  unfold dense2
  rw [hb q]
  exact add_right_comm _ _ _

end Cert.KernelIdeal.RegionValue

end
-- ==== Proof.RegionBn3.lean ====
/-
  Region 3 of the kernel (batch normalisation and rectifier over blocks of 2000 rows) as one array function.
  Its body computes, at row `r` and column `q` of a block, `max((x - mean) · (g · rsqrt(var + ε)) + be, 0)` with the four
  one-row operands broadcast over the rows; the 50 grid points write the 50 row blocks of the output, so the output
  array ends as that formula of the operand arrays entry by entry. The reference divides by the square root instead
  of multiplying by its reciprocal; for a positive real `var + ε` the two agree, and under that hypothesis the region's
  output is the reference's normalisation of its first operand.
-/
import proofs.«116927_j80977313399688_1_alg».proof.Proof.Gen.KernelIdeal.Frame
import proofs.«116927_j80977313399688_1_alg».proof.Proof.RefSpec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost

set_option maxRecDepth 16384
-- reading an operand array's type off the program's table of buffers costs more the later the buffer is declared
set_option maxHeartbeats 1000000

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

/-- The normalisation of one entry: `max((x - mean) · (g · rsqrt(var + ε)) + be, 0)`. -/
def bnAt3 (x mean var g be : EReal) : EReal :=
  max ((x - mean) * (g * Ideal.rsqrt (var + Ideal.ofBits .f32 0x3727C5AC#32)) + be) (Ideal.ofBits .f32 0x00000000#32)

/-- The body's payload at row `r`, column `q`: the entry of the row block normalised by the four rows' entries `q`. -/
theorem pay_apply3 [Facts] (x0 : Vec Ideal S2000x128 .f32) (xg xv xm xb : Vec Ideal S1x128 .f32) (r : Fin 2000) (q : Fin 128) :
    k3_pay1 x0 xg xv xm xb (ix2 r q)
      = bnAt3 (x0 (ix2 r q)) (xm (ix2 (0 : Fin 1) q)) (xv (ix2 (0 : Fin 1) q)) (xg (ix2 (0 : Fin 1) q)) (xb (ix2 (0 : Fin 1) q)) := by
  unfold k3_pay1
  simp only [shapeCast_self]
  unfold bnAt3
  refine congrArg₂ max ?_ rfl
  refine congrArg₂ (· + ·) ?_ (broadcastTo_1b_ab_apply xb _ r q)
  refine congrArg₂ (· * ·) ?_ ?_
  · exact congrArg (x0 (ix2 r q) - ·) (broadcastTo_1b_ab_apply xm _ r q)
  · exact broadcastTo_1b_ab_apply _ _ r q

theorem hz3 : (![0, 0] : Fin 2 → Nat) = fun _ => 0 := funext fun a => by fin_cases a <;> rfl

/-- The whole output array as one function of the five operand arrays. -/
def bnArr3 (z : S100000x128.Idx → EReal) (mean var g be : S1x128.Idx → EReal) : S100000x128.Idx → EReal :=
  fun i => bnAt3 (z i) (mean (ix2 (0 : Fin 1) (i 1 : Fin 128))) (var (ix2 (0 : Fin 1) (i 1 : Fin 128)))
    (g (ix2 (0 : Fin 1) (i 1 : Fin 128))) (be (ix2 (0 : Fin 1) (i 1 : Fin 128)))

/-- The printed index maps over the 50 grid points: the row-block windows sit at block `t`, the four rows at block 0. -/
theorem idx_facts3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

variable (V : (c : Dev nD) → (b : Ref sig .tc) → Buf (Elt Ideal) ((c : Thread nD τ).loc b))

/-- Where the output's block at point `t` sits in the array: rows `2000 t …`, all columns. -/
theorem emb5_3 (t : Fin cfg3.N) (r : Fin 2000) (q : Fin 128) (k : S100000x128.Idx)
    (hk0 : (k 0).val = 2000 * t.val + r.val) (hk1 : (k 1).val = q.val) :
    ((cfg3.win 5).blk t).view.emb (ix2 r q) = k := by
  obtain ⟨-, -, e0, e1, -⟩ := idx_facts3 t
  funext a; apply Fin.ext
  match a with
  | ⟨0, _⟩ => show win3_5.index t (0 : Fin 2) * 2000 + 1 * r.val = (k 0).val; rw [e0, hk0]; omega
  | ⟨1, _⟩ => show win3_5.index t (1 : Fin 2) * 128 + 1 * q.val = (k 1).val; rw [e1, hk1]; omega

/-- Where the row-block input's block at point `t` sits in its array: the same rows as the output's. -/
theorem emb0_3 (t : Fin cfg3.N) (r : Fin 2000) (q : Fin 128) (k : S100000x128.Idx)
    (hk0 : (k 0).val = 2000 * t.val + r.val) (hk1 : (k 1).val = q.val) :
    ((cfg3.win 0).blk t).view.emb (ix2 r q) = k := by
  obtain ⟨e0, e1, -⟩ := idx_facts3 t
  funext a; apply Fin.ext
  match a with
  | ⟨0, _⟩ => show win3_0.index t (0 : Fin 2) * 2000 + 1 * r.val = (k 0).val; rw [e0, hk0]; omega
  | ⟨1, _⟩ => show win3_0.index t (1 : Fin 2) * 128 + 1 * q.val = (k 1).val; rw [e1, hk1]; omega

/-- The four one-row windows' block at every point is the whole row. -/
theorem embRow_3 (t : Fin cfg3.N) (q : Fin 128) :
    ((cfg3.win 1).blk t).view.emb (ix2 (0 : Fin 1) q) = ix2 (0 : Fin 1) q
    ∧ ((cfg3.win 2).blk t).view.emb (ix2 (0 : Fin 1) q) = ix2 (0 : Fin 1) q
    ∧ ((cfg3.win 3).blk t).view.emb (ix2 (0 : Fin 1) q) = ix2 (0 : Fin 1) q
    ∧ ((cfg3.win 4).blk t).view.emb (ix2 (0 : Fin 1) q) = ix2 (0 : Fin 1) q := by
  obtain ⟨-, -, -, -, a0, a1, b0, b1, c0, c1, d0, d1⟩ := idx_facts3 t
  refine ⟨?_, ?_, ?_, ?_⟩ <;> (funext a; apply Fin.ext)
  · match a with
    | ⟨0, _⟩ => show win3_1.index t (0 : Fin 2) * 1 + 1 * 0 = 0; rw [a0]
    | ⟨1, _⟩ => show win3_1.index t (1 : Fin 2) * 128 + 1 * q.val = q.val; rw [a1]; omega
  · match a with
    | ⟨0, _⟩ => show win3_2.index t (0 : Fin 2) * 1 + 1 * 0 = 0; rw [b0]
    | ⟨1, _⟩ => show win3_2.index t (1 : Fin 2) * 128 + 1 * q.val = q.val; rw [b1]; omega
  · match a with
    | ⟨0, _⟩ => show win3_3.index t (0 : Fin 2) * 1 + 1 * 0 = 0; rw [c0]
    | ⟨1, _⟩ => show win3_3.index t (1 : Fin 2) * 128 + 1 * q.val = q.val; rw [c1]; omega
  · match a with
    | ⟨0, _⟩ => show win3_4.index t (0 : Fin 2) * 1 + 1 * 0 = 0; rw [d0]
    | ⟨1, _⟩ => show win3_4.index t (1 : Fin 2) * 128 + 1 * q.val = q.val; rw [d1]; omega

/-- The row-block input's block at point `t`, read at `(r, q)`, is the array at row `2000 t + r`. -/
theorem iblk0_apply3 (c : Dev nD) (t : Fin cfg3.N) (r : Fin 2000) (q : Fin 128) (k : S100000x128.Idx)
    (hk0 : (k 0).val = 2000 * t.val + r.val) (hk1 : (k 1).val = q.val) :
    (iblk3 V c 0 t : Vec Ideal S2000x128 .f32) (ix2 r q) = (V c (Pipeline.arrRef spec3 0) : S100000x128.Idx → EReal) k := by
  show (V c (Pipeline.arrRef spec3 0) : S100000x128.Idx → EReal) (((cfg3.win 0).blk t).view.emb (ix2 r q)) = _
  exact congrArg (V c (Pipeline.arrRef spec3 0) : S100000x128.Idx → EReal) (emb0_3 t r q k hk0 hk1)

/-- Each one-row input's block at any point, read at `(0, q)`, is the row's entry `q`. -/
theorem iblkRow_apply3 (c : Dev nD) (t : Fin cfg3.N) (q : Fin 128) :
    (iblk3 V c 1 t : Vec Ideal S1x128 .f32) (ix2 (0 : Fin 1) q) = (V c (Pipeline.arrRef spec3 1) : S1x128.Idx → EReal) (ix2 (0 : Fin 1) q)
    ∧ (iblk3 V c 2 t : Vec Ideal S1x128 .f32) (ix2 (0 : Fin 1) q) = (V c (Pipeline.arrRef spec3 2) : S1x128.Idx → EReal) (ix2 (0 : Fin 1) q)
    ∧ (iblk3 V c 3 t : Vec Ideal S1x128 .f32) (ix2 (0 : Fin 1) q) = (V c (Pipeline.arrRef spec3 3) : S1x128.Idx → EReal) (ix2 (0 : Fin 1) q)
    ∧ (iblk3 V c 4 t : Vec Ideal S1x128 .f32) (ix2 (0 : Fin 1) q) = (V c (Pipeline.arrRef spec3 4) : S1x128.Idx → EReal) (ix2 (0 : Fin 1) q) := by
  obtain ⟨h1, h2, h3, h4⟩ := embRow_3 t q
  refine ⟨?_, ?_, ?_, ?_⟩
  · show (V c (Pipeline.arrRef spec3 1) : S1x128.Idx → EReal) (((cfg3.win 1).blk t).view.emb (ix2 (0 : Fin 1) q)) = _
    exact congrArg (V c (Pipeline.arrRef spec3 1) : S1x128.Idx → EReal) h1
  · show (V c (Pipeline.arrRef spec3 2) : S1x128.Idx → EReal) (((cfg3.win 2).blk t).view.emb (ix2 (0 : Fin 1) q)) = _
    exact congrArg (V c (Pipeline.arrRef spec3 2) : S1x128.Idx → EReal) h2
  · show (V c (Pipeline.arrRef spec3 3) : S1x128.Idx → EReal) (((cfg3.win 3).blk t).view.emb (ix2 (0 : Fin 1) q)) = _
    exact congrArg (V c (Pipeline.arrRef spec3 3) : S1x128.Idx → EReal) h3
  · show (V c (Pipeline.arrRef spec3 4) : S1x128.Idx → EReal) (((cfg3.win 4).blk t).view.emb (ix2 (0 : Fin 1) q)) = _
    exact congrArg (V c (Pipeline.arrRef spec3 4) : S1x128.Idx → EReal) h4

theorem bnAt_congr3 {x x' m m' v v' g g' b b' : EReal} (hx : x = x') (hm : m = m') (hv : v = v') (hg : g = g') (hb : b = b') :
    bnAt3 x m v g b = bnAt3 x' m' v' g' b' := by subst hx hm hv hg hb; rfl

/-- WHAT POINT `t` WRITES BACK is block `t` of `bnArr3` of the five operand arrays as the region finds them. -/
theorem flushed_eq3 [Facts] (c : Dev nD) (t : Fin cfg3.N) :
    (dat3 V c).flushed 5 t = ((cfg3.win 5).blk t).view.read (Elt Ideal)
      (bnArr3 (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero hz3]
  simp only [View.ld_unit_zero (S := S2000x128) hz3, View.ld_unit_zero (S := S1x128) hz3]
  refine funext fun (j : S2000x128.Idx) => ?_
  obtain ⟨r, q, rfl⟩ : ∃ (r : Fin 2000) (q : Fin 128), j = ix2 r q := ⟨j 0, j 1, eq_ix2 j⟩
  have hlt : 2000 * t.val + r.val < 100000 := by
    have h1 : t.val < 50 := lt_of_lt_of_eq t.isLt N_3
    have h2 := r.isLt
    omega
  refine (pay_apply3 (iblk3 V c 0 t) (iblk3 V c 3 t) (iblk3 V c 2 t) (iblk3 V c 1 t) (iblk3 V c 4 t) r q).trans ?_
  obtain ⟨h1, h2, h3, h4⟩ := iblkRow_apply3 V c t q
  have h0 := iblk0_apply3 V c t r q (ix2 ⟨2000 * t.val + r.val, hlt⟩ q) rfl rfl
  have h5 := emb5_3 t r q (ix2 ⟨2000 * t.val + r.val, hlt⟩ q) rfl rfl
  refine (bnAt_congr3 h0 h1 h2 h3 h4).trans ?_
  exact (congrArg (bnArr3 (V c (Pipeline.arrRef spec3 0)) (V c (Pipeline.arrRef spec3 1)) (V c (Pipeline.arrRef spec3 2))
        (V c (Pipeline.arrRef spec3 3)) (V c (Pipeline.arrRef spec3 4))) h5).symm

/-- An index of the array is in point `t`'s block iff each coordinate is in the block's range on its axis. -/
theorem mem_blk3 (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v53).slice (win3_5.rect t)).set ↔ _
  rw [View.set_slice_whole, Rect.mem_set_unit]
  exact Iff.rfl

/-- Row `p` of the output is written by point `p / 2000`. -/
theorem cover3 (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 50 := N_3
  refine ⟨⟨(i 0).val / 2000, by rw [hN]; omega⟩, flush3_5 _, ?_⟩
  rw [mem_blk3]
  obtain ⟨-, -, e0, e1, -⟩ := idx_facts3 ⟨(i 0).val / 2000, by rw [hN]; omega⟩
  intro a
  match a with
  | ⟨0, _⟩ =>
    show win3_5.index _ (0 : Fin 2) * 2000 ≤ (i 0).val ∧ (i 0).val < win3_5.index _ (0 : Fin 2) * 2000 + 2000
    rw [e0]; show (i 0).val / 2000 * 2000 ≤ (i 0).val ∧ (i 0).val < (i 0).val / 2000 * 2000 + 2000; omega
  | ⟨1, _⟩ =>
    show win3_5.index _ (1 : Fin 2) * 128 ≤ (i 1).val ∧ (i 1).val < win3_5.index _ (1 : Fin 2) * 128 + 128
    rw [e1]; omega

/-- THE ARRAY after the region: `bnArr3` of the five operand arrays as the region finds them. -/
theorem final3 [Facts] (c : Dev nD) :
    (dat3 V c).arrAt 5 cfg3.N = bnArr3 (V c (Pipeline.arrRef spec3 0)) (V c (Pipeline.arrRef spec3 1)) (V c (Pipeline.arrRef spec3 2))
        (V c (Pipeline.arrRef spec3 3)) (V c (Pipeline.arrRef spec3 4)) :=
  (dat3 V c).arrAt_eq_of_cover 5 _ (fun t _ => flushed_eq3 V c t) cover3

/-! ## The reference's normalisation at an index -/

/-- A vector spread over the rows reads, at row `p` and column `q`, its entry `q`. -/
theorem rows_apply3 [Cert.ReferenceIdeal.Facts₀] (v : Cert.ReferenceIdeal.Spec.A (F := Ideal) Cert.ReferenceIdeal.S128) (p : Fin 100000) (q : Fin 128) :
    Cert.ReferenceIdeal.Spec.rows v (ix2 p q) = v (ix1 q) := by
  unfold Cert.ReferenceIdeal.Spec.rows
  refine (broadcastInDim_oneRow_apply _ _ p q).trans ?_
  refine broadcastInDim_apply ![1] _ v (ix2 (0 : Fin 1) q) (ix1 q) fun a => ?_
  match a with
  | ⟨0, _⟩ =>
    show q.val = if (128 : ℕ) = 1 then 0 else q.val
    rw [if_neg (by decide)]

/-- The reference's normalisation read at row `p`, column `q`. -/
theorem bn_apply3 [Cert.ReferenceIdeal.Facts₀] (z : Cert.ReferenceIdeal.Spec.A (F := Ideal) Cert.ReferenceIdeal.S100000x128)
    (g be : Cert.ReferenceIdeal.Spec.A (F := Ideal) Cert.ReferenceIdeal.S128) (p : Fin 100000) (q : Fin 128) :
    Cert.ReferenceIdeal.Spec.bn z g be (ix2 p q)
      = max ((z (ix2 p q) - Cert.ReferenceIdeal.Spec.colMean z (ix1 q))
          * Ideal.div (g (ix1 q)) (Ideal.sqrt (Cert.ReferenceIdeal.Spec.colVar z (ix1 q) + Ideal.ofBits .f32 0x3727C5AC#32)) + be (ix1 q))
        (Ideal.ofBits .f32 0x00000000#32) := by
  unfold Cert.ReferenceIdeal.Spec.bn
  refine congrArg₂ max ?_ rfl
  refine congrArg₂ (· + ·) ?_ (rows_apply3 be p q)
  refine congrArg₂ (· * ·) ?_ ?_
  · exact congrArg (z (ix2 p q) - ·) (rows_apply3 _ p q)
  · exact rows_apply3 _ p q

/-- For a positive real `r`: multiplying by the reciprocal square root of `r` is dividing by its square root. -/
theorem mul_rsqrt_eq_div_sqrt3 (g : EReal) {r : ℝ} (hr : 0 < r) :
    g * Ideal.rsqrt (r : EReal) = Ideal.div g (Ideal.sqrt (r : EReal)) := by
  have hs : Real.sqrt r ≠ 0 := (Real.sqrt_pos.mpr hr).ne'
  rw [Ideal.rsqrt_coe, if_neg (not_lt.mpr hr.le), if_neg hr.ne', Ideal.sqrt_coe, if_neg (not_lt.mpr hr.le),
    Ideal.div_coe hs, one_div]

/-! ## The region's value -/

/-- What region 3 leaves in its output array, when it finds its first operand at `z`, the next two at the column
    means and variances of `z` and the last two at `g` and `be` (as rows), and every `variance + ε` is a positive
    real: the reference's batch normalisation and rectifier of `z`. -/
theorem value3 [Facts] [Cert.ReferenceIdeal.Facts₀] (c : Dev nD)
    (z : Cert.ReferenceIdeal.Spec.A (F := Ideal) Cert.ReferenceIdeal.S100000x128)
    (g be : Cert.ReferenceIdeal.Spec.A (F := Ideal) Cert.ReferenceIdeal.S128)
    (hz : (V c (Pipeline.arrRef spec3 0) : S100000x128.Idx → EReal) = z)
    (hmean : ∀ q : Fin 128, (V c (Pipeline.arrRef spec3 1) : S1x128.Idx → EReal) (ix2 (0 : Fin 1) q) = Cert.ReferenceIdeal.Spec.colMean z (ix1 q))
    (hvar : ∀ q : Fin 128, (V c (Pipeline.arrRef spec3 2) : S1x128.Idx → EReal) (ix2 (0 : Fin 1) q) = Cert.ReferenceIdeal.Spec.colVar z (ix1 q))
    (hg : ∀ q : Fin 128, (V c (Pipeline.arrRef spec3 3) : S1x128.Idx → EReal) (ix2 (0 : Fin 1) q) = g (ix1 q))
    (hbe : ∀ q : Fin 128, (V c (Pipeline.arrRef spec3 4) : S1x128.Idx → EReal) (ix2 (0 : Fin 1) q) = be (ix1 q))
    (hpos : ∀ q : Fin 128, ∃ r : ℝ, 0 < r ∧ Cert.ReferenceIdeal.Spec.colVar z (ix1 q) + Ideal.ofBits .f32 0x3727C5AC#32 = (r : EReal)) :
    ((dat3 V c).arrAt 5 cfg3.N : S100000x128.Idx → EReal) = Cert.ReferenceIdeal.Spec.bn z g be := by
  refine (final3 V c).trans ?_
  funext i
  obtain ⟨p, q, rfl⟩ : ∃ (p : Fin 100000) (q : Fin 128), i = ix2 p q := ⟨i 0, i 1, eq_ix2 i⟩
  refine Eq.trans ?_ (bn_apply3 z g be p q).symm
  refine (bnAt_congr3 (congrFun hz (ix2 p q)) (hmean q) (hvar q) (hg q) (hbe q)).trans ?_
  unfold bnAt3
  obtain ⟨r, hr, er⟩ := hpos q
  rw [er, mul_rsqrt_eq_div_sqrt3 _ hr]

end Cert.KernelIdeal.RegionValue

end
-- ==== Proof.KValueA.lean ====
/-
  The idealized kernel's first four regions in the reference's vocabulary. The first dense region leaves the
  reference's two dense maps of the aggregated inputs; each normalisation region leaves the reference's
  normalisation of the dense output before it (given that the column variance plus ε is a positive real: there
  g · rsqrt(v + ε) and g / sqrt(v + ε) agree); the second dense region leaves the dense maps of the aggregation of
  the first normalised output.
-/
import proofs.«116927_j80977313399688_1_alg».proof.Proof.Gen.KernelIdeal.Frame
import proofs.«116927_j80977313399688_1_alg».proof.Proof.Gen.ReferenceIdeal
import proofs.«116927_j80977313399688_1_alg».proof.Proof.RefSpec
import Idealize.ShloMosaic.PureOps.Ideal
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import proofs.«116927_j80977313399688_1_alg».proof.Proof.KBase
import proofs.«116927_j80977313399688_1_alg».proof.Proof.KS0
import proofs.«116927_j80977313399688_1_alg».proof.Proof.KS1
import proofs.«116927_j80977313399688_1_alg».proof.Proof.KS2
import proofs.«116927_j80977313399688_1_alg».proof.Proof.KS3
import proofs.«116927_j80977313399688_1_alg».proof.Proof.RegionLin0
import proofs.«116927_j80977313399688_1_alg».proof.Proof.RegionBn1
import proofs.«116927_j80977313399688_1_alg».proof.Proof.RegionLin2
import proofs.«116927_j80977313399688_1_alg».proof.Proof.RegionBn3

set_option maxRecDepth 16384

noncomputable section

namespace Cert.KernelIdeal.KChain

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

open Cert.KernelIdeal.RegionValue

/-- What the first dense region leaves: the reference's two dense maps of the aggregated inputs. -/
theorem W2_v22 (c : Dev nD) :
    (W2 m ρ c (Proc.devRef .tc main_v22) : S100000x128.Idx → EReal) = (Cert.ReferenceIdeal.Spec.lin (F := Ideal) (Cert.ReferenceIdeal.Spec.aggr (F := Ideal) (m ((c : Thread nD τ).loc main_arg1)) (m ((c : Thread nD τ).loc main_arg2)) (m ((c : Thread nD τ).loc main_arg0))) (m ((c : Thread nD τ).loc main_arg0)) (m ((c : Thread nD τ).loc main_arg3)) (m ((c : Thread nD τ).loc main_arg4)) (m ((c : Thread nD τ).loc main_arg5))) := by
  have h := value0 (V1 m ρ) c (m ((c : Thread nD τ).loc main_arg4)) (fun q => W1_v21_row m ρ c q)
  have e0 : (V1 m ρ c (Pipeline.arrRef spec0 0) : S100000x128.Idx → EReal) = _ := W1_v20 m ρ c
  have e1 : (V1 m ρ c (Pipeline.arrRef spec0 1)) = _ := W1_main_arg0_of0 m ρ c
  have e2 : (V1 m ρ c (Pipeline.arrRef spec0 2)) = _ := W1_main_arg3_of0 m ρ c
  have e4 : (V1 m ρ c (Pipeline.arrRef spec0 4)) = _ := W1_main_arg5_of0 m ρ c
  rw [e0, e1, e2, e4] at h
  exact (W2_arr m ρ c 5).trans h

/-- What the first normalisation region leaves: the reference's normalisation of the dense region's output. -/
theorem W6_v30 (c : Dev nD) (z : Cert.ReferenceIdeal.Spec.A (F := Ideal) Cert.ReferenceIdeal.S100000x128)
    (hz : (W2 m ρ c (Proc.devRef .tc main_v22) : S100000x128.Idx → EReal) = z)
    (hpos : (∀ q : Fin 128, ∃ r : ℝ, 0 < r ∧ Cert.ReferenceIdeal.Spec.colVar z (ix1 q) + Ideal.ofBits .f32 0x3727C5AC#32 = (r : EReal))) :
    (W6 m ρ c (Proc.devRef .tc main_v30) : S100000x128.Idx → EReal) = Cert.ReferenceIdeal.Spec.bn (F := Ideal) z (m ((c : Thread nD τ).loc main_arg6)) (m ((c : Thread nD τ).loc main_arg7)) := by
  have h := value1 (V5 m ρ) c z (m ((c : Thread nD τ).loc main_arg6)) (m ((c : Thread nD τ).loc main_arg7)) ((W5_main_v22_of2 m ρ c).trans hz)
    (fun q => (W5_main_v26_row m ρ c q).trans (by rw [hz])) (fun q => (W5_main_v27_row m ρ c q).trans (by rw [hz]))
    (fun q => W5_main_v28_row m ρ c q) (fun q => W5_main_v29_row m ρ c q) hpos
  exact (W6_arr m ρ c 5).trans h

/-- What the second dense region leaves: the two dense maps of the aggregation of the normalised output. -/
theorem W8_v45 (c : Dev nD) (h1 : Cert.ReferenceIdeal.Spec.A (F := Ideal) Cert.ReferenceIdeal.S100000x128)
    (hh : (W6 m ρ c (Proc.devRef .tc main_v30) : S100000x128.Idx → EReal) = h1) :
    (W8 m ρ c (Proc.devRef .tc main_v45) : S100000x128.Idx → EReal)
      = Cert.ReferenceIdeal.Spec.lin (F := Ideal) (Cert.ReferenceIdeal.Spec.aggr (F := Ideal) (m ((c : Thread nD τ).loc main_arg1)) (m ((c : Thread nD τ).loc main_arg2)) h1) h1 (m ((c : Thread nD τ).loc main_arg8)) (m ((c : Thread nD τ).loc main_arg9)) (m ((c : Thread nD τ).loc main_arg10)) := by
  have h := value2 (V7 m ρ) c (m ((c : Thread nD τ).loc main_arg9)) (fun q => W7_main_v44_row m ρ c q)
  have e0 : (V7 m ρ c (Pipeline.arrRef spec2 0) : S100000x128.Idx → EReal) = _ := (W7_main_v43 m ρ c).trans (by rw [hh])
  have e1 : (V7 m ρ c (Pipeline.arrRef spec2 1) : S100000x128.Idx → EReal) = _ := (W7_main_v30_of6 m ρ c).trans hh
  have e2 : (V7 m ρ c (Pipeline.arrRef spec2 2)) = _ := W7_main_arg8_of0 m ρ c
  have e4 : (V7 m ρ c (Pipeline.arrRef spec2 4)) = _ := W7_main_arg10_of0 m ρ c
  rw [e0, e1, e2, e4] at h
  exact (W8_arr m ρ c 5).trans h

/-- What the second normalisation region leaves: the reference's normalisation of the second dense output. -/
theorem W12_v53 (c : Dev nD) (z : Cert.ReferenceIdeal.Spec.A (F := Ideal) Cert.ReferenceIdeal.S100000x128)
    (hz : (W8 m ρ c (Proc.devRef .tc main_v45) : S100000x128.Idx → EReal) = z)
    (hpos : (∀ q : Fin 128, ∃ r : ℝ, 0 < r ∧ Cert.ReferenceIdeal.Spec.colVar z (ix1 q) + Ideal.ofBits .f32 0x3727C5AC#32 = (r : EReal))) :
    (W12 m ρ c (Proc.devRef .tc main_v53) : S100000x128.Idx → EReal) = Cert.ReferenceIdeal.Spec.bn (F := Ideal) z (m ((c : Thread nD τ).loc main_arg11)) (m ((c : Thread nD τ).loc main_arg12)) := by
  have h := value3 (V11 m ρ) c z (m ((c : Thread nD τ).loc main_arg11)) (m ((c : Thread nD τ).loc main_arg12)) ((W11_main_v45_of8 m ρ c).trans hz)
    (fun q => (W11_main_v49_row m ρ c q).trans (by rw [hz])) (fun q => (W11_main_v50_row m ρ c q).trans (by rw [hz]))
    (fun q => W11_main_v51_row m ρ c q) (fun q => W11_main_v52_row m ρ c q) hpos
  exact (W12_arr m ρ c 5).trans h

end Cert.KernelIdeal.KChain

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.LibAxisMax.lean ====
/-
  The maximum of a matrix along its second axis, read at an index. Independent of any program.

  A float max-reduction of an [a, b] matrix over axis 1 leaves an [a] vector whose entry p is the fold of max, started
  from the accumulator's value, over k : Fin b of the matrix at (p, k) — a row maximum. The host's reduce with a maximum
  body over the LAST axis of an array of any rank is read the same way by the library's single-axis law; this file gives
  the kernel's side at coordinates.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW MAXIMA: a max-reduction of an [a, b] matrix over axis 1, at row p, is the fold of max from the accumulator's value
    over k of the matrix at (p, k). -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg ((Finset.univ : Finset (Fin b)).fold max (Ideal.ofBits φ acc)) (funext fun k => congrArg src (funext fun c => Fin.ext ?_))
  match c with
  | ⟨0, _⟩ => rfl
  | ⟨1, _⟩ => rfl

end Cert.Lib

end
-- ==== Proof.LibHostRowMax.lean ====
/-
  The host's maximum of each row of an [a, b] matrix (a one-operand reduce with a maximum body over axis 1), read at a
  row: the fold of max, from the initial value's one element, over k of the matrix at (p, k). Any a, b, any float format.
  It is the same fold a kernel's lane maximum over axis 1 reads as, so the two can be compared term by term.
-/
import Idealize.ShloMosaic.Lib.ValueIdx
import Idealize.ShloMosaic.PureOps.Ideal
import Idealize.ShloMosaic.PureOps.Ideal.Laws
import Idealize.ShloMosaic.PureOps.Reduce

noncomputable section

namespace Cert.Lib

open Idealize.ShloMosaic Idealize.ShloMosaic.ValueIdx

/-- HOST ROW MAXIMA: at row p, the fold of max from the initial value over k of the matrix at (p, k). -/
theorem hostRowMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) := by
  refine (Host.reduce_eq_fold_single (FloatOps.maximumf (F := Ideal) (φ := φ)) x init h' h hu (ix1 p)).trans ?_
  refine congrArg ((Finset.univ : Finset (Fin b)).fold max (init (Shape.Idx.first hu))) (funext fun k => congrArg x (funext fun c => Fin.ext ?_))
  match c with
  | ⟨0, _⟩ => rfl
  | ⟨1, _⟩ => rfl

end Cert.Lib

end
-- ==== Proof.LibHostRowSum.lean ====
/-
  The host's sum of each row of an [a, b] matrix (a one-operand reduce with an add body over axis 1), read at a row on the
  extended reals: the initial value's one element plus the sum over k of the matrix at (p, k). Any a, b, any float format.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- HOST ROW SUMS: at row p, the initial value plus the sum over k of the matrix at (p, k). -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  simp only [Host.reduceAdd, Ideal.hostReduceAdd_def]
  rw [Ideal.hostReduceAdd_single h' h]
  refine congrArg (_ + ·) (Finset.sum_congr rfl fun k _ => ?_)
  exact congrArg x (funext fun c => Fin.ext (by match c with | ⟨0, _⟩ => rfl | ⟨1, _⟩ => rfl))

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.RegionLsm4.lean ====
/-
  What the last region of the kernel writes: the two dense maps into 40 classes, then a log-softmax along the class
  axis. The region walks fifty grid points; at point t it reads rows 2000 t … 2000 t + 1999 of two [100000, 128] arrays
  a and h, the whole [128, 40] weight arrays Wl and Wr and the [1, 40] bias row bl, and writes rows
  2000 t … 2000 t + 1999 of the [100000, 40] output. With
      z (p, q) = (Σ_k a (p, k) · Wl (k, q) + Σ_k h (p, k) · Wr (k, q)) + bl (0, q)
  and m (p) the maximum of row p of z folded from minus infinity, the output is
      out (p, q) = (z (p, q) - m (p)) - log (Σ_k exp (z (p, k) - m (p))).
  Over the extended reals the changes of float format are the identity, each matrix product into a zero accumulator is
  the plain sum over k, the lane maximum is the fold of max from the accumulator's value and the lane sum is the plain
  sum. The fifty row blocks tile the output, so after the region the output array is that function of the five arrays
  at every index. The reference computes the same row function of (Σ_k a (p, k) · Wl (k, q) + b (q)) + Σ_k h (p, k) · Wr (k, q),
  the bias vector b spread over the rows: its row maximum is the same fold (a further maximum against minus infinity
  changes nothing, the fold starting there), its row sum starts from zero, and its exponential and logarithm are the
  kernel's. The dense maps add the same three terms in different orders.
-/
import proofs.«116927_j80977313399688_1_alg».proof.Proof.Gen.KernelIdeal.Frame
import proofs.«116927_j80977313399688_1_alg».proof.Proof.RefSpec
import proofs.«116927_j80977313399688_1_alg».proof.Proof.LibPlainDot
import proofs.«116927_j80977313399688_1_alg».proof.Proof.LibAxisSums
import proofs.«116927_j80977313399688_1_alg».proof.Proof.LibAxisMax
import proofs.«116927_j80977313399688_1_alg».proof.Proof.LibHostRowMax
import proofs.«116927_j80977313399688_1_alg».proof.Proof.LibHostRowSum
import proofs.«116927_j80977313399688_1_alg».proof.Proof.LibColumnBroadcast
import proofs.«116927_j80977313399688_1_alg».proof.Proof.LibColumnCast
import Idealize.ShloMosaic.Lib.Pipeline.Value
import Idealize.ShloMosaic.Lib.ValueLayout
import Idealize.ShloMosaic.Lib.ValueIdx

noncomputable section

namespace Cert.KernelIdeal.RegionValue.Lsm4

open Cert.KernelIdeal Cert.KernelIdeal.Gen Idealize.ShloMosaic Idealize.ShloMosaic.TcCoe Idealize.SL.Sem
open Idealize.ShloMosaic.ValueIdx
open Idealize.ShloMosaic.Pipeline (Dat)

/-- Row p of the first array against column q of the first weights, plus the same for the second pair, plus the bias
    row's entry q; for arrays of any number n of rows. -/
def dense4 {n : ℕ} (a h : (⟨2, ![n, 128]⟩ : Shape).Idx → EReal) (Wl : S128x40.Idx → EReal) (bl : S1x40.Idx → EReal)
    (Wr : S128x40.Idx → EReal) (p : Fin n) (q : Fin 40) : EReal :=
  (∑ k : Fin 128, a (ix2 p k) * Wl (ix2 k q) + ∑ k : Fin 128, h (ix2 p k) * Wr (ix2 k q)) + bl (ix2 (0 : Fin 1) q)

/-- The maximum of a row of 40 entries, folded from the value of the word for minus infinity. -/
def rowMax (z : Fin 40 → EReal) : EReal :=
  (Finset.univ : Finset (Fin 40)).fold max (Ideal.ofBits .f32 0xFF800000#32) z

/-- Log-softmax of a row of 40 entries at q: the entry minus the row maximum, minus the log of the sum of the
    exponentials of the shifted entries. -/
def lsm (z : Fin 40 → EReal) (q : Fin 40) : EReal :=
  (z q - rowMax z) - Ideal.log (∑ k : Fin 40, Ideal.exp (z k - rowMax z))

/-- A vector of 2000 entries stood up as a column and spread over 40 columns reads, at (r, q), its entry r. -/
theorem colSpread_apply (v : FVec Ideal S2000 .f32) (r : Fin 2000) (q : Fin 40) :
    (broadcastTo S2000x40 (shapeCast S2000x1 v shapeCasts_S2000_S2000x1) broadcasts_S2000x1_S2000x40 : S2000x40.Idx → EReal) (ix2 r q)
      = (v : S2000.Idx → EReal) (ix1 r) :=
  (Cert.Lib.broadcastTo_a1_ab_apply _ broadcasts_S2000x1_S2000x40 r q).trans
    (Cert.Lib.shapeCast_a_a1_apply v shapeCasts_S2000_S2000x1 r 0)

/-- The lane maximum, the shift, the exponentials' lane sum and its logarithm, on a [2000, 40] block Z: at (r, q) the
    log-softmax of row r of Z. -/
theorem lsm_block (Z : FVec Ideal S2000x40 .f32) (hφ : FKind.Formats FTy.f32)
    (hmax : (0xFF800000#32 : BitVec FTy.f32.bits) = FKind.maximumf.neutral .f32 hφ)
    (hadd : (0x00000000#32 : BitVec FTy.f32.bits) = FKind.add.neutral .f32 hφ) (r : Fin 2000) (q : Fin 40) :
    (subf (subf Z (broadcastTo S2000x40 (shapeCast S2000x1 (multiReduction .maximumf [1] S2000 Z 0xFF800000#32 reduces_S2000x40_S2000 hφ hmax) shapeCasts_S2000_S2000x1) broadcasts_S2000x1_S2000x40))
      (broadcastTo S2000x40 (log (shapeCast S2000x1 (multiReduction .add [1] S2000
          (exp (subf Z (broadcastTo S2000x40 (shapeCast S2000x1 (multiReduction .maximumf [1] S2000 Z 0xFF800000#32 reduces_S2000x40_S2000 hφ hmax) shapeCasts_S2000_S2000x1) broadcasts_S2000x1_S2000x40)))
          0x00000000#32 reduces_S2000x40_S2000 hφ hadd) shapeCasts_S2000_S2000x1)) broadcasts_S2000x1_S2000x40)
      : S2000x40.Idx → EReal) (ix2 r q)
    = lsm (fun k => (Z : S2000x40.Idx → EReal) (ix2 r k)) q := by
  have hM : ∀ r' : Fin 2000, (multiReduction .maximumf [1] S2000 Z 0xFF800000#32 reduces_S2000x40_S2000 hφ hmax : S2000.Idx → EReal) (ix1 r')
      = rowMax (fun k => (Z : S2000x40.Idx → EReal) (ix2 r' k)) :=
    fun r' => Cert.Lib.rowMax_apply Z _ reduces_S2000x40_S2000 hφ hmax r'
  have hS : ∀ (r' : Fin 2000) (q' : Fin 40),
      (subf Z (broadcastTo S2000x40 (shapeCast S2000x1 (multiReduction .maximumf [1] S2000 Z 0xFF800000#32 reduces_S2000x40_S2000 hφ hmax) shapeCasts_S2000_S2000x1) broadcasts_S2000x1_S2000x40) : S2000x40.Idx → EReal) (ix2 r' q')
        = (Z : S2000x40.Idx → EReal) (ix2 r' q') - rowMax (fun k => (Z : S2000x40.Idx → EReal) (ix2 r' k)) :=
    fun r' q' => congrArg ((Z : S2000x40.Idx → EReal) (ix2 r' q') - ·) ((colSpread_apply _ r' q').trans (hM r'))
  show _ - _ = _
  unfold lsm
  refine congrArg₂ (· - ·) (hS r q) ?_
  refine (Cert.Lib.broadcastTo_a1_ab_apply _ broadcasts_S2000x1_S2000x40 r q).trans ?_
  show Ideal.log _ = _
  refine congrArg Ideal.log ?_
  refine (Cert.Lib.shapeCast_a_a1_apply _ shapeCasts_S2000_S2000x1 r 0).trans ?_
  refine (Cert.Lib.rowSum_apply _ _ reduces_S2000x40_S2000 hφ hadd r).trans ?_
  exact Finset.sum_congr rfl fun k _ => congrArg Ideal.exp (hS r k)

/-- The dense map on a block as the kernel computes it: two matrix products into zero accumulators, added, plus the
    bias row spread over the rows. -/
def Zblk (x0 x1 : Vec Ideal S2000x128 .f32) (x2 x4 : Vec Ideal S128x40 .f32) (x3 : Vec Ideal S1x40 .f32) :
    FVec Ideal S2000x40 .f32 :=
  addf (addf (matmul dot_S2000x128_S128x40_S2000x40_1_0_0_1_n_n none (truncf FTy.bf16 x0 bitsLt_bf16_f32) (truncf FTy.bf16 x2 bitsLt_bf16_f32) (constant S2000x40 FTy.f32 0x00000000#32))
      (matmul dot_S2000x128_S128x40_S2000x40_1_0_0_1_n_n none (truncf FTy.bf16 x1 bitsLt_bf16_f32) (truncf FTy.bf16 x4 bitsLt_bf16_f32) (constant S2000x40 FTy.f32 0x00000000#32)))
    (broadcastTo S2000x40 x3 broadcasts_S1x40_S2000x40)

/-- It reads, at (r, k), the dense map's value. -/
theorem Zblk_apply (x0 x1 : Vec Ideal S2000x128 .f32) (x2 x4 : Vec Ideal S128x40 .f32) (x3 : Vec Ideal S1x40 .f32)
    (r : Fin 2000) (k : Fin 40) :
    (Zblk x0 x1 x2 x4 x3 : S2000x40.Idx → EReal) (ix2 r k) = dense4 (n := 2000) x0 x1 x2 x3 x4 r k := by
  unfold Zblk dense4
  show (_ + _) + _ = _
  refine congrArg₂ (· + ·) (congrArg₂ (· + ·) ?_ ?_) ?_
  · exact Cert.Lib.matmul_zero_apply Facts₀.dot_S2000x128_S128x40_S2000x40_1_0_0_1_n_n_wf none
      (truncf .bf16 x0 bitsLt_bf16_f32) (truncf .bf16 x2 bitsLt_bf16_f32) r k
  · exact Cert.Lib.matmul_zero_apply Facts₀.dot_S2000x128_S128x40_S2000x40_1_0_0_1_n_n_wf none
      (truncf .bf16 x1 bitsLt_bf16_f32) (truncf .bf16 x4 bitsLt_bf16_f32) r k
  · exact broadcastTo_1b_ab_apply x3 broadcasts_S1x40_S2000x40 r k

set_option maxHeartbeats 400000 in
/-- The block's value at row r, column q: the log-softmax of row r of the dense map. -/
theorem pay4_apply (x0 x1 : Vec Ideal S2000x128 .f32) (x2 x4 : Vec Ideal S128x40 .f32) (x3 : Vec Ideal S1x40 .f32)
    (r : Fin 2000) (q : Fin 40) :
    (k4_pay1 (F := Ideal) x0 x1 x2 x4 x3 : S2000x40.Idx → EReal) (ix2 r q)
      = lsm (fun k => dense4 (n := 2000) x0 x1 x2 x3 x4 r k) q := by
  unfold k4_pay1
  rw [shapeCast_self, shapeCast_self, shapeCast_self]
  refine (lsm_block (Zblk x0 x1 x2 x4 x3) _ _ _ r q).trans ?_
  exact congrArg (fun z => lsm z q) (funext fun k => Zblk_apply x0 x1 x2 x4 x3 r k)

variable (V : (c : Dev nD) → (b : Ref sig .tc) → Buf (Elt Ideal) ((c : Thread nD τ).loc b))

theorem hz : (![0, 0] : Fin 2 → Nat) = fun _ => 0 := funext fun a => by fin_cases a <;> rfl

/-- The whole array the region writes, as a function of the five arrays it reads: row by row the log-softmax of the
    dense map. -/
def G4 (a h : S100000x128.Idx → EReal) (Wl : S128x40.Idx → EReal) (bl : S1x40.Idx → EReal) (Wr : S128x40.Idx → EReal) :
    S100000x40.Idx → EReal := fun i => lsm (fun k => dense4 (n := 100000) a h Wl bl Wr (i 0) k) (i 1)

/-- The block indices over the grid: the row-blocked windows sit at block t, the whole-array windows at block 0. -/
theorem idx_facts4 : ∀ t : Fin cfg4.N,
    win4_0.index t (0 : Fin 2) = t.val ∧ win4_0.index t (1 : Fin 2) = 0
  ∧ win4_1.index t (0 : Fin 2) = t.val ∧ win4_1.index t (1 : Fin 2) = 0
  ∧ win4_2.index t (0 : Fin 2) = 0 ∧ win4_2.index t (1 : Fin 2) = 0
  ∧ win4_3.index t (0 : Fin 2) = 0 ∧ win4_3.index t (1 : Fin 2) = 0
  ∧ win4_4.index t (0 : Fin 2) = 0 ∧ win4_4.index t (1 : Fin 2) = 0
  ∧ win4_5.index t (0 : Fin 2) = t.val ∧ win4_5.index t (1 : Fin 2) = 0 :=
  (by decide +kernel : ∀ t : Fin grid4.N, _)

/-- Block t of the first row-blocked array is its rows 2000 t … 2000 t + 1999. -/
theorem iblk4_0_apply (c : Dev nD) (t : Fin cfg4.N) (r : Fin 2000) (k : Fin 128) (p : Fin 100000)
    (hp : p.val = 2000 * t.val + r.val) :
    (iblk4 V c 0 t : S2000x128.Idx → EReal) (ix2 r k) = (V c (Pipeline.arrRef spec4 0) : S100000x128.Idx → EReal) (ix2 p k) := by
  obtain ⟨e00, e01, -⟩ := idx_facts4 t
  unfold iblk4
  rw [View.read_apply]
  refine congrArg (V c (Pipeline.arrRef spec4 0) : S100000x128.Idx → EReal) (funext fun a => Fin.ext ?_)
  match a with
  | ⟨0, _⟩ => show win4_0.index t (0 : Fin 2) * 2000 + 1 * r.val = p.val; rw [e00, hp]; omega
  | ⟨1, _⟩ => show win4_0.index t (1 : Fin 2) * 128 + 1 * k.val = k.val; rw [e01]; omega

/-- Block t of the second row-blocked array is its rows 2000 t … 2000 t + 1999. -/
theorem iblk4_1_apply (c : Dev nD) (t : Fin cfg4.N) (r : Fin 2000) (k : Fin 128) (p : Fin 100000)
    (hp : p.val = 2000 * t.val + r.val) :
    (iblk4 V c 1 t : S2000x128.Idx → EReal) (ix2 r k) = (V c (Pipeline.arrRef spec4 1) : S100000x128.Idx → EReal) (ix2 p k) := by
  obtain ⟨-, -, e10, e11, -⟩ := idx_facts4 t
  unfold iblk4
  rw [View.read_apply]
  refine congrArg (V c (Pipeline.arrRef spec4 1) : S100000x128.Idx → EReal) (funext fun a => Fin.ext ?_)
  match a with
  | ⟨0, _⟩ => show win4_1.index t (0 : Fin 2) * 2000 + 1 * r.val = p.val; rw [e10, hp]; omega
  | ⟨1, _⟩ => show win4_1.index t (1 : Fin 2) * 128 + 1 * k.val = k.val; rw [e11]; omega

/-- The first weight window's block is the whole array at every point. -/
theorem iblk4_2_apply (c : Dev nD) (t : Fin cfg4.N) (k : Fin 128) (q : Fin 40) :
    (iblk4 V c 2 t : S128x40.Idx → EReal) (ix2 k q) = (V c (Pipeline.arrRef spec4 2) : S128x40.Idx → EReal) (ix2 k q) := by
  obtain ⟨-, -, -, -, e20, e21, -⟩ := idx_facts4 t
  unfold iblk4
  rw [View.read_apply]
  refine congrArg (V c (Pipeline.arrRef spec4 2) : S128x40.Idx → EReal) (funext fun a => Fin.ext ?_)
  match a with
  | ⟨0, _⟩ => show win4_2.index t (0 : Fin 2) * 128 + 1 * k.val = k.val; rw [e20]; omega
  | ⟨1, _⟩ => show win4_2.index t (1 : Fin 2) * 40 + 1 * q.val = q.val; rw [e21]; omega

/-- The bias window's block is the whole row at every point. -/
theorem iblk4_3_apply (c : Dev nD) (t : Fin cfg4.N) (q : Fin 40) :
    (iblk4 V c 3 t : S1x40.Idx → EReal) (ix2 (0 : Fin 1) q) = (V c (Pipeline.arrRef spec4 3) : S1x40.Idx → EReal) (ix2 (0 : Fin 1) q) := by
  obtain ⟨-, -, -, -, -, -, e30, e31, -⟩ := idx_facts4 t
  unfold iblk4
  rw [View.read_apply]
  refine congrArg (V c (Pipeline.arrRef spec4 3) : S1x40.Idx → EReal) (funext fun a => Fin.ext ?_)
  match a with
  | ⟨0, _⟩ => show win4_3.index t (0 : Fin 2) * 1 + 1 * 0 = 0; rw [e30]
  | ⟨1, _⟩ => show win4_3.index t (1 : Fin 2) * 40 + 1 * q.val = q.val; rw [e31]; omega

/-- The second weight window's block is the whole array at every point. -/
theorem iblk4_4_apply (c : Dev nD) (t : Fin cfg4.N) (k : Fin 128) (q : Fin 40) :
    (iblk4 V c 4 t : S128x40.Idx → EReal) (ix2 k q) = (V c (Pipeline.arrRef spec4 4) : S128x40.Idx → EReal) (ix2 k q) := by
  obtain ⟨-, -, -, -, -, -, -, -, e40, e41, -⟩ := idx_facts4 t
  unfold iblk4
  rw [View.read_apply]
  refine congrArg (V c (Pipeline.arrRef spec4 4) : S128x40.Idx → EReal) (funext fun a => Fin.ext ?_)
  match a with
  | ⟨0, _⟩ => show win4_4.index t (0 : Fin 2) * 128 + 1 * k.val = k.val; rw [e40]; omega
  | ⟨1, _⟩ => show win4_4.index t (1 : Fin 2) * 40 + 1 * q.val = q.val; rw [e41]; omega

/-- The dense map of point t's blocks at row r is the dense map of the whole arrays at row 2000 t + r. -/
theorem dense4_blk (c : Dev nD) (t : Fin cfg4.N) (r : Fin 2000) (p : Fin 100000) (hp : p.val = 2000 * t.val + r.val) (k : Fin 40) :
    dense4 (n := 2000) (iblk4 V c 0 t) (iblk4 V c 1 t) (iblk4 V c 2 t) (iblk4 V c 3 t) (iblk4 V c 4 t) r k
      = dense4 (n := 100000) (V c (Pipeline.arrRef spec4 0)) (V c (Pipeline.arrRef spec4 1)) (V c (Pipeline.arrRef spec4 2))
          (V c (Pipeline.arrRef spec4 3)) (V c (Pipeline.arrRef spec4 4)) p k := by
  unfold dense4
  refine congrArg₂ (· + ·) (congrArg₂ (· + ·) ?_ ?_) (iblk4_3_apply V c t k)
  · exact Finset.sum_congr rfl fun j _ => congrArg₂ (· * ·) (iblk4_0_apply V c t r j p hp) (iblk4_2_apply V c t j k)
  · exact Finset.sum_congr rfl fun j _ => congrArg₂ (· * ·) (iblk4_1_apply V c t r j p hp) (iblk4_4_apply V c t j k)

/-- What point t computes at (r, q) of its block is the whole-array function at row 2000 t + r. -/
theorem block4_eq (c : Dev nD) (t : Fin cfg4.N) (r : Fin 2000) (q : Fin 40) (i : S100000x40.Idx)
    (hi0 : (i 0).val = 2000 * t.val + r.val) (hi1 : (i 1).val = q.val) :
    (k4_pay1 (F := Ideal) (iblk4 V c 0 t) (iblk4 V c 1 t) (iblk4 V c 2 t) (iblk4 V c 4 t) (iblk4 V c 3 t) : S2000x40.Idx → EReal) (ix2 r q)
      = G4 (V c (Pipeline.arrRef spec4 0)) (V c (Pipeline.arrRef spec4 1)) (V c (Pipeline.arrRef spec4 2))
          (V c (Pipeline.arrRef spec4 3)) (V c (Pipeline.arrRef spec4 4)) i := by
  refine (pay4_apply (iblk4 V c 0 t) (iblk4 V c 1 t) (iblk4 V c 2 t) (iblk4 V c 4 t) (iblk4 V c 3 t) r q).trans ?_
  obtain ⟨p, q', rfl⟩ : ∃ (p : Fin 100000) (q' : Fin 40), i = ix2 p q' := ⟨i 0, i 1, eq_ix2 i⟩
  obtain rfl : q' = q := Fin.ext hi1
  show _ = lsm (fun k => dense4 (n := 100000) _ _ _ _ _ p k) q'
  exact congrArg (fun z => lsm z q') (funext fun k => dense4_blk V c t r p hi0 k)

set_option maxHeartbeats 400000 in
/-- What point t writes back is block t of the whole-array function. -/
theorem flushed4_eq (c : Dev nD) (t : Fin cfg4.N) :
    (dat4 V c).flushed 5 t = ((cfg4.win 5).blk t).view.read (Elt Ideal)
      (G4 (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  unfold out4_5
  rw [View.canon_unit_zero hz]
  simp only [View.ld_unit_zero (S := S2000x128) hz, View.ld_unit_zero (S := S128x40) hz, View.ld_unit_zero (S := S1x40) hz]
  funext j
  obtain ⟨r, q, rfl⟩ : ∃ (r : Fin 2000) (q : Fin 40), j = ix2 r q := ⟨j 0, j 1, eq_ix2 j⟩
  obtain ⟨-, -, -, -, -, -, -, -, -, -, e50, e51⟩ := idx_facts4 t
  refine block4_eq V c t r q _ ?_ ?_
  · show win4_5.index t (0 : Fin 2) * 2000 + 1 * r.val = _; rw [e50]; omega
  · show win4_5.index t (1 : Fin 2) * 40 + 1 * q.val = _; rw [e51]; omega

/-- An index of the output array is in point t's block iff each coordinate is in the block's range on its axis. -/
theorem mem_blk4 (t : Fin cfg4.N) (i : S100000x40.Idx) :
    i ∈ ((cfg4.win 5).blk t).view.set ↔ ∀ a : Fin 2, win4_5.index t a * S2000x40.size a ≤ (i a).val
      ∧ (i a).val < win4_5.index t a * S2000x40.size a + S2000x40.size a := by
  show i ∈ ((View.whole main_v68).slice (win4_5.rect t)).set ↔ _
  rw [View.set_slice_whole, Rect.mem_set_unit]
  exact Iff.rfl

/-- Row r of the output lies in the block of point r / 2000: the fifty blocks tile the array. -/
theorem cover4 (i : S100000x40.Idx) :
    ∃ t : Fin cfg4.N, (cfg4.win 5).flush t = true ∧ i ∈ ((cfg4.win 5).blk t).view.set := by
  have hi0 : (i 0).val < 100000 := (i 0).isLt
  have hi1 : (i 1).val < 40 := (i 1).isLt
  have hN : cfg4.N = 50 := N_4
  have ht : (i 0).val / 2000 < cfg4.N := by rw [hN]; omega
  obtain ⟨-, -, -, -, -, -, -, -, -, -, e50, e51⟩ := idx_facts4 ⟨(i 0).val / 2000, ht⟩
  refine ⟨⟨(i 0).val / 2000, ht⟩, flush4_5 _, ?_⟩
  rw [mem_blk4]
  intro a
  match a with
  | ⟨0, _⟩ =>
    show win4_5.index ⟨(i 0).val / 2000, ht⟩ (0 : Fin 2) * 2000 ≤ (i 0).val
      ∧ (i 0).val < win4_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win4_5.index ⟨(i 0).val / 2000, ht⟩ (1 : Fin 2) * 40 ≤ (i 1).val
      ∧ (i 1).val < win4_5.index ⟨(i 0).val / 2000, ht⟩ (1 : Fin 2) * 40 + 40
    rw [e51]; omega

/-- The output array after the region's fifty points is the whole-array function of the arrays the region read. -/
theorem final4 (c : Dev nD) :
    (dat4 V c).arrAt 5 cfg4.N = G4 (V c (Pipeline.arrRef spec4 0)) (V c (Pipeline.arrRef spec4 1)) (V c (Pipeline.arrRef spec4 2))
        (V c (Pipeline.arrRef spec4 3)) (V c (Pipeline.arrRef spec4 4)) :=
  (dat4 V c).arrAt_eq_of_cover 5 _ (fun t _ => flushed4_eq V c t) cover4

/-- A vector of 40 entries spread over the rows, read at (p, q), is the vector's entry q. -/
theorem biasRows_apply [Cert.ReferenceIdeal.Facts₀] (b : Cert.ReferenceIdeal.Spec.A (F := Ideal) Cert.ReferenceIdeal.S40)
    (p : Fin 100000) (q : Fin 40) :
    (broadcastInDim Cert.ReferenceIdeal.S100000x40 ![0, 1] Cert.ReferenceIdeal.Facts₀.bcast_S1x40_S100000x40_0_1
        (broadcastInDim Cert.ReferenceIdeal.S1x40 ![1] Cert.ReferenceIdeal.Facts₀.bcast_S40_S1x40_1 b) : S100000x40.Idx → EReal) (ix2 p q)
      = (b : S40.Idx → EReal) (ix1 q) := by
  refine (broadcastInDim_apply _ _ _ (ix2 p q) (ix2 (0 : Fin 1) q) fun a => ?_).trans
    (broadcastInDim_apply _ _ _ (ix2 (0 : Fin 1) q) (ix1 q) fun a => ?_)
  · match a with
    | ⟨0, _⟩ => rfl
    | ⟨1, _⟩ => rfl
  · match a with
    | ⟨0, _⟩ => rfl

/-- The reference's two dense maps of the last round at (p, q). -/
theorem lin2_apply [Cert.ReferenceIdeal.Facts₀] (a h : Cert.ReferenceIdeal.Spec.A (F := Ideal) Cert.ReferenceIdeal.S100000x128)
    (Wl : Cert.ReferenceIdeal.Spec.A (F := Ideal) Cert.ReferenceIdeal.S128x40)
    (b : Cert.ReferenceIdeal.Spec.A (F := Ideal) Cert.ReferenceIdeal.S40)
    (Wr : Cert.ReferenceIdeal.Spec.A (F := Ideal) Cert.ReferenceIdeal.S128x40) (p : Fin 100000) (q : Fin 40) :
    (Cert.ReferenceIdeal.Spec.lin2 (F := Ideal) a h Wl b Wr : S100000x40.Idx → EReal) (ix2 p q)
      = (∑ k : Fin 128, (a : S100000x128.Idx → EReal) (ix2 p k) * (Wl : S128x40.Idx → EReal) (ix2 k q) + (b : S40.Idx → EReal) (ix1 q))
        + ∑ k : Fin 128, (h : S100000x128.Idx → EReal) (ix2 p k) * (Wr : S128x40.Idx → EReal) (ix2 k q) := by
  unfold Cert.ReferenceIdeal.Spec.lin2
  show (_ + _) + _ = _
  refine congrArg₂ (· + ·) (congrArg₂ (· + ·) ?_ (biasRows_apply b p q)) ?_
  · exact Cert.Lib.dotGeneral_plain_apply Cert.ReferenceIdeal.Facts₀.dot_S100000x128_S128x40_S100000x40_1_0_0_1_n_n_wf none .single a Wl p q
  · exact Cert.Lib.dotGeneral_plain_apply Cert.ReferenceIdeal.Facts₀.dot_S100000x128_S128x40_S100000x40_1_0_0_1_n_n_wf none .single h Wr p q

/-- A per-row value spread over the 40 columns, read at (p, q), is the value of row p. -/
theorem cols_apply [Cert.ReferenceIdeal.Facts₀] (v : Cert.ReferenceIdeal.Spec.A (F := Ideal) Cert.ReferenceIdeal.S100000)
    (p : Fin 100000) (q : Fin 40) :
    (Cert.ReferenceIdeal.Spec.cols (F := Ideal) v : S100000x40.Idx → EReal) (ix2 p q) = (v : S100000.Idx → EReal) (ix1 p) := by
  unfold Cert.ReferenceIdeal.Spec.cols
  refine (broadcastInDim_apply _ _ _ (ix2 p q) (ix2 p (0 : Fin 1)) fun a => ?_).trans
    (broadcastInDim_apply _ _ _ (ix2 p (0 : Fin 1)) (ix1 p) fun a => ?_)
  · match a with
    | ⟨0, _⟩ => rfl
    | ⟨1, _⟩ => rfl
  · match a with
    | ⟨0, _⟩ => rfl

/-- The maximum against a vector holding minus infinity's word everywhere, at row p. -/
theorem maxBot_apply [Cert.ReferenceIdeal.Facts₀] (M : Cert.ReferenceIdeal.Spec.A (F := Ideal) Cert.ReferenceIdeal.S100000) (p : Fin 100000) :
    (maximumf (broadcastInDim Cert.ReferenceIdeal.S100000 ![] Cert.ReferenceIdeal.Facts₀.bcast_S_S100000
        (constant (F := Ideal) Cert.ReferenceIdeal.S_ .f32 0xFF800000#32)) M : S100000.Idx → EReal) (ix1 p)
      = max (Ideal.ofBits .f32 0xFF800000#32) ((M : S100000.Idx → EReal) (ix1 p)) := rfl

/-- The reference's row maximum at row p: the fold of max from minus infinity's word over the row's 40 entries. -/
theorem hostRowMax4 [Cert.ReferenceIdeal.Facts₀] (z : Cert.ReferenceIdeal.Spec.A (F := Ideal) Cert.ReferenceIdeal.S100000x40) (p : Fin 100000) :
    (Host.reduce (FloatOps.maximumf (F := Ideal) (φ := .f32)) z (constant (F := Ideal) Cert.ReferenceIdeal.S_ .f32 0xFF800000#32)
        Cert.ReferenceIdeal.Facts₀.reducesTo_S100000x40_S100000_d1 Cert.ReferenceIdeal.Facts₀.h_S_ : S100000.Idx → EReal) (ix1 p)
      = rowMax (fun k => (z : S100000x40.Idx → EReal) (ix2 p k)) :=
  Cert.Lib.hostRowMax_apply z _ Cert.ReferenceIdeal.Facts₀.reducesTo_S100000x40_S100000_d1
    ⟨Cert.ReferenceIdeal.Facts₀.reducesTo_S100000x40_S100000_d1.1, Nat.one_pos, Cert.ReferenceIdeal.Facts₀.reducesTo_S100000x40_S100000_d1.2⟩
    Cert.ReferenceIdeal.Facts₀.h_S_ p

/-- The reference's shifted rows at (p, q): the entry minus the row maximum. The reference takes the maximum once more
    against minus infinity's word, which the fold already starts from. -/
theorem shifted_apply [Cert.ReferenceIdeal.Facts₀] (z : Cert.ReferenceIdeal.Spec.A (F := Ideal) Cert.ReferenceIdeal.S100000x40)
    (p : Fin 100000) (q : Fin 40) :
    (Cert.ReferenceIdeal.Spec.shifted (F := Ideal) z : S100000x40.Idx → EReal) (ix2 p q)
      = (z : S100000x40.Idx → EReal) (ix2 p q) - rowMax (fun k => (z : S100000x40.Idx → EReal) (ix2 p k)) := by
  unfold Cert.ReferenceIdeal.Spec.shifted
  refine (subf_apply _ _ _).trans ?_
  refine congrArg ((z : S100000x40.Idx → EReal) (ix2 p q) - ·) ?_
  refine (cols_apply _ p q).trans ((maxBot_apply _ p).trans ?_)
  refine (congrArg (max (Ideal.ofBits .f32 0xFF800000#32)) (hostRowMax4 z p)).trans ?_
  exact max_eq_right ((Finset.le_fold_max _).mpr (Or.inl le_rfl))

/-- The reference's row sum at row p, from zero's word: the sum over the row's 40 entries. -/
theorem hostRowSum4 [Cert.ReferenceIdeal.Facts₀] (x : Cert.ReferenceIdeal.Spec.A (F := Ideal) Cert.ReferenceIdeal.S100000x40) (p : Fin 100000) :
    (Host.reduceAdd x (constant (F := Ideal) Cert.ReferenceIdeal.S_ .f32 0x00000000#32)
        Cert.ReferenceIdeal.Facts₀.reducesTo_S100000x40_S100000_d1 Cert.ReferenceIdeal.Facts₀.h_S_ : S100000.Idx → EReal) (ix1 p)
      = ∑ k : Fin 40, (x : S100000x40.Idx → EReal) (ix2 p k) := by
  refine (Cert.Lib.hostRowSum_apply x _ Cert.ReferenceIdeal.Facts₀.reducesTo_S100000x40_S100000_d1
    ⟨Cert.ReferenceIdeal.Facts₀.reducesTo_S100000x40_S100000_d1.1, Nat.one_pos, Cert.ReferenceIdeal.Facts₀.reducesTo_S100000x40_S100000_d1.2⟩
    Cert.ReferenceIdeal.Facts₀.h_S_ p).trans ?_
  show Ideal.ofBits .f32 0x00000000#32 + _ = _
  rw [Ideal.ofBits_zero_f32, zero_add]

/-- The host's logarithm at an index is the extended reals' logarithm of the entry. -/
theorem hostLog_apply {s : Shape} (x : FVec Ideal s .f32) (i : s.Idx) : (Host.log x : s.Idx → EReal) i = Ideal.log (x i) := rfl

/-- The host's exponential at an index is the extended reals' exponential of the entry. -/
theorem hostExp_apply {s : Shape} (x : FVec Ideal s .f32) (i : s.Idx) : (Host.exp x : s.Idx → EReal) i = Ideal.exp (x i) := rfl

/-- The reference's log-softmax at (p, q) is the log-softmax of row p. -/
theorem logSoftmax_apply [Cert.ReferenceIdeal.Facts₀] (z : Cert.ReferenceIdeal.Spec.A (F := Ideal) Cert.ReferenceIdeal.S100000x40)
    (p : Fin 100000) (q : Fin 40) :
    (Cert.ReferenceIdeal.Spec.logSoftmax (F := Ideal) z : S100000x40.Idx → EReal) (ix2 p q)
      = lsm (fun k => (z : S100000x40.Idx → EReal) (ix2 p k)) q := by
  unfold Cert.ReferenceIdeal.Spec.logSoftmax lsm
  refine (subf_apply _ _ _).trans ?_
  refine congrArg₂ (· - ·) (shifted_apply z p q) ?_
  refine (broadcastInDim_apply _ _ _ (ix2 p q) (ix2 p (0 : Fin 1)) fun a => ?_).trans ?_
  · match a with
    | ⟨0, _⟩ => rfl
    | ⟨1, _⟩ => rfl
  refine (hostLog_apply _ _).trans (congrArg Ideal.log ?_)
  refine (broadcastInDim_apply _ _ _ (ix2 p (0 : Fin 1)) (ix1 p) fun a => ?_).trans ?_
  · match a with
    | ⟨0, _⟩ => rfl
  refine (hostRowSum4 _ p).trans ?_
  exact Finset.sum_congr rfl fun k _ => (hostExp_apply _ _).trans (congrArg Ideal.exp (shifted_apply z p k))

end Cert.KernelIdeal.RegionValue.Lsm4

namespace Cert.KernelIdeal.RegionValue

open Cert.KernelIdeal Cert.KernelIdeal.Gen Idealize.ShloMosaic Idealize.ShloMosaic.TcCoe Idealize.SL.Sem
open Idealize.ShloMosaic.ValueIdx
open Cert.KernelIdeal.RegionValue.Lsm4

/-- REGION 4's RESULT: the output array after the region is the reference's log-softmax of its two dense maps of the
    arrays the region read, the bias window holding the bias vector as a row. Row by row both sides take the
    log-softmax of the same 40 numbers; the dense maps add the same three terms in different orders. -/
theorem value4 [Cert.ReferenceIdeal.Facts₀] (V : (c : Dev nD) → (b : Ref sig .tc) → Buf (Elt Ideal) ((c : Thread nD τ).loc b)) (c : Dev nD)
    (b : Cert.ReferenceIdeal.Spec.A (F := Ideal) Cert.ReferenceIdeal.S40)
    (hb : ∀ q : Fin 40, (V c (Pipeline.arrRef spec4 3) : S1x40.Idx → EReal) (ix2 (0 : Fin 1) q) = (b : S40.Idx → EReal) (ix1 q)) :
    ((dat4 (F := Ideal) V c).arrAt 5 cfg4.N : S100000x40.Idx → EReal)
      = Cert.ReferenceIdeal.Spec.logSoftmax (F := Ideal)
          (Cert.ReferenceIdeal.Spec.lin2 (F := Ideal) (V c (Pipeline.arrRef spec4 0)) (V c (Pipeline.arrRef spec4 1))
            (V c (Pipeline.arrRef spec4 2)) b (V c (Pipeline.arrRef spec4 4))) := by
  refine (final4 V c).trans (funext fun i => ?_)
  obtain ⟨p, q, rfl⟩ : ∃ (p : Fin 100000) (q : Fin 40), i = ix2 p q := ⟨i 0, i 1, eq_ix2 i⟩
  refine Eq.trans ?_ (logSoftmax_apply _ p q).symm
  show lsm (fun k => dense4 (n := 100000) _ _ _ _ _ p k) q = _
  refine congrArg (fun z => lsm z q) (funext fun k => ?_)
  refine Eq.trans ?_ (lin2_apply _ _ _ b _ p k).symm
  unfold dense4
  rw [hb k]
  exact add_right_comm _ _ _

end Cert.KernelIdeal.RegionValue

end
-- ==== Proof.LibRealCollapse.lean ====
/-
  The algebra of a two-layer graph convolution on the extended reals. Independent of any program.

  A layer aggregates, at node n, the rows of a feature matrix at the sources of the edges that end in n, each
  row scaled by a per-source weight; the aggregate is scaled by a per-node weight and multiplied by a dense weight
  matrix. Multiplying by the weight matrix BEFORE aggregating gives the same result, because the product is linear in
  the rows: for real entries
      ((Σ_e (Σ_k h e k · W k) · a e) · c = Σ_k ((Σ_e h e k · a e) · c) · W k.
  On the extended reals distributivity fails at the infinities, so the law is stated for entries that are real
  numbers; the predicate `IsReal` and its closure under the operations a layer uses say which entries are.
-/
import Mathlib.Data.EReal.Basic
import Mathlib.Data.EReal.Operations
import Mathlib.Algebra.BigOperators.Ring.Finset
import Mathlib.Algebra.BigOperators.Group.Finset.Sigma
import Mathlib.Tactic.Ring

noncomputable section

namespace Cert.Gcn

open Finset

/-- An extended real that is a real number. -/
def IsReal (v : EReal) : Prop := ∃ r : ℝ, v = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {u v : EReal} (hu : IsReal u) (hv : IsReal v) : IsReal (u + v) := by
  obtain ⟨a, rfl⟩ := hu; obtain ⟨b, rfl⟩ := hv
  exact ⟨a + b, (EReal.coe_add a b).symm⟩

theorem IsReal.mul {u v : EReal} (hu : IsReal u) (hv : IsReal v) : IsReal (u * v) := by
  obtain ⟨a, rfl⟩ := hu; obtain ⟨b, rfl⟩ := hv
  exact ⟨a * b, (EReal.coe_mul a b).symm⟩

theorem IsReal.max {u v : EReal} (hu : IsReal u) (hv : IsReal v) : IsReal (max u v) := by
  rcases max_choice u v with h | h <;> rw [h] <;> assumption

theorem IsReal.sum {ι : Type} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The dense weight commutes with the weighted aggregation, over the reals. -/
theorem collapse_real {ι κ : Type} [Fintype κ] (S : Finset ι) (h : ι → κ → ℝ) (a : ι → ℝ) (W : κ → ℝ) (c : ℝ) :
    (∑ e ∈ S, (∑ k, h e k * W k) * a e) * c = ∑ k, ((∑ e ∈ S, h e k * a e) * c) * W k := by
  simp only [Finset.sum_mul]
  rw [Finset.sum_comm]
  exact Finset.sum_congr rfl fun k _ => Finset.sum_congr rfl fun e _ => by ring

/-- The same on the extended reals, for entries that are real numbers: the node's result with the weight applied
    before the aggregation equals the result with the weight applied after it; the bias `b` is any extended real. -/
theorem collapse {ι κ : Type} [Fintype κ] (S : Finset ι) (h : ι → κ → EReal) (a : ι → EReal) (W : κ → EReal) (c b : EReal)
    (hh : ∀ e k, IsReal (h e k)) (ha : ∀ e, IsReal (a e)) (hW : ∀ k, IsReal (W k)) (hc : IsReal c) :
    (∑ e ∈ S, (∑ k, h e k * W k) * a e) * c + b = (∑ k, ((∑ e ∈ S, h e k * a e) * c) * W k) + b := by
  choose h' hh' using hh
  choose a' ha' using ha
  choose W' hW' using hW
  obtain ⟨c', rfl⟩ := hc
  refine congrArg (· + b) ?_
  simp only [hh', ha', hW', ← EReal.coe_mul, ← coe_sum]
  exact congrArg _ (collapse_real S h' a' W' c')

end Cert.Gcn

end
-- ==== Proof.LibBatchNormMoments.lean ====
/-
  Batch-normalisation moments on the extended reals. Independent of any program.

  A column `h` of `n` entries has the mean `μ = (Σ h) / n`. Its variance is written in two ways:
      the mean of the squared deviations,          (Σ_i (h i − μ)²) / n,
      the second moment minus the squared mean,    (Σ_i (h i)²) / n − μ².
  Over the real numbers the two agree: expand the square, use `Σ_i μ = n · μ`, and cancel. On the extended reals the
  expansion needs distributivity, which fails at the infinities, so the identity is stated for columns whose
  entries are real numbers (`IsReal`). For such a column the variance is a non-negative real number (a sum of
  squares over a positive count), hence `variance + ε` is a positive real for every real `ε > 0` and its reciprocal
  square root is again a real number.

  Also here: `IsReal` is closed under subtraction, under division by a nonzero real and under the reciprocal
  square root of a positive real; and three single-precision words as the real numbers they denote
  (`100000`, `1`, and the word nearest `1e-5`, of which only the sign is used).
-/
import proofs.«116927_j80977313399688_1_alg».proof.Proof.LibRealCollapse
import Idealize.ShloMosaic.PureOps.Ideal

noncomputable section

namespace Cert.BatchNorm

open Finset Idealize.ShloMosaic Cert.Gcn

/-! ### Closure of the real entries -/

/-- The difference of two real numbers is a real number. -/
theorem _root_.Cert.Gcn.IsReal.sub {u v : EReal} (hu : IsReal u) (hv : IsReal v) : IsReal (u - v) := by
  obtain ⟨a, rfl⟩ := hu; obtain ⟨b, rfl⟩ := hv
  exact ⟨a - b, (EReal.coe_sub a b).symm⟩

/-- A real number divided by a nonzero real number is a real number. -/
theorem isReal_div {u : EReal} (hu : IsReal u) {N : ℝ} (hN : N ≠ 0) : IsReal (Ideal.div u (N : EReal)) := by
  obtain ⟨a, rfl⟩ := hu
  rw [Ideal.div_coe hN]
  exact ⟨a * (1 / N), (EReal.coe_mul a (1 / N)).symm⟩

/-- The reciprocal square root of a positive real number is a real number. -/
theorem isReal_rsqrt {r : ℝ} (hr : 0 < r) : IsReal (Ideal.rsqrt (r : EReal)) := by
  rw [Ideal.rsqrt_coe, if_neg (not_lt.mpr hr.le), if_neg hr.ne']
  exact ⟨(Real.sqrt r)⁻¹, rfl⟩

/-- The reciprocal square root of a non-negative real plus a positive real is a real number: the shape
    `rsqrt (variance + ε)`. -/
theorem isReal_rsqrt_var_eps {v e : ℝ} (hv : 0 ≤ v) (he : 0 < e) :
    IsReal (Ideal.rsqrt ((v : EReal) + (e : EReal))) := by
  rw [← EReal.coe_add]
  exact isReal_rsqrt (add_pos_of_nonneg_of_pos hv he)

/-! ### The two forms of the variance -/

/-- Over the reals, with `n` the number of entries and division written as the product with `1 / n`: the mean of
    the squared deviations from the mean equals the second moment minus the squared mean. -/
theorem variance_moments_real {ι : Type} [Fintype ι] (x : ι → ℝ) (N : ℝ) (hN : N = (Fintype.card ι : ℝ))
    (hN0 : N ≠ 0) :
    (∑ i, (x i - (∑ i, x i) * (1 / N)) * (x i - (∑ i, x i) * (1 / N))) * (1 / N)
      = (∑ i, x i * x i) * (1 / N) - (∑ i, x i) * (1 / N) * ((∑ i, x i) * (1 / N)) := by
  generalize hS : ∑ i, x i = S
  generalize hμ : S * (1 / N) = μ
  have hexp : ∀ i, (x i - μ) * (x i - μ) = x i * x i - 2 * μ * x i + μ * μ := fun i => by ring
  have hsum : ∑ i, (x i - μ) * (x i - μ) = ∑ i, x i * x i - 2 * μ * S + N * (μ * μ) := by
    simp only [hexp, Finset.sum_add_distrib, Finset.sum_sub_distrib, ← Finset.mul_sum, hS, Finset.sum_const,
      Finset.card_univ, nsmul_eq_mul, ← hN]
    ring
  rw [hsum, ← hμ]
  field_simp
  ring

/-- For a column of real entries, the mean of the squared deviations from the mean (the sums starting from the
    initial value `0`) equals the second moment minus the squared mean. -/
theorem variance_moments {ι : Type} [Fintype ι] (h : ι → EReal) (hh : ∀ i, IsReal (h i)) (N : ℝ)
    (hN : N = (Fintype.card ι : ℝ)) (hpos : 0 < Fintype.card ι) :
    Ideal.div (0 + ∑ i, (h i - Ideal.div (0 + ∑ i, h i) (N : EReal)) * (h i - Ideal.div (0 + ∑ i, h i) (N : EReal))) (N : EReal)
      = Ideal.div (∑ i, h i * h i) (N : EReal) - Ideal.div (∑ i, h i) (N : EReal) * Ideal.div (∑ i, h i) (N : EReal) := by
  choose h' hh' using hh
  have hN0 : N ≠ 0 := by rw [hN]; exact_mod_cast hpos.ne'
  simp only [zero_add, hh', Ideal.div_coe hN0, ← coe_sum, ← EReal.coe_mul, ← EReal.coe_sub]
  exact congrArg _ (variance_moments_real h' N hN hN0)

/-- For a column of real entries the variance, in the form second moment minus squared mean, is a non-negative
    real number: it is the mean of the squared deviations, a sum of squares over a positive count. -/
theorem variance_nonneg {ι : Type} [Fintype ι] (h : ι → EReal) (hh : ∀ i, IsReal (h i)) (N : ℝ)
    (hN : N = (Fintype.card ι : ℝ)) (hpos : 0 < Fintype.card ι) :
    ∃ v : ℝ, 0 ≤ v ∧ Ideal.div (∑ i, h i * h i) (N : EReal) - Ideal.div (∑ i, h i) (N : EReal) * Ideal.div (∑ i, h i) (N : EReal) = (v : EReal) := by
  rw [← variance_moments h hh N hN hpos]
  choose h' hh' using hh
  have hNpos : 0 < N := by rw [hN]; exact_mod_cast hpos
  refine ⟨(∑ i, (h' i - (∑ i, h' i) * (1 / N)) * (h' i - (∑ i, h' i) * (1 / N))) * (1 / N), ?_, ?_⟩
  · exact mul_nonneg (Finset.sum_nonneg fun i _ => mul_self_nonneg _) (one_div_pos.mpr hNpos).le
  · simp only [zero_add, hh', Ideal.div_coe hNpos.ne', ← coe_sum, ← EReal.coe_mul, ← EReal.coe_sub]

/-! ### Three single-precision words -/

/-- The word `0x47C35000` (exponent field `143`, fraction field `0x435000`) denotes
    `(2^23 + 4411392) · 2^(143 − 127 − 23) = 100000`. -/
theorem ofBits_hundred_thousand : Ideal.ofBits .f32 0x47C35000#32 = ((100000 : ℝ) : EReal) := by
  simp [Ideal.ofBits, Ideal.ieee, -EReal.coe_mul]; norm_num

/-- The word `0x3F800000` (exponent field `127`, fraction field `0`) denotes `2^23 · 2^(−23) = 1`. -/
theorem ofBits_one : Ideal.ofBits .f32 0x3F800000#32 = ((1 : ℝ) : EReal) := by
  simp [Ideal.ofBits, Ideal.ieee, -EReal.coe_mul]; norm_num

/-- The word `0x3727C5AC`, the single-precision number nearest `1e-5` (exponent field `110`, fraction field
    `0x27C5AC`), denotes the positive real `(2^23 + 2606508) · 2^(110 − 127 − 23)`. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

end Cert.BatchNorm

end
-- ==== Proof.LibRealArrays.lean ====
/-
  Arrays of real numbers under the operations of a host program. Independent of any program.

  The ideal values of a float array are extended reals. Most algebraic laws (distributivity above all) hold on the
  extended reals only away from the infinities, so a proof that uses them first needs to know that the entries it
  meets are real numbers. This file gives that knowledge operation by operation: an entrywise product, sum,
  difference or maximum of real arrays is real; a constant, a broadcast and a gather only repeat entries of their
  operand; an accumulating scatter, a contraction and a sum over axes are finite sums of entries or of products of
  entries; a quotient by a nonzero real constant is real. Two refinements carry a sign: a finite sum of non-negative
  reals is a non-negative real (a count of edges, a sum of squares), and a non-negative real plus a positive real is
  positive, so that its reciprocal square root is a real number again.
-/
import proofs.«116927_j80977313399688_1_alg».proof.Proof.LibBatchNormMoments
import Idealize.ShloMosaic.PureOps.Ideal.Laws
import Idealize.ShloMosaic.Lib.ValueIdx

noncomputable section

namespace Cert.Lib.RealArrays

open Finset Idealize.ShloMosaic Cert.Gcn Cert.BatchNorm

/-! ### Non-negative and positive real numbers among the extended reals -/

/-- An extended real that is a non-negative real number. -/
def IsNonnegReal (v : EReal) : Prop := ∃ r : ℝ, 0 ≤ r ∧ v = (r : EReal)

/-- An extended real that is a positive real number. -/
def IsPosReal (v : EReal) : Prop := ∃ r : ℝ, 0 < r ∧ v = (r : EReal)

/-- A non-negative real number is a real number. -/
theorem IsNonnegReal.isReal {v : EReal} (h : IsNonnegReal v) : IsReal v := by
  obtain ⟨r, _, rfl⟩ := h; exact ⟨r, rfl⟩

/-- A positive real number is a real number. -/
theorem IsPosReal.isReal {v : EReal} (h : IsPosReal v) : IsReal v := by
  obtain ⟨r, _, rfl⟩ := h; exact ⟨r, rfl⟩

/-- A positive real number is a non-negative one. -/
theorem IsPosReal.isNonnegReal {v : EReal} (h : IsPosReal v) : IsNonnegReal v := by
  obtain ⟨r, hr, rfl⟩ := h; exact ⟨r, hr.le, rfl⟩

/-- Zero is a non-negative real. -/
theorem isNonnegReal_zero : IsNonnegReal (0 : EReal) := ⟨0, le_rfl, rfl⟩
/-- One is a positive real. -/
theorem isPosReal_one : IsPosReal (1 : EReal) := ⟨1, one_pos, rfl⟩

/-- The sum of two non-negative reals is a non-negative real. -/
theorem IsNonnegReal.add {u v : EReal} (hu : IsNonnegReal u) (hv : IsNonnegReal v) : IsNonnegReal (u + v) := by
  obtain ⟨a, ha, rfl⟩ := hu; obtain ⟨b, hb, rfl⟩ := hv
  exact ⟨a + b, add_nonneg ha hb, (EReal.coe_add a b).symm⟩

/-- A non-negative real plus a positive real is a positive real. -/
theorem IsNonnegReal.add_pos {u v : EReal} (hu : IsNonnegReal u) (hv : IsPosReal v) : IsPosReal (u + v) := by
  obtain ⟨a, ha, rfl⟩ := hu; obtain ⟨b, hb, rfl⟩ := hv
  exact ⟨a + b, add_pos_of_nonneg_of_pos ha hb, (EReal.coe_add a b).symm⟩

/-- The square of a real number is a non-negative real. -/
theorem _root_.Cert.Gcn.IsReal.mul_self_nonneg {v : EReal} (h : IsReal v) : IsNonnegReal (v * v) := by
  obtain ⟨a, rfl⟩ := h
  exact ⟨a * a, _root_.mul_self_nonneg a, (EReal.coe_mul a a).symm⟩

/-- A finite sum of non-negative reals is a non-negative real. -/
theorem IsNonnegReal.sum {ι : Type} (S : Finset ι) (f : ι → EReal) (hf : ∀ i ∈ S, IsNonnegReal (f i)) :
    IsNonnegReal (∑ i ∈ S, f i) := by
  classical
  induction S using Finset.induction_on with
  | empty => simpa using isNonnegReal_zero
  | insert a S ha ih =>
    rw [Finset.sum_insert ha]
    exact (hf a (Finset.mem_insert_self a S)).add (ih fun i hi => hf i (Finset.mem_insert_of_mem hi))

/-- A non-negative real divided by a positive real is a non-negative real. -/
theorem IsNonnegReal.div {u : EReal} (hu : IsNonnegReal u) {N : ℝ} (hN : 0 < N) :
    IsNonnegReal (Ideal.div u (N : EReal)) := by
  obtain ⟨a, ha, rfl⟩ := hu
  rw [Ideal.div_coe hN.ne']
  exact ⟨a * (1 / N), mul_nonneg ha (one_div_pos.mpr hN).le, (EReal.coe_mul a (1 / N)).symm⟩

/-- The reciprocal square root of a positive real is a real number. -/
theorem IsPosReal.rsqrt {v : EReal} (h : IsPosReal v) : IsReal (Ideal.rsqrt v) := by
  obtain ⟨r, hr, rfl⟩ := h; exact isReal_rsqrt hr

/-! ### Arrays of real numbers under the operations of a host program, at the ideal values

Each lemma says: if every entry of the operands is a real number, so is every entry of the result. The arrays,
index arrays and dimension numbers are arbitrary. -/

variable {s t : Shape} {φ : FTy}

/-- Entrywise product. -/
theorem real_mulf (x y : FVec Ideal s φ) (hx : ∀ i, IsReal (x i)) (hy : ∀ i, IsReal (y i)) :
    ∀ i, IsReal (mulf x y i) := fun i => (hx i).mul (hy i)

/-- Entrywise sum. -/
theorem real_addf (x y : FVec Ideal s φ) (hx : ∀ i, IsReal (x i)) (hy : ∀ i, IsReal (y i)) :
    ∀ i, IsReal (addf x y i) := fun i => (hx i).add (hy i)

/-- Entrywise difference. -/
theorem real_subf (x y : FVec Ideal s φ) (hx : ∀ i, IsReal (x i)) (hy : ∀ i, IsReal (y i)) :
    ∀ i, IsReal (subf x y i) := fun i => (hx i).sub (hy i)

/-- Entrywise maximum. -/
theorem real_maximumf (x y : FVec Ideal s φ) (hx : ∀ i, IsReal (x i)) (hy : ∀ i, IsReal (y i)) :
    ∀ i, IsReal (maximumf x y i) := fun i => (hx i).max (hy i)

/-- The entrywise square of an array of reals has non-negative real entries. -/
theorem nonneg_mulf_self (x : FVec Ideal s φ) (hx : ∀ i, IsReal (x i)) :
    ∀ i, IsNonnegReal (mulf x x i) := fun i => (hx i).mul_self_nonneg

/-- Entrywise sum of a non-negative and a positive array. -/
theorem pos_addf (x y : FVec Ideal s φ) (hx : ∀ i, IsNonnegReal (x i)) (hy : ∀ i, IsPosReal (y i)) :
    ∀ i, IsPosReal (addf x y i) := fun i => (hx i).add_pos (hy i)

/-- A splat constant: every entry is the value of the one word. -/
theorem prop_constant (P : EReal → Prop) (b : BitVec φ.bits) (hb : P (Ideal.ofBits φ b)) :
    ∀ i, P (constant (F := Ideal) s φ b i) := fun _ => hb

/-- A broadcast: every entry of the result is an entry of the operand, so a property of all entries carries over. -/
theorem prop_broadcastInDim (P : EReal → Prop) (dims : Fin s.rank → Fin t.rank) (h : s.BroadcastsInDim t dims)
    (x : s.Idx → EReal) (hx : ∀ i, P (x i)) : ∀ j, P (broadcastInDim t dims h x j) := fun _ => hx _

/-- A gather: every entry of the result is the operand's entry at some index, whatever the index array. -/
theorem prop_gather (P : EReal → Prop) {si : Shape} {w : Nat} (d : GatherDims s si t) (x : s.Idx → EReal)
    (idx : IVec si w) (hx : ∀ i, P (x i)) : ∀ j, P (Host.gather d x idx j) := fun _ => hx _

/-- An accumulating scatter: each entry is the operand's entry plus a finite sum of update entries. -/
theorem real_scatterAdd {si u : Shape} {w : Nat} (d : ScatterDims s si u) (x : FVec Ideal s φ) (idx : IVec si w)
    (upd : FVec Ideal u φ) (hx : ∀ i, IsReal (x i)) (hu : ∀ j, IsReal (upd j)) :
    ∀ i, IsReal (Host.scatterAdd d x idx upd i) := fun i =>
  (hx i).add (IsReal.sum _ _ fun j _ => hu j)

/-- An accumulating scatter of non-negative reals into non-negative reals. -/
theorem nonneg_scatterAdd {si u : Shape} {w : Nat} (d : ScatterDims s si u) (x : FVec Ideal s φ) (idx : IVec si w)
    (upd : FVec Ideal u φ) (hx : ∀ i, IsNonnegReal (x i)) (hu : ∀ j, IsNonnegReal (upd j)) :
    ∀ i, IsNonnegReal (Host.scatterAdd d x idx upd i) := fun i =>
  (hx i).add (IsNonnegReal.sum _ _ fun j _ => hu j)

/-- A contraction: each entry is a finite sum of products. -/
theorem real_dotGeneral {sl sr so : Shape} {φ₁ φ₂ : FTy} (d : DotDims sl sr so) (prec : Option ContractPrecision)
    (x : FVec Ideal sl φ₁) (y : FVec Ideal sr φ₂) (hx : ∀ i, IsReal (x i)) (hy : ∀ i, IsReal (y i)) :
    ∀ j, IsReal (Host.dotGeneral d prec x y j) := fun j => by
  simp only [Host.dotGeneral]
  rw [Ideal.dotGeneral_apply]
  exact IsReal.sum _ _ fun k _ => (hx _).mul (hy _)

/-- A sum over axes: each entry is the initial value plus a finite sum of operand entries. -/
theorem real_reduceAdd {axes : List (Fin s.rank)} {u : Shape} (x : FVec Ideal s φ) (init : u.Idx → Ideal φ)
    (h : s.ReducesTo axes t) (hu : 0 < u.numel) (hx : ∀ i, IsReal (x i)) (hinit : ∀ i, IsReal (init i)) :
    ∀ j, IsReal (Host.reduceAdd x init h hu j) := fun j =>
  (hinit _).add (IsReal.sum _ _ fun i _ => hx i)

/-- A sum over axes of non-negative reals from a non-negative initial value. -/
theorem nonneg_reduceAdd {axes : List (Fin s.rank)} {u : Shape} (x : FVec Ideal s φ) (init : u.Idx → Ideal φ)
    (h : s.ReducesTo axes t) (hu : 0 < u.numel) (hx : ∀ i, IsNonnegReal (x i)) (hinit : ∀ i, IsNonnegReal (init i)) :
    ∀ j, IsNonnegReal (Host.reduceAdd x init h hu j) := fun j =>
  (hinit _).add (IsNonnegReal.sum _ _ fun i _ => hx i)

/-- An entrywise quotient by an array whose entries are all one nonzero real. -/
theorem real_hostDivf (x y : FVec Ideal s φ) {N : ℝ} (hN : N ≠ 0) (hx : ∀ i, IsReal (x i))
    (hy : ∀ i, y i = (N : EReal)) : ∀ i, IsReal (Host.divf x y i) := fun i => by
  show IsReal (Ideal.div (x i) (y i))
  rw [hy i]; exact isReal_div (hx i) hN

/-- An entrywise quotient of non-negative reals by an array whose entries are all one positive real. -/
theorem nonneg_hostDivf (x y : FVec Ideal s φ) {N : ℝ} (hN : 0 < N) (hx : ∀ i, IsNonnegReal (x i))
    (hy : ∀ i, y i = (N : EReal)) : ∀ i, IsNonnegReal (Host.divf x y i) := fun i => by
  show IsNonnegReal (Ideal.div (x i) (y i))
  rw [hy i]; exact (hx i).div hN

/-- The entrywise reciprocal square root of positive reals. -/
theorem real_hostRsqrt (x : FVec Ideal s φ) (hx : ∀ i, IsPosReal (x i)) : ∀ i, IsReal (Host.rsqrt x i) :=
  fun i => (hx i).rsqrt

end Cert.Lib.RealArrays

end
-- ==== Proof.RealChain.lean ====
/-
  Every entry the reference computes before its last round is a real number, given real inputs.

  The ideal value of a float is an extended real; the algebraic laws used elsewhere (and the agreement of
  `g / sqrt y` with `g · rsqrt y`) need real, respectively positive real, entries. This file follows the reference's
  named array functions one by one: the inverse degree (one over a count of edges, at least one), the mean
  aggregation (a finite sum of gathered entries times the inverse degree), the two dense maps (finite sums of
  products), the column variance (a sum of squares of reals over the positive count 100000, so a non-negative
  real, and positive once `ε` is added), the batch normalisation (a quotient by the square root of a positive
  real) and a whole hidden round.
-/
import proofs.«116927_j80977313399688_1_alg».proof.Proof.RefSpec
import proofs.«116927_j80977313399688_1_alg».proof.Proof.LibRealCollapse
import proofs.«116927_j80977313399688_1_alg».proof.Proof.LibBatchNormMoments
import proofs.«116927_j80977313399688_1_alg».proof.Proof.LibRealArrays
import Idealize.ShloMosaic.Lib.IdealHost
import Idealize.ShloMosaic.Lib.ValueIdx
import Idealize.ShloMosaic.PureOps.Ideal.Laws

noncomputable section

namespace Cert.ReferenceIdeal.RealChain

open Idealize.ShloMosaic Idealize.ShloMosaic.ValueIdx Cert.ReferenceIdeal Cert.Gcn Cert.BatchNorm Cert.Lib.RealArrays
open Facts₀

variable [Facts₀]

/-! ### Words and scalars -/

theorem isReal_word_zero : IsReal (Ideal.ofBits .f32 0x00000000#32) := by
  rw [Ideal.ofBits_zero_f32]; exact isReal_zero

theorem isNonneg_word_zero : IsNonnegReal (Ideal.ofBits .f32 0x00000000#32) := by
  rw [Ideal.ofBits_zero_f32]; exact isNonnegReal_zero

theorem isPos_word_one : IsPosReal (Ideal.ofBits .f32 0x3F800000#32) := ⟨1, one_pos, ofBits_one⟩

/-- The maximum of two reals among the extended reals is the real maximum. -/
theorem coe_max (a b : ℝ) : max (a : EReal) (b : EReal) = ((max a b : ℝ) : EReal) :=
  (EReal.coe_strictMono.monotone.map_max).symm

/-- The maximum of a non-negative real and one is a nonzero real. -/
theorem max_one_ne_zero {u : EReal} (hu : IsNonnegReal u) : ∃ N : ℝ, N ≠ 0 ∧ max u ((1 : ℝ) : EReal) = (N : EReal) := by
  obtain ⟨a, ha, rfl⟩ := hu
  exact ⟨max a 1, (lt_of_lt_of_le one_pos (le_max_right a 1)).ne', coe_max a 1⟩

/-- A real divided by the square root of a positive real is a real. -/
theorem isReal_div_sqrt {g y : EReal} (hg : IsReal g) (hy : IsPosReal y) : IsReal (Ideal.div g (Ideal.sqrt y)) := by
  obtain ⟨r, hr, rfl⟩ := hy
  rw [Ideal.sqrt_coe, if_neg (not_lt.mpr hr.le)]
  exact isReal_div hg (Real.sqrt_pos.mpr hr).ne'

/-! ### Entrywise facts over arbitrary arrays -/

section Generic
variable {s : Shape} {φ : FTy}

/-- An entrywise quotient at an index where the numerator is real and the denominator a nonzero real. -/
theorem isReal_hostDivf_at (x y : FVec Ideal s φ) (i : s.Idx) (hx : IsReal (x i))
    (hy : ∃ N : ℝ, N ≠ 0 ∧ y i = (N : EReal)) : IsReal (Host.divf x y i) := by
  obtain ⟨N, hN, e⟩ := hy
  show IsReal (Ideal.div (x i) (y i))
  rw [e]; exact isReal_div hx hN

/-- An entrywise maximum at an index where one side is a non-negative real and the other is one. -/
theorem max_one_at (x y : FVec Ideal s φ) (i : s.Idx) (hx : IsNonnegReal (x i)) (hy : y i = ((1 : ℝ) : EReal)) :
    ∃ N : ℝ, N ≠ 0 ∧ maximumf x y i = (N : EReal) := by
  show ∃ N : ℝ, N ≠ 0 ∧ max (x i) (y i) = (N : EReal)
  rw [hy]; exact max_one_ne_zero hx

/-- An entrywise quotient by the entrywise square root of positive reals. -/
theorem isReal_hostDivf_sqrt (g y : FVec Ideal s φ) (hg : ∀ i, IsReal (g i)) (hy : ∀ i, IsPosReal (y i)) :
    ∀ i, IsReal (Host.divf g (Host.sqrt y) i) := fun i => by
  show IsReal (Ideal.div (g i) (Ideal.sqrt (y i)))
  exact isReal_div_sqrt (hg i) (hy i)

end Generic

/-! ### The reference's array functions -/

/-- (a) The inverse degree: one over the maximum of a count of edges and one. -/
theorem invDeg_real (dst : Spec.I (F := Ideal) S1600000) : ∀ i, IsReal (Spec.invDeg dst i) := fun i => by
  unfold Spec.invDeg
  refine isReal_hostDivf_at _ _ i (prop_broadcastInDim IsReal _ _ _ (prop_constant IsReal _ isPos_word_one.isReal) i) ?_
  refine max_one_at _ _ i ?_ ofBits_one
  exact nonneg_scatterAdd _ _ _ _
    (prop_broadcastInDim IsNonnegReal _ _ _ (prop_constant IsNonnegReal _ isNonneg_word_zero))
    (prop_broadcastInDim IsNonnegReal _ _ _ (prop_constant IsNonnegReal _ isPos_word_one.isNonnegReal)) i

/-- (b) The mean aggregation of real rows. -/
theorem aggr_real (src dst : Spec.I (F := Ideal) S1600000) (h : Spec.A (F := Ideal) S100000x128)
    (hh : ∀ i, IsReal (h i)) : ∀ i, IsReal (Spec.aggr src dst h i) := by
  unfold Spec.aggr
  exact real_mulf _ _
    (real_scatterAdd _ _ _ _ (prop_broadcastInDim IsReal _ _ _ (prop_constant IsReal _ isReal_word_zero))
      (prop_gather IsReal _ _ _ hh))
    (prop_broadcastInDim IsReal _ _ _ (prop_broadcastInDim IsReal _ _ _ (invDeg_real dst)))

/-- A real vector spread over the rows. -/
theorem rows_real (v : Spec.A (F := Ideal) S128) (hv : ∀ i, IsReal (v i)) : ∀ i, IsReal (Spec.rows v i) := by
  unfold Spec.rows
  exact prop_broadcastInDim IsReal _ _ _ (prop_broadcastInDim IsReal _ _ _ hv)

/-- (c) The two dense maps of a hidden round. -/
theorem lin_real (a h : Spec.A (F := Ideal) S100000x128) (Wl : Spec.A (F := Ideal) S128x128) (b : Spec.A (F := Ideal) S128)
    (Wr : Spec.A (F := Ideal) S128x128) (ha : ∀ i, IsReal (a i)) (hh : ∀ i, IsReal (h i)) (hWl : ∀ i, IsReal (Wl i))
    (hb : ∀ i, IsReal (b i)) (hWr : ∀ i, IsReal (Wr i)) : ∀ i, IsReal (Spec.lin a h Wl b Wr i) := by
  unfold Spec.lin
  exact real_addf _ _ (real_addf _ _ (real_dotGeneral _ _ _ _ ha hWl) (rows_real b hb)) (real_dotGeneral _ _ _ _ hh hWr)

/-- The column sums of a real array. -/
theorem colSum_real (z : Spec.A (F := Ideal) S100000x128) (hz : ∀ i, IsReal (z i)) : ∀ i, IsReal (Spec.colSum z i) := by
  unfold Spec.colSum
  exact real_reduceAdd _ _ _ _ hz (prop_constant IsReal _ isReal_word_zero)

/-- The column sums of a non-negative real array. -/
theorem colSum_nonneg (z : Spec.A (F := Ideal) S100000x128) (hz : ∀ i, IsNonnegReal (z i)) :
    ∀ i, IsNonnegReal (Spec.colSum z i) := by
  unfold Spec.colSum
  exact nonneg_reduceAdd _ _ _ _ hz (prop_constant IsNonnegReal _ isNonneg_word_zero)

/-- The column means of a real array. -/
theorem colMean_real (z : Spec.A (F := Ideal) S100000x128) (hz : ∀ i, IsReal (z i)) : ∀ i, IsReal (Spec.colMean z i) := by
  unfold Spec.colMean
  exact real_hostDivf _ _ (N := 100000) (by norm_num) (colSum_real z hz) (fun _ => ofBits_hundred_thousand)

/-- A real array minus its column means. -/
theorem centred_real (z : Spec.A (F := Ideal) S100000x128) (hz : ∀ i, IsReal (z i)) : ∀ i, IsReal (Spec.centred z i) := by
  unfold Spec.centred
  exact real_subf _ _ hz (prop_broadcastInDim IsReal _ _ _
    (real_hostDivf _ _ (N := 100000) (by norm_num) (prop_broadcastInDim IsReal _ _ _ (colSum_real z hz))
      (fun _ => ofBits_hundred_thousand)))

/-- The count the sum of squares is divided by is 100000. -/
theorem varCount_eq : Spec.varCount (F := Ideal) ix0 = ((100000 : ℝ) : EReal) := by
  show Ideal.ofBits .f32 0x47C35000#32 - ((((0#32 : BitVec 32).toInt : ℝ)) : EReal) = _
  rw [ofBits_hundred_thousand]
  simp

/-- The column variance at a column: the guard on the count holds, so it is the sum of squared deviations over 100000. -/
theorem colVar_apply (z : Spec.A (F := Ideal) S100000x128) (q : Fin 128) :
    Spec.colVar z (ix1 q)
      = Ideal.div (Spec.colSum (mulf (Spec.centred z) (Spec.centred z)) (ix1 q)) ((100000 : ℝ) : EReal) := by
  have hc : (broadcastInDim S128 ![] bcast_S_S128 (cmpf (F := Ideal) .ogt (Spec.varCount (F := Ideal)) (constant (F := Ideal) S_ .f32 0x00000000#32)))
      (ix1 q) = 1#1 := by
    rw [broadcastInDim_scalar_apply]
    show Ideal.cmp .ogt (Spec.varCount (F := Ideal) ix0) (Ideal.ofBits .f32 0x00000000#32) = 1#1
    rw [varCount_eq, Ideal.ofBits_zero_f32]
    have : (0 : EReal) < ((100000 : ℝ) : EReal) := by exact_mod_cast (by norm_num : (0 : ℝ) < 100000)
    simp [Ideal.cmp, this]
  have hd : (broadcastInDim S128 ![] bcast_S_S128 (Spec.varCount (F := Ideal))) (ix1 q) = ((100000 : ℝ) : EReal) := by
    rw [broadcastInDim_scalar_apply]; exact varCount_eq
  unfold Spec.colVar
  refine (select_apply _ _ _ _).trans ?_
  rw [hc, select_one]
  show Ideal.div _ ((broadcastInDim S128 ![] bcast_S_S128 (Spec.varCount (F := Ideal))) (ix1 q)) = _
  rw [hd]

/-- The column variances of a real array are non-negative reals. -/
theorem colVar_nonneg (z : Spec.A (F := Ideal) S100000x128) (hz : ∀ i, IsReal (z i)) (q : Fin 128) :
    IsNonnegReal (Spec.colVar z (ix1 q)) := by
  rw [colVar_apply]
  exact (colSum_nonneg _ (nonneg_mulf_self _ (centred_real z hz)) (ix1 q)).div (by norm_num)

/-- (d) The column variance of a real array plus `ε` is a positive real. -/
theorem colVar_pos (z : Spec.A (F := Ideal) S100000x128) (hz : ∀ i, IsReal (z i)) :
    ∀ q : Fin 128, ∃ r : ℝ, 0 < r ∧ Spec.colVar z (ix1 q) + Ideal.ofBits .f32 0x3727C5AC#32 = (r : EReal) := fun q =>
  (colVar_nonneg z hz q).add_pos ofBits_eps_pos

/-- (e) The batch normalisation and rectifier of a real array with real scale and shift. -/
theorem bn_real (z : Spec.A (F := Ideal) S100000x128) (g be : Spec.A (F := Ideal) S128) (hz : ∀ i, IsReal (z i))
    (hg : ∀ i, IsReal (g i)) (hbe : ∀ i, IsReal (be i)) : ∀ i, IsReal (Spec.bn z g be i) := by
  have hpos : ∀ j : S128.Idx, IsPosReal (addf (Spec.colVar z) (broadcastInDim S128 ![] bcast_S_S128 (constant S_ .f32 0x3727C5AC#32)) j) := fun j => by
    rw [eq_ix1 j]
    exact colVar_pos z hz (j 0)
  unfold Spec.bn
  exact real_maximumf _ _
    (real_addf _ _
      (real_mulf _ _ (real_subf _ _ hz (rows_real _ (colMean_real z hz)))
        (rows_real _ (isReal_hostDivf_sqrt g _ hg hpos)))
      (rows_real be hbe))
    (prop_broadcastInDim IsReal _ _ _ (prop_constant IsReal _ isReal_word_zero))

/-- (f) A whole hidden round of real arrays is real. -/
theorem layer_real (src dst : Spec.I (F := Ideal) S1600000) (h : Spec.A (F := Ideal) S100000x128) (Wl : Spec.A (F := Ideal) S128x128)
    (b : Spec.A (F := Ideal) S128) (Wr : Spec.A (F := Ideal) S128x128) (g be : Spec.A (F := Ideal) S128)
    (hh : ∀ i, IsReal (h i)) (hWl : ∀ i, IsReal (Wl i)) (hb : ∀ i, IsReal (b i)) (hWr : ∀ i, IsReal (Wr i))
    (hg : ∀ i, IsReal (g i)) (hbe : ∀ i, IsReal (be i)) : ∀ i, IsReal (Spec.layer src dst h Wl b Wr g be i) := by
  unfold Spec.layer
  exact bn_real _ g be (lin_real _ h Wl b Wr (aggr_real src dst h hh) hh hWl hb hWr) hg hbe

/-- (f) The array a hidden round normalises has positive real `variance + ε` in every column. -/
theorem layer_colVar_pos (src dst : Spec.I (F := Ideal) S1600000) (h : Spec.A (F := Ideal) S100000x128) (Wl : Spec.A (F := Ideal) S128x128)
    (b : Spec.A (F := Ideal) S128) (Wr : Spec.A (F := Ideal) S128x128)
    (hh : ∀ i, IsReal (h i)) (hWl : ∀ i, IsReal (Wl i)) (hb : ∀ i, IsReal (b i)) (hWr : ∀ i, IsReal (Wr i)) :
    ∀ q : Fin 128, ∃ r : ℝ, 0 < r ∧
      Spec.colVar (Spec.lin (Spec.aggr src dst h) h Wl b Wr) (ix1 q) + Ideal.ofBits .f32 0x3727C5AC#32 = (r : EReal) :=
  colVar_pos _ (lin_real _ h Wl b Wr (aggr_real src dst h hh) hh hWl hb hWr)

end Cert.ReferenceIdeal.RealChain

end
-- ==== Proof.LibAllFinite.lean ====
/-
  From a "finite inputs" precondition to real numbers, for an array of any shape over the extended reals.
  Such a precondition is, per float argument, an all-reduction (a reduce by `and` of a one-bit array into a
  result of one index) of the comparison |x| < +∞, entry by entry. An extended real whose absolute value
  max x (−x) is below the word of +∞ is neither −∞ nor +∞ (|−∞| = |+∞| = +∞), hence a real number; so when the
  all-reduction is one, every entry of the argument is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.AllFinite

open Idealize.ShloMosaic Idealize.ShloMosaic.ValueIdx

/-- A rank-0 array has one index. -/
instance scalarIdxSubsingleton : Subsingleton (⟨0, ![]⟩ : Shape).Idx := ⟨fun a b => funext fun d => d.elim0⟩

/-- An extended real whose absolute value is below the word of +∞ is a real number. -/
theorem real_of_abs_lt_top (x : EReal)
    (h : Ideal.cmp .olt (max x (-x)) (Ideal.ofBits .f32 0x7F800000#32) = 1#1) : ∃ r : ℝ, x = (r : EReal) := by
  have hT : Ideal.ofBits .f32 0x7F800000#32 = ⊤ := by simp [Ideal.ofBits, Ideal.ieee]
  rw [hT] at h
  induction x using EReal.rec with
  | bot => simp [Ideal.cmp] at h
  | coe r => exact ⟨r, rfl⟩
  | top => simp [Ideal.cmp] at h

/-- `jnp.all(|x| < +∞)` being one — the host's all-reduction, over any axes, into one index, of the comparison of
    the host's absolute value of `x` with the broadcast word of +∞ — makes every entry of `x` a real number. -/
theorem real_of_all {s : Shape} {axes : List (Fin s.rank)} (x : s.Idx → EReal)
    (hb : (⟨0, ![]⟩ : Shape).BroadcastsInDim s ![]) (hr : s.ReducesTo axes ⟨0, ![]⟩)
    (hu : 0 < (⟨0, ![]⟩ : Shape).numel)
    (e : Host.reduce IntOp.andi (cmpf (F := Ideal) (φ := .f32) .olt (Host.absf (F := Ideal) (φ := .f32) x)
        (broadcastInDim s ![] hb (constant (F := Ideal) ⟨0, ![]⟩ .f32 0x7F800000#32)))
        (constantI ⟨0, ![]⟩ 1 1#1) hr hu ix0 = 1#1) (i : s.Idx) : ∃ r : ℝ, x i = (r : EReal) := by
  have hi := Host.reduce_andi_all _ _ hr hu ix0 e i
  have hc : broadcastInDim s ![] hb (constant (F := Ideal) ⟨0, ![]⟩ .f32 0x7F800000#32) i
      = Ideal.ofBits .f32 0x7F800000#32 := broadcastInDim_scalar_apply hb _ i
  refine real_of_abs_lt_top (x i) ?_
  rw [← hc]
  exact hi

end Cert.Lib.AllFinite

end
-- ==== Proof.PreReal.lean ====
/-
  From the precondition to real numbers. The precondition says of every float argument that the absolute value
  of each entry is below +∞ (one conjunction of fourteen all-reductions). An extended real whose absolute value
  is below +∞ is neither -∞ nor +∞, so it is a real number: every entry of every float argument is real.
-/
import proofs.«116927_j80977313399688_1_alg».proof.Defs
import proofs.«116927_j80977313399688_1_alg».proof.Proof.Gen.Pre_finite_inputs
import Idealize.ShloMosaic.Lib.ReduceAll
import Idealize.ShloMosaic.Lib.Affine
import Idealize.ShloMosaic.Lib.ValueIdx
import Idealize.ShloMosaic.Lib.IdealHost
import proofs.«116927_j80977313399688_1_alg».proof.Proof.LibAllFinite

set_option maxRecDepth 16384

noncomputable section

namespace Cert.PreReal

open Idealize.ShloMosaic Idealize.ShloMosaic.ValueIdx Idealize.SL.Sem
open Cert.Pre_finite_inputs Cert.Pre_finite_inputs.Facts

open Cert.Lib.AllFinite (real_of_all)

variable (m : (ℓ : Loc Cert.KernelIdeal.nD Cert.KernelIdeal.τ Cert.KernelIdeal.sig) → Buf (Elt Ideal) ℓ)

set_option maxHeartbeats 400000 in
/-- Under the precondition every entry of every float argument is a real number. -/
theorem all_real (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal))
    ∧ (∀ i, ∃ r : ℝ, m ((c.tc : Thread Cert.KernelIdeal.nD Cert.KernelIdeal.τ).loc Cert.KernelIdeal.main_arg11) i = (r : EReal))
    ∧ (∀ i, ∃ r : ℝ, m ((c.tc : Thread Cert.KernelIdeal.nD Cert.KernelIdeal.τ).loc Cert.KernelIdeal.main_arg12) i = (r : EReal))
    ∧ (∀ i, ∃ r : ℝ, m ((c.tc : Thread Cert.KernelIdeal.nD Cert.KernelIdeal.τ).loc Cert.KernelIdeal.main_arg13) i = (r : EReal))
    ∧ (∀ i, ∃ r : ℝ, m ((c.tc : Thread Cert.KernelIdeal.nD Cert.KernelIdeal.τ).loc Cert.KernelIdeal.main_arg14) i = (r : EReal))
    ∧ (∀ i, ∃ r : ℝ, m ((c.tc : Thread Cert.KernelIdeal.nD Cert.KernelIdeal.τ).loc Cert.KernelIdeal.main_arg15) i = (r : EReal)) := by
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨real_of_all _ _ _ _ e0, real_of_all _ _ _ _ e3, real_of_all _ _ _ _ e4, real_of_all _ _ _ _ e5, real_of_all _ _ _ _ e6, real_of_all _ _ _ _ e7, real_of_all _ _ _ _ e8, real_of_all _ _ _ _ e9, real_of_all _ _ _ _ e10, real_of_all _ _ _ _ e11, real_of_all _ _ _ _ e12, real_of_all _ _ _ _ e13, real_of_all _ _ _ _ e14, real_of_all _ _ _ _ e15⟩

end Cert.PreReal

end
-- ==== Proof.KValueB.lean ====
/-
  The idealized kernel's result in the reference's vocabulary. The last region leaves the log-softmax of the last
  dense maps of the aggregation of the second normalised output, so the result array at the last boundary is the
  reference's whole network of the launch contents once the two column variances plus ε are positive reals; and
  under the precondition they are: every float argument is entrywise real, and sums, products, quotients by
  nonzero reals, maxima and the normalisation keep arrays entrywise real.
-/
import proofs.«116927_j80977313399688_1_alg».proof.Proof.Gen.KernelIdeal.Frame
import proofs.«116927_j80977313399688_1_alg».proof.Proof.Gen.ReferenceIdeal
import proofs.«116927_j80977313399688_1_alg».proof.Proof.RefSpec
import Idealize.ShloMosaic.PureOps.Ideal
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import proofs.«116927_j80977313399688_1_alg».proof.Proof.KBase
import proofs.«116927_j80977313399688_1_alg».proof.Proof.KS4
import proofs.«116927_j80977313399688_1_alg».proof.Proof.KValueA
import proofs.«116927_j80977313399688_1_alg».proof.Proof.RegionLsm4
import proofs.«116927_j80977313399688_1_alg».proof.Proof.RealChain
import proofs.«116927_j80977313399688_1_alg».proof.Proof.PreReal

set_option maxRecDepth 16384

noncomputable section

namespace Cert.KernelIdeal.KChain

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

open Cert.KernelIdeal.RegionValue
/-- What the last region leaves: the log-softmax of the last dense maps of the aggregation of the second
    normalised output. -/
theorem W14_v68 (c : Dev nD) (h2 : Cert.ReferenceIdeal.Spec.A (F := Ideal) Cert.ReferenceIdeal.S100000x128)
    (hh : (W12 m ρ c (Proc.devRef .tc main_v53) : S100000x128.Idx → EReal) = h2) :
    (W14 m ρ c (Proc.devRef .tc main_v68) : S100000x40.Idx → EReal)
      = Cert.ReferenceIdeal.Spec.logSoftmax (F := Ideal) (Cert.ReferenceIdeal.Spec.lin2 (F := Ideal) (Cert.ReferenceIdeal.Spec.aggr (F := Ideal) (m ((c : Thread nD τ).loc main_arg1)) (m ((c : Thread nD τ).loc main_arg2)) h2) h2 (m ((c : Thread nD τ).loc main_arg13)) (m ((c : Thread nD τ).loc main_arg14)) (m ((c : Thread nD τ).loc main_arg15))) := by
  have h := value4 (V13 m ρ) c (m ((c : Thread nD τ).loc main_arg14)) (fun q => W13_main_v67_row m ρ c q)
  have e0 : (V13 m ρ c (Pipeline.arrRef spec4 0) : S100000x128.Idx → EReal) = _ := (W13_main_v66 m ρ c).trans (by rw [hh])
  have e1 : (V13 m ρ c (Pipeline.arrRef spec4 1) : S100000x128.Idx → EReal) = _ := (W13_main_v53_of12 m ρ c).trans hh
  have e2 : (V13 m ρ c (Pipeline.arrRef spec4 2)) = _ := W13_main_arg13_of0 m ρ c
  have e4 : (V13 m ρ c (Pipeline.arrRef spec4 4)) = _ := W13_main_arg15_of0 m ρ c
  rw [e0, e1, e2, e4] at h
  exact (W14_arr m ρ c 5).trans h

/-- The result array at the last boundary is the reference's whole network of the launch contents, once the
    two column variances plus ε are positive reals. -/
theorem result_of_pos (c : Dev nD)
    (hpos0 : (∀ q : Fin 128, ∃ r : ℝ, 0 < r ∧ Cert.ReferenceIdeal.Spec.colVar (Cert.ReferenceIdeal.Spec.lin (F := Ideal) (Cert.ReferenceIdeal.Spec.aggr (F := Ideal) (m ((c : Thread nD τ).loc main_arg1)) (m ((c : Thread nD τ).loc main_arg2)) (m ((c : Thread nD τ).loc main_arg0))) (m ((c : Thread nD τ).loc main_arg0)) (m ((c : Thread nD τ).loc main_arg3)) (m ((c : Thread nD τ).loc main_arg4)) (m ((c : Thread nD τ).loc main_arg5))) (ix1 q) + Ideal.ofBits .f32 0x3727C5AC#32 = (r : EReal)))
    (hpos1 : (∀ q : Fin 128, ∃ r : ℝ, 0 < r ∧ Cert.ReferenceIdeal.Spec.colVar (Cert.ReferenceIdeal.Spec.lin (F := Ideal) (Cert.ReferenceIdeal.Spec.aggr (F := Ideal) (m ((c : Thread nD τ).loc main_arg1)) (m ((c : Thread nD τ).loc main_arg2)) (Cert.ReferenceIdeal.Spec.bn (F := Ideal) (Cert.ReferenceIdeal.Spec.lin (F := Ideal) (Cert.ReferenceIdeal.Spec.aggr (F := Ideal) (m ((c : Thread nD τ).loc main_arg1)) (m ((c : Thread nD τ).loc main_arg2)) (m ((c : Thread nD τ).loc main_arg0))) (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7)))) (Cert.ReferenceIdeal.Spec.bn (F := Ideal) (Cert.ReferenceIdeal.Spec.lin (F := Ideal) (Cert.ReferenceIdeal.Spec.aggr (F := Ideal) (m ((c : Thread nD τ).loc main_arg1)) (m ((c : Thread nD τ).loc main_arg2)) (m ((c : Thread nD τ).loc main_arg0))) (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7))) (m ((c : Thread nD τ).loc main_arg8)) (m ((c : Thread nD τ).loc main_arg9)) (m ((c : Thread nD τ).loc main_arg10))) (ix1 q) + Ideal.ofBits .f32 0x3727C5AC#32 = (r : EReal))) :
    (W14 m ρ c (Proc.devRef .tc main_v68) : S100000x40.Idx → EReal)
      = Cert.ReferenceIdeal.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  W14_v68 m ρ c _ (W12_v53 m ρ c _ (W8_v45 m ρ c _ (W6_v30 m ρ c _ (W2_v22 m ρ c) hpos0)) hpos1)

/-- Under the precondition the result array at the last boundary is the reference's whole network of the launch
    contents. -/
theorem kernel_result (hpre : Cert.Pre_KernelIdeal m) (c : Dev nD) :
    (W14 m ρ c (Proc.devRef .tc main_v68) : S100000x40.Idx → EReal)
      = Cert.ReferenceIdeal.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  obtain ⟨r0, r3, r4, r5, r6, r7, r8, r9, r10, r11, r12, r13, r14, r15⟩ := Cert.PreReal.all_real m hpre c
  have hh1 := Cert.ReferenceIdeal.RealChain.layer_real (m ((c : Thread nD τ).loc main_arg1)) (m ((c : Thread nD τ).loc main_arg2)) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) r0 r3 r4 r5 r6 r7
  exact result_of_pos m ρ c
    (Cert.ReferenceIdeal.RealChain.layer_colVar_pos (m ((c : Thread nD τ).loc main_arg1)) (m ((c : Thread nD τ).loc main_arg2)) (m ((c : Thread nD τ).loc main_arg0)) (m ((c : Thread nD τ).loc main_arg3)) (m ((c : Thread nD τ).loc main_arg4)) (m ((c : Thread nD τ).loc main_arg5)) r0 r3 r4 r5)
    (Cert.ReferenceIdeal.RealChain.layer_colVar_pos (m ((c : Thread nD τ).loc main_arg1)) (m ((c : Thread nD τ).loc main_arg2)) _ (m ((c : Thread nD τ).loc main_arg8)) (m ((c : Thread nD τ).loc main_arg9)) (m ((c : Thread nD τ).loc main_arg10)) hh1 r8 r9 r10)

end Cert.KernelIdeal.KChain

end
-- ==== Proof.lean ====
/-
  The certificate of a three-round graph network (mean aggregation over the edges, two dense maps per round, batch
  normalisation and a rectifier after the first two rounds, a log-softmax after the third) computed by five kernel
  regions among host operations, against its plain reference.

  Frames: the word-level kernel and the idealized kernel run as the several-region frame says; the idealized
  reference runs as its operations read one after another.
  The idealization rewrote nothing, so there is nothing to preserve.
  Equality of results over the extended reals: every region writes what the reference's own host operations give
  on the region's input arrays — a dense region the two matrix products plus the bias (tiling the rows and the
  order of the two additions do not matter), a normalisation region (z − mean) · (g / sqrt(var + ε)) + be clipped
  at zero, which equals the kernel's (z − mean) · (g · rsqrt(var + ε)) + be where var + ε is a positive real, the
  last region the log-softmax of its dense maps — and the host operations between the regions are the reference's
  (the same gather, accumulation, means and variances). Under the precondition every float argument is entrywise a
  real number and so is every intermediate array, which makes the two variances plus ε positive reals. Hence the
  kernel's result is the reference's whole network of the arguments, and the reference's is by definition.
-/
import proofs.«116927_j80977313399688_1_alg».proof.Defs
import proofs.«116927_j80977313399688_1_alg».proof.Proof.Gen.Kernel
import proofs.«116927_j80977313399688_1_alg».proof.Proof.Gen.Kernel.Frame
import proofs.«116927_j80977313399688_1_alg».proof.Proof.Gen.KernelIdeal
import proofs.«116927_j80977313399688_1_alg».proof.Proof.Gen.KernelIdeal.Frame
import proofs.«116927_j80977313399688_1_alg».proof.Proof.Gen.ReferenceIdeal
import proofs.«116927_j80977313399688_1_alg».proof.Proof.Gen.Pre_finite_inputs
import Idealize.ShloMosaic.Adequacy
import Idealize.ShloMosaic.Init
import proofs.«116927_j80977313399688_1_alg».proof.Proof.KRun
import proofs.«116927_j80977313399688_1_alg».proof.Proof.RefRun
import proofs.«116927_j80977313399688_1_alg».proof.Proof.RefSpec
import proofs.«116927_j80977313399688_1_alg».proof.Proof.KValueB

set_option maxRecDepth 16384

noncomputable section

namespace Cert.Proof

open Idealize.ShloMosaic Idealize.SL.Sem

/-- The word-level kernel's frame: the generated several-region frame. -/
theorem frame_kernel : Cert.frame_Kernel := fun m ρ _ => Cert.Kernel.Gen.frame m ρ

/-- The idealized kernel's frame: the generated several-region frame. -/
theorem frame_kernelIdeal : Cert.frame_KernelIdeal := fun m ρ _ => Cert.KernelIdeal.Gen.frame m ρ

/-- The idealized reference's frame: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both idealized programs end with the reference's whole network of the arguments: the kernel's result array at
    its last segment boundary is that network of its launch contents (the precondition makes every intermediate a
    real number, which the two normalisations need), the reference's result is it by reading its operations, and
    the two programs start from equal arguments. -/
theorem algebraic : Cert.algebraic_KernelIdeal_ReferenceIdeal := by
  intro m ρ m' ρ' hpre hagree
  refine ⟨fun c => Cert.ReferenceIdeal.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.KChain.kernel_result m ρ hpre c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10, e11, e12, e13, e14, e15⟩ := hagree c
    rw [e0, e1, e2, e3, e4, e5, e6, e7, e8, e9, e10, e11, e12, e13, e14, e15]

/-- The certificate: the three frames, the (empty) idealization ledger, and the equality of results. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
